-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S1024x256 : Shape := ⟨2, ![1024, 256]⟩
abbrev S1024 : Shape := ⟨1, ![1024]⟩
abbrev S1024x1024 : Shape := ⟨2, ![1024, 1024]⟩

abbrev nBuf : Space → Nat
  | .hbm => 49
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .bf16⟩
  | .hbm, ⟨23, _⟩ => ⟨S4096x256, .bf16⟩
  | .hbm, ⟨24, _⟩ => ⟨S8192x256, .bf16⟩
  | .hbm, ⟨25, _⟩ => ⟨S8192, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024, .f32⟩
  | .local _ .vmem, ⟨4, _⟩ => ⟨S1024, .f32⟩
  | .local _ .vmem, ⟨5, _⟩ => ⟨S1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  concatenates_S4096x256_S4096x256_S8192x256_d0 : Shape.Concatenates [S4096x256, S4096x256] S8192x256 0
  inb_S1024_S1024_0 : ∀ a, (![0] : Fin 1 → Nat) a + S1024.size a ≤ S1024.size a
  h_S1024 : 0 < S1024.numel
  shapeCasts_S1024_S1024 : S1024.ShapeCasts S1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  reducesTo_S8192x256_S8192_d1 : S8192x256.ReducesTo [1] S8192
  bcast_S_S8192 : S_.BroadcastsInDim S8192 (![] : Fin 0 → Fin S8192.rank)
  concatenates_S4096_S4096_S8192_d0 : Shape.Concatenates [S4096, S4096] S8192 0
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v12) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x1, .i32⟩
  | .hbm, ⟨35, _⟩ => ⟨S4096x2, .i32⟩
  | .hbm, ⟨36, _⟩ => ⟨S4096, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S8192, .f32⟩
  | .hbm, ⟨59, _⟩ => ⟨S8192x8192, .i32⟩
  | .hbm, ⟨60, _⟩ => ⟨S8192x8192, .i32⟩
  | .hbm, ⟨61, _⟩ => ⟨S_, .i32⟩
  | .hbm, ⟨62, _⟩ => ⟨S8192x8192, .i32⟩
  | .hbm, ⟨63, _⟩ => ⟨S8192x8192, .i32⟩
  | .hbm, ⟨64, _⟩ => ⟨S8192x8192, .i1⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BRuns.lean ====
/-
  The body of the row-block kernel, run once per control case.

  The grid has 8 x 8 points; point (i, j) handles row block i (1024 rows) against column block j (1024 rows of the
  same array, sliced out of the whole array the second window keeps resident). The body zeroes a scratch vector
  of 1024 running sums when j = 0, adds to it the row sums of exp (2 * (row block) (column block)^T) at every point, and
  copies it to the output block when j = 7. So three control cases meet the grid: the first column (reset, then
  add), the middle columns (add), the last column (add, then copy out). For each case the body's triple is proved by
  symbolic execution of the body's memory operations; what each written buffer ends with is recorded as the list
  of pieces stored into it, found by the execution itself.
-/
import proofs.«164459_j76733885710415_2_alg».proof.Proof.Gen.Kernel.Launch
import proofs.«164459_j76733885710415_2_alg».proof.Proof.Gen.Kernel.Skeleton
import proofs.«164459_j76733885710415_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid coordinates, in closed form -/

/-- "This is the first column block": the body's first conditional. -/
abbrev cond0 (i : grid0.Coords) : Prop :=
  (Scalar.cmpi .ne (Scalar.extui (Scalar.cmpi .eq (BitVec.ofNat 32 (i 1).val) 0#32)) 0#32) = 1#1
/-- It holds at the points whose position is a multiple of 8 (positions run row-major over the 8 x 8 grid). -/
theorem hcond0 : ∀ t : Fin cfg0.N, cond0 (grid0.coords t) ↔ t.val % 8 = 0 :=
  (by decide +kernel : ∀ t : Fin grid0.N, cond0 (grid0.coords t) ↔ t.val % 8 = 0)

/-- "This is the last column block": the body's second conditional. -/
abbrev cond1 (i : grid0.Coords) : Prop := k0_cond2 i = 1#1
/-- It holds at the points whose position is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## The body in each case -/

set_option maxHeartbeats 4000000 in
/-- First column block: the scratch, at anything, is zeroed and then receives the block's row sums; the output's buffer is not
    touched and is handed back as found. -/
noncomputable def runA (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : cond0 i) (hc1 : ¬cond1 i)
    (x0 : Vec F S1024x256 .bf16) (x1 : Vec F S8192x256 .bf16) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, fun xi E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle column block: the scratch, at what the point before left, receives the block's row sums added to it; the
    output's buffer is handed back as found. -/
noncomputable def runB (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, fun xi E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last column block: the scratch, at what the point before left, receives the block's row sums added to it, and the
    output's buffer, at anything, receives a copy of the result. -/
noncomputable def runC (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) :
    Σ' (LO : List (View.Piece (Elt F) S1024 .f32)), { LS : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, ?_, fun E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frame

end
-- ==== Proof.BFrame.lean ====
/-
  The row-block kernel's pipeline: what its buffers hold point by point, the proof data, and the body obligation.

  Positions run row-major over the 8 x 8 grid, so position t is row block t / 8 against column block t % 8. The
  scratch vector of running sums is reset at the positions divisible by 8, grows by one column block's row sums at
  every position, and is copied to the output's staging buffer at the positions that are 7 modulo 8, which are exactly
  the positions at which the pipeline writes the output block back. Between those the output's buffer is left as it
  was found. Both input windows read ONE array: the row window takes block t / 8 of it, the column window keeps the
  whole array resident, so the array is held in two half shares, one per window.
-/
import proofs.«164459_j76733885710415_2_alg».proof.Proof.BRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Everything here is stated for an arbitrary valuation `Vr`: the contents of the core's buffers when the region is
entered, as a function of the reference — whatever the operations before the region left. -/

variable (Vr : (c : Dev nD) → (b : Ref sig .tc) → Buf (Elt F) ((c : Thread nD τ).loc b))

/-! ## The windows' blocks and staging buffers -/

/-- Window `w`'s block at position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vr c (Pipeline.arrRef spec0 w))

/-- Each window's current staging buffer at position `t`, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
/-- The scratch vector of running sums, and the views through which buffer contents are stated. -/
abbrev scM : Memref sig .tc .vmem S1024 .f32 := Memref.whole cc0_scratch0
abbrev VS : View sig .tc .vmem S1024 .f32 := scM.view
abbrev VO : View sig .tc .vmem S1024 .f32 := (Memref.whole cc0_stg2_0 : Memref sig .tc .vmem S1024 .f32).view

/-- The two input blocks at position `t` at their literal vector types: the row block (1024 rows of the array) and the
    column window's block (the whole array). -/
def rowBlk (c : Dev nD) (t : Fin cfg0.N) : Vec F S1024x256 .bf16 := iblk Vr c 0 t
def colBlk (c : Dev nD) (t : Fin cfg0.N) : Vec F S8192x256 .bf16 := iblk Vr c 1 t

/-- An input window's staging buffer holds the window's block at every position, fetched there or not: where it is not
    fetched the block index has not moved and the body left the block in place. -/
theorem before0_of {c : Dev nD} (dat : Dat τ (Elt F) Unit ℕ (UR sig nD τ) ℕ cfg0 c) (hA : dat.A 0 = Vr c (Pipeline.arrRef spec0 0))
    (hafter : ∀ t, dat.after 0 t = rowBlk Vr c t) (t : Fin cfg0.N) (d) : dat.before 0 t d = rowBlk Vr c t :=
  (dat.before_in_eq_fetched 0 rfl (fun _ => rfl) (fun _ _ _ => rfl) (fun t => by rw [hafter]; unfold Dat.blockOf rowBlk iblk; rw [hA]; try rfl) t d).trans
    (by unfold Dat.fetched Dat.blockOf rowBlk iblk; rw [hA]; try rfl)
theorem before1_of {c : Dev nD} (dat : Dat τ (Elt F) Unit ℕ (UR sig nD τ) ℕ cfg0 c) (hA : dat.A 1 = Vr c (Pipeline.arrRef spec0 1))
    (hafter : ∀ t, dat.after 1 t = colBlk Vr c t) (t : Fin cfg0.N) (d) : dat.before 1 t d = colBlk Vr c t :=
  (dat.before_in_eq_fetched 1 rfl (fun _ => rfl) (fun _ _ _ => rfl) (fun t => by rw [hafter]; unfold Dat.blockOf colBlk iblk; rw [hA]; try rfl) t d).trans
    (by unfold Dat.fetched Dat.blockOf colBlk iblk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
/-- Away from the last column block nothing is stored into the output's buffer and it is not written back. -/
theorem idle2 : ∀ t : Fin cfg0.N, ¬cond1 (grid0.coords t) → cfg0.idle 2 (grid0.coords t) = true := by decide +kernel
theorem noFlush2 : ∀ t : Fin cfg0.N, ¬cond1 (grid0.coords t) → (cfg0.win 2).flush t = false := by decide +kernel
/-- At the last column block the output's buffer is stored into. -/
theorem live2 : ∀ t : Fin cfg0.N, cond1 (grid0.coords t) → cfg0.idle 2 (grid0.coords t) = false := by decide +kernel

/-- The scoped buffers no window stages are the scratch vector alone. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## What each case leaves -/

/-- The first-column case's pieces cover the scratch vector; what they leave in it. -/
theorem scoverA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : cond0 i) (hc1 : ¬cond1 i)
    (x0 : Vec F S1024x256 .bf16) (x1 : Vec F S8192x256 .bf16) (y : S1024.Idx) :
    ∃ pc ∈ (runA c i arg2 harg2 arg3 harg3 arg4 harg4 arg5 harg5 hc0 hc1 x0 x1).1, y ∈ pc.1.set :=
  View.cover_of_tiledL (runA c i arg2 harg2 arg3 harg3 arg4 harg4 arg5 harg5 hc0 hc1 x0 x1).1 S1024.size (by sl_kernel_rfl) y
def soutA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : cond0 i) (hc1 : ¬cond1 i)
    (x0 : Vec F S1024x256 .bf16) (x1 : Vec F S8192x256 .bf16) : Vec F S1024 .f32 :=
  VS.read (Elt F) (VS.writes (Elt F) VS.junk (runA c i arg2 harg2 arg3 harg3 arg4 harg4 arg5 harg5 hc0 hc1 x0 x1).1)

/-- The same for a middle column. -/
theorem scoverB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) (y : S1024.Idx) :
    ∃ pc ∈ (runB c i arg2 harg2 arg3 harg3 arg4 harg4 arg5 harg5 hc0 hc1 x0 x1 xs).1, y ∈ pc.1.set :=
  View.cover_of_tiledL (runB c i arg2 harg2 arg3 harg3 arg4 harg4 arg5 harg5 hc0 hc1 x0 x1 xs).1 S1024.size (by sl_kernel_rfl) y
def soutB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) : Vec F S1024 .f32 :=
  VS.read (Elt F) (VS.writes (Elt F) VS.junk (runB c i arg2 harg2 arg3 harg3 arg4 harg4 arg5 harg5 hc0 hc1 x0 x1 xs).1)

/-- The last column: the pieces cover the scratch vector and the output's buffer; what they leave in each. -/
theorem scoverC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) (y : S1024.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S1024.size (by sl_kernel_rfl) y
theorem coverC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) (y : S1024.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S1024.size (by sl_kernel_rfl) y
def soutC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) : Vec F S1024 .f32 :=
  VS.read (Elt F) (VS.writes (Elt F) VS.junk (runC c i arg2 harg2 arg3 harg3 arg4 harg4 arg5 harg5 hc0 hc1 x0 x1 xs).2.1)
def outC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) : Vec F S1024 .f32 :=
  VO.read (Elt F) (VO.writes (Elt F) VO.junk (runC c i arg2 harg2 arg3 harg3 arg4 harg4 arg5 harg5 hc0 hc1 x0 x1 xs).1)

/-! ## The accumulation, position by position -/

/-- Contents nobody reads: what the scratch vector is taken to hold before the first position (the first column's
    case overwrites it before reading it). -/
def junkV : Vec F S1024 .f32 := VS.read (Elt F) VS.junk

/-- One position: from what the position before left in the scratch vector (`prev`), what the body leaves in the
    output's staging buffer (first component; consulted only at the last column, elsewhere a copy of the second) and in
    the scratch vector (second component). -/
def stepAt (c : Dev nD) (t : Fin cfg0.N) (prev : Vec F S1024 .f32) : Vec F S1024 .f32 × Vec F S1024 .f32 :=
  if h0 : t.val % 8 = 0 then
    (soutA c (grid0.coords t) (ms0 t) (hs0 t) (ms1 t) (hs1 t) (ms2 t) (hs2 t) scM (Memref.isWhole_whole _) ((hcond0 t).mpr h0) (fun h => by have := (hcond1 t).mp h; omega) (rowBlk Vr c t) (colBlk Vr c t),
     soutA c (grid0.coords t) (ms0 t) (hs0 t) (ms1 t) (hs1 t) (ms2 t) (hs2 t) scM (Memref.isWhole_whole _) ((hcond0 t).mpr h0) (fun h => by have := (hcond1 t).mp h; omega) (rowBlk Vr c t) (colBlk Vr c t))
  else if h1 : t.val % 8 = 7 then
    (outC c (grid0.coords t) (ms0 t) (hs0 t) (ms1 t) (hs1 t) (ms2 t) (hs2 t) scM (Memref.isWhole_whole _) (fun h => h0 ((hcond0 t).mp h)) ((hcond1 t).mpr h1) (rowBlk Vr c t) (colBlk Vr c t) prev,
     soutC c (grid0.coords t) (ms0 t) (hs0 t) (ms1 t) (hs1 t) (ms2 t) (hs2 t) scM (Memref.isWhole_whole _) (fun h => h0 ((hcond0 t).mp h)) ((hcond1 t).mpr h1) (rowBlk Vr c t) (colBlk Vr c t) prev)
  else
    (soutB c (grid0.coords t) (ms0 t) (hs0 t) (ms1 t) (hs1 t) (ms2 t) (hs2 t) scM (Memref.isWhole_whole _) (fun h => h0 ((hcond0 t).mp h)) (fun h => h1 ((hcond1 t).mp h)) (rowBlk Vr c t) (colBlk Vr c t) prev,
     soutB c (grid0.coords t) (ms0 t) (hs0 t) (ms1 t) (hs1 t) (ms2 t) (hs2 t) scM (Memref.isWhole_whole _) (fun h => h0 ((hcond0 t).mp h)) (fun h => h1 ((hcond1 t).mp h)) (rowBlk Vr c t) (colBlk Vr c t) prev)

/-- What the scratch vector holds after position `n`. -/
def accAt (c : Dev nD) : ℕ → Vec F S1024 .f32
  | 0 => if h : 0 < cfg0.N then (stepAt Vr c ⟨0, h⟩ junkV).2 else junkV
  | n + 1 => if h : n + 1 < cfg0.N then (stepAt Vr c ⟨n + 1, h⟩ (accAt c n)).2 else accAt c n

/-- What the scratch vector holds before position `n`. -/
def prevAt (c : Dev nD) : ℕ → Vec F S1024 .f32
  | 0 => junkV
  | n + 1 => accAt Vr c n

/-- What the body leaves at position `t`. -/
def outsAt (c : Dev nD) (t : Fin cfg0.N) : Vec F S1024 .f32 × Vec F S1024 .f32 := stepAt Vr c t (prevAt Vr c t.val)

theorem accAt_eq (c : Dev nD) (t : Fin cfg0.N) : accAt Vr c t.val = (outsAt Vr c t).2 := by
  obtain ⟨n, hn⟩ := t
  cases n with
  | zero => unfold outsAt prevAt accAt; rw [dif_pos hn]
  | succ n => unfold outsAt prevAt; rw [accAt, dif_pos hn]

/-- The invariant before position `n`: before the first position the scratch vector at anything; afterwards at what the
    position before left in it. -/
def PhiS (c : Dev nD) : ℕ → sProp 𝕄
  | 0 => iprop(∃ d, owns (c : Thread nD τ) scM fullShare d)
  | n + 1 => owns (c : Thread nD τ) scM fullShare (accAt Vr c n)

theorem PhiS_pos (c : Dev nD) (n : ℕ) (hz : n ≠ 0) : PhiS Vr c n = owns (c : Thread nD τ) scM fullShare (prevAt Vr c n) := by
  cases n with
  | zero => exact absurd rfl hz
  | succ n => rfl

/-- At any position the invariant holds the scratch vector at SOMETHING. -/
theorem PhiS_some (c : Dev nD) (n : ℕ) : PhiS Vr c n ⊢ iprop(∃ d, owns (c : Thread nD τ) scM fullShare d) := by
  cases n with
  | zero => exact .rfl
  | succ n => unfold PhiS; iintro H; iexists _; iexact H

/-! ## The proof data -/

/-- The arrays as the region finds them; after the body each input's buffer at its block and the output's at the copied
    sums; the invariant above; the shared array's two readers at the two halves of the full share; nothing owed. -/
def dats (_ : Fin 1) (c : Dev nD) : Dat τ (Elt F) Unit ℕ (UR sig nD τ) ℕ cfg0 c where
  A w := Vr c (Pipeline.arrRef spec0 w)
  after w t := match w with
    | ⟨0, _⟩ => rowBlk Vr c t
    | ⟨1, _⟩ => colBlk Vr c t
    | ⟨2, _⟩ => (outsAt Vr c t).1
  Φ t := PhiS Vr c t.val
  q w := match w with
    | ⟨0, _⟩ => fullShare.left
    | ⟨1, _⟩ => fullShare.right
    | ⟨2, _⟩ => fullShare
  owed _ := 0

theorem A_eq (c : Dev nD) (w : Fin cfg0.W) : (dats Vr 0 c).A w = Vr c (Pipeline.arrRef spec0 w) := by dsimp only [dats]
theorem Phi_castSucc (c : Dev nD) (t : Fin cfg0.N) : (dats Vr 0 c).Φ t.castSucc = PhiS Vr c t.val := by
  dsimp only [dats]; simp only [Fin.coe_castSucc]
theorem Phi_succ (c : Dev nD) (t : Fin cfg0.N) : (dats Vr 0 c).Φ t.succ = owns (c : Thread nD τ) scM fullShare (outsAt Vr c t).2 := by
  dsimp only [dats]; simp only [Fin.val_succ]
  show owns (c : Thread nD τ) scM fullShare (accAt Vr c t.val) = _
  rw [accAt_eq]
theorem after0 (c : Dev nD) (t : Fin cfg0.N) : (dats Vr 0 c).after 0 t = rowBlk Vr c t := by dsimp only [dats]
theorem after1 (c : Dev nD) (t : Fin cfg0.N) : (dats Vr 0 c).after 1 t = colBlk Vr c t := by dsimp only [dats]
theorem after2 (c : Dev nD) (t : Fin cfg0.N) : (dats Vr 0 c).after 2 t = (outsAt Vr c t).1 := by dsimp only [dats]
theorem before0 (c : Dev nD) (t : Fin cfg0.N) (d) : (dats Vr 0 c).before 0 t d = rowBlk Vr c t :=
  before0_of Vr (dats Vr 0 c) (A_eq Vr c 0) (after0 Vr c) t d
theorem before1 (c : Dev nD) (t : Fin cfg0.N) (d) : (dats Vr 0 c).before 1 t d = colBlk Vr c t :=
  before1_of Vr (dats Vr 0 c) (A_eq Vr c 1) (after1 Vr c) t d

/-! ## The body obligation -/

/-- What the body is called with at position `t`, the windows one by one, -/
def bodyPre (c : Dev nD) (t : Fin cfg0.N) : sProp 𝕄 :=
  iprop((dats Vr 0 c).Φ t.castSucc ∗ (dats Vr 0 c).owesAt () t.castSucc
    ∗ (∃ d, owns (c : Thread nD τ) (ms0 t) fullShare ((dats Vr 0 c).before 0 t d))
    ∗ (∃ d, owns (c : Thread nD τ) (ms1 t) fullShare ((dats Vr 0 c).before 1 t d))
    ∗ (∃ d, owns (c : Thread nD τ) (ms2 t) fullShare ((dats Vr 0 c).before 2 t d)))

/-- and what it returns. -/
def bodyPost (c : Dev nD) (t : Fin cfg0.N) : sProp 𝕄 :=
  iprop((dats Vr 0 c).Φ t.succ ∗ (dats Vr 0 c).owesAt () t.succ
    ∗ (dats Vr 0 c).leavesExact 0 t ∗ (dats Vr 0 c).leavesExact 1 t ∗ (dats Vr 0 c).leavesExact 2 t)

set_option maxHeartbeats 4000000 in
/-- The body at any position. The inputs' buffers hold their blocks; the position's residue modulo 8 says which case it is in;
    the invariant hands the body the scratch vector at what the position before left (at anything, at a first column) and
    takes it back at this position's contents; away from the last column the output's buffer goes back as it came. -/
theorem sound_body (c : Dev nD) (t : Fin cfg0.N) :
    bodyPre Vr c t ⊢ wp frame (wpE (defs₀ (F := F)) Variants.none c none) Set.univ (bodyAt0 t) (fun _ => bodyPost Vr c t) := by
  unfold bodyPre bodyPost bodyAt0
  simp only [before0, before1]
  rw [show (dats Vr 0 c).owesAt () t.succ = (dats Vr 0 c).owesAt () t.castSucc from rfl]
  rw [Phi_succ, Phi_castSucc]
  rw [show (dats Vr 0 c).leavesExact 0 t = owns (c : Thread nD τ) (ms0 t) fullShare ((dats Vr 0 c).after 0 t) from by
    unfold Dat.leavesExact; rw [live0 t], after0]
  rw [show (dats Vr 0 c).leavesExact 1 t = owns (c : Thread nD τ) (ms1 t) fullShare ((dats Vr 0 c).after 1 t) from by
    unfold Dat.leavesExact; rw [live1 t], after1]
  have hN : t.val < 64 := lt_of_lt_of_eq t.isLt (show cfg0.N = 64 from N_0)
  by_cases h0 : t.val % 8 = 0
  · have hc1 : ¬cond1 (grid0.coords t) := fun h => by have := (hcond1 t).mp h; omega
    rw [Dat.leavesExact_idle (dats Vr 0 c) 2 t (idle2 t hc1) (noFlush2 t hc1)]
    unfold outsAt stepAt; rw [dif_pos h0]; unfold soutA; (try dsimp only)
    iintro ⟨HP, Ho, ⟨%d0, H0⟩, ⟨%d1, H1⟩, ⟨%d2, H2⟩⟩
    ihave HS := (PhiS_some Vr c t.val) $$ HP
    iapply ((runA c (grid0.coords t) _ _ _ _ _ _ _ _ ((hcond0 t).mpr h0) hc1 (rowBlk Vr c t) (colBlk Vr c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS]
    · unfold owns; iexists _; isplitr
      swap; · iexact HS
      ipureintro; exact View.read_writes_of_cover _ _ _ _ _ (scoverA c _ _ _ _ _ _ _ _ _ _ _ _ _)
    isplitl [Ho]; · iexact Ho
    isplitl [H0]; · iexact H0
    isplitl [H1]; · iexact H1
    iexists _; iexact H2
  · have hz : t.val ≠ 0 := fun h => h0 (by rw [h])
    rw [PhiS_pos Vr c t.val hz]
    by_cases h1 : t.val % 8 = 7
    · rw [show (dats Vr 0 c).leavesExact 2 t = owns (c : Thread nD τ) (ms2 t) fullShare ((dats Vr 0 c).after 2 t) from by
        unfold Dat.leavesExact; rw [live2 t ((hcond1 t).mpr h1)], after2]
      unfold outsAt stepAt; rw [dif_neg h0, dif_pos h1]; unfold outC soutC; (try dsimp only)
      iintro ⟨HS, Ho, ⟨%d0, H0⟩, ⟨%d1, H1⟩, ⟨%d2, H2⟩⟩
      iapply ((runC c (grid0.coords t) _ _ _ _ _ _ _ _ (fun h => h0 ((hcond0 t).mp h)) ((hcond1 t).mpr h1) (rowBlk Vr c t) (colBlk Vr c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (scoverC c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hc1 : ¬cond1 (grid0.coords t) := fun h => h1 ((hcond1 t).mp h)
      rw [Dat.leavesExact_idle (dats Vr 0 c) 2 t (idle2 t hc1) (noFlush2 t hc1)]
      unfold outsAt stepAt; rw [dif_neg h0, dif_neg h1]; unfold soutB; (try dsimp only)
      iintro ⟨HS, Ho, ⟨%d0, H0⟩, ⟨%d1, H1⟩, ⟨%d2, H2⟩⟩
      iapply ((runB c (grid0.coords t) _ _ _ _ _ _ _ _ (fun h => h0 ((hcond0 t).mp h)) hc1 (rowBlk Vr c t) (colBlk Vr c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (scoverB c _ _ _ _ _ _ _ _ _ _ _ _ _ _)
      isplitl [Ho]; · iexact Ho
      isplitl [H0]; · iexact H0
      isplitl [H1]; · iexact H1
      iexists _; iexact H2

/-- The library's body obligation, at every position. -/
theorem body_obligation (c : Dev nD) : BodyObligation (dats (F := F) Vr 0 c) (defs₀ (F := F)) Variants.none () Set.univ := fun t => by
  rw [bigSep_W0, bigSep_W0]
  exact sound_body Vr c t

end Cert.Kernel.Frame

end
-- ==== Proof.BShare.lean ====
/-
  Two input windows on one array. The row-block window and the resident column window both read the stacked,
  normalized array, and the output window owns the array of row sums. At entry the array read twice, held whole at
  the full share, is split into the two halves of the full share, one per input window; at exit the two halves are
  joined back into the full share. The output's array passes through unchanged.
-/
import proofs.«164459_j76733885710415_2_alg».proof.Proof.Gen.Kernel.Launch
import Idealize.ShloMosaic.Lib.Pipeline.Regions
import Idealize.ShloMosaic.Lib.Tactic

set_option maxRecDepth 16384

noncomputable section

namespace Cert.Kernel.Share

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct arrays behind the three windows. -/
theorem image_arrRef : Finset.univ.image (Pipeline.arrRef spec0) = [main_v12, main_v13].toFinset := by decide

theorem share0 (c : Dev nD) (dat : Pipeline.Dat τ (Elt F) Unit ℕ (UR sig nD τ) ℕ cfg0 c)
    (hq0 : dat.q 0 = fullShare.left) : dat.share 0 = fullShare.left := by
  unfold Pipeline.Dat.share
  rw [if_neg (by decide)]; exact hq0

theorem share1 (c : Dev nD) (dat : Pipeline.Dat τ (Elt F) Unit ℕ (UR sig nD τ) ℕ cfg0 c)
    (hq1 : dat.q 1 = fullShare.right) : dat.share 1 = fullShare.right := by
  unfold Pipeline.Dat.share
  rw [if_neg (by decide)]; exact hq1

theorem share2 (c : Dev nD) (dat : Pipeline.Dat τ (Elt F) Unit ℕ (UR sig nD τ) ℕ cfg0 c) : dat.share 2 = fullShare := by
  unfold Pipeline.Dat.share
  rw [if_pos (by decide)]

theorem arrays_of_arrBufs (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp 𝕄) ⊢ dat.arrays Fw := by
  unfold Pipeline.arrBufs Pipeline.Dat.arrays
  rw [bigSep_eq_bigSepL_of_eq [main_v12, main_v13] image_arrRef (by decide), Gen.bigSep_W0]
  have w0 : (cfg0.win 0).arr.IsWhole := Memref.isWhole_whole main_v12
  have w1 : (cfg0.win 1).arr.IsWhole := Memref.isWhole_whole main_v12
  have w2 : (cfg0.win 2).arr.IsWhole := Memref.isWhole_whole main_v13
  rw [w0.set_eq_univ, w2.set_eq_univ, share0 c dat hq0, share1 c dat hq1, share2 c dat, hF 0, hF 1, hF 2]
  show iprop((((c.tc : Thread nD τ).loc main_v12) ↦{fullShare} V main_v12) ∗ (((c.tc : Thread nD τ).loc main_v13) ↦{fullShare} V main_v13))
    ⊢ (iprop((((c.tc : Thread nD τ).loc main_v12) ↦{fullShare.left} V main_v12) ∗ (((c.tc : Thread nD τ).loc main_v12) ↦{fullShare.right} V main_v12)
        ∗ (((c.tc : Thread nD τ).loc main_v13) ↦{fullShare} V main_v13)) : sProp 𝕄)
  iintro ⟨H12, H13⟩
  ihave H := (pointsTo_share (PosShare.mem_left_op_right fullShare)).1 $$ H12
  icases H with ⟨Hl, Hr⟩
  isplitl [Hl]; · iexact Hl
  isplitl [Hr]; · iexact Hr
  iexact H13

theorem arrBufs_of_arrays (c : Dev nD) (dat : Pipeline.Dat τ (Elt F) Unit ℕ (UR sig nD τ) ℕ cfg0 c)
    (hq0 : dat.q 0 = fullShare.left) (hq1 : dat.q 1 = fullShare.right)
    (V' : (b : Ref sig .tc) → Buf (Elt F) ((c.tc : Thread nD τ).loc b))
    (Fw : (w : Fin cfg0.W) → Buf (Elt F) ((cfg0.win w).arr.view.loc (c.tc : Thread nD τ)))
    (hF : ∀ w, Fw w = V' (Pipeline.arrRef spec0 w)) :
    (dat.arrays Fw : sProp 𝕄) ⊢ Pipeline.arrBufs spec0 c V' := by
  unfold Pipeline.arrBufs Pipeline.Dat.arrays
  rw [bigSep_eq_bigSepL_of_eq [main_v12, main_v13] image_arrRef (by decide), Gen.bigSep_W0]
  have w0 : (cfg0.win 0).arr.IsWhole := Memref.isWhole_whole main_v12
  have w2 : (cfg0.win 2).arr.IsWhole := Memref.isWhole_whole main_v13
  rw [w0.set_eq_univ, w2.set_eq_univ, share0 c dat hq0, share1 c dat hq1, share2 c dat, hF 0, hF 1, hF 2]
  show (iprop((((c.tc : Thread nD τ).loc main_v12) ↦{fullShare.left} V' main_v12) ∗ (((c.tc : Thread nD τ).loc main_v12) ↦{fullShare.right} V' main_v12)
        ∗ (((c.tc : Thread nD τ).loc main_v13) ↦{fullShare} V' main_v13)) : sProp 𝕄)
    ⊢ iprop((((c.tc : Thread nD τ).loc main_v12) ↦{fullShare} V' main_v12) ∗ (((c.tc : Thread nD τ).loc main_v13) ↦{fullShare} V' main_v13))
  iintro ⟨Hl, Hr, H13⟩
  ihave H12 := (pointsTo_share (PosShare.mem_left_op_right fullShare)).2 $$ [Hl Hr]
  · isplitl [Hl]; · iexact Hl
    iexact Hr
  isplitl [H12]; · iexact H12
  iexact H13

end Cert.Kernel.Share

end
-- ==== Proof.BLaunch.lean ====
/-
  The launch of the whole program: the operations before the region, the region, the operations after it.

  The program is four stretches of host operations (each batch's row lengths, the clamp, the division, the stacking),
  ONE kernel region, and a last stretch of host operations (the diagonal term, the logarithms, the mean). Between
  two of these a core holds all its long-lived buffers at a valuation: the launch contents pushed through the
  operations run so far. The region is entered by taking the stacked array apart into two half shares, one per
  reading window, and the output array whole; it is left by putting the halves together again — the array is as it
  was, both readers having only read it — and recording the output array's final contents, which is the only buffer
  whose contents the region changes. The run's conclusion reads every long-lived buffer off the final valuation.
-/
import proofs.«164459_j76733885710415_2_alg».proof.Proof.BFrame
import proofs.«164459_j76733885710415_2_alg».proof.Proof.BShare

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's resource algebra is the whole of the certificate's. -/
abbrev EP : Emb (UR sig nD τ) (MT nD τ sig Unit (Elt F) ℕ (UR sig nD τ) ℕ) := emb₁

/-! ## The valuations between the segments -/

/-- Core `c`'s buffers at launch, then after each stretch of host operations before the region. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
/-- The contents the region finds, read at a reference. -/
abbrev Vr (c : Dev nD) (b : Ref sig .tc) : Buf (Elt F) ((c : Thread nD τ).loc b) := W4 m c (Proc.devRef .tc b)

/-- The output array when the region is left: every block written back. -/
def outArr (c : Dev nD) : Buf (Elt F) ((c : Thread nD τ).loc main_v13) := (dats (Vr m) 0 c).arrAt 2 cfg0.N

/-- The contents the region leaves: the output array at its final contents, everything else as found. -/
def W5 (c : Dev nD) : Valuation τ sig (Elt F) := fun b =>
  if h : b = Proc.devRef .tc main_v13 then h ▸ outArr m c else W4 m c b

theorem W5_out (c : Dev nD) : W5 m c (Proc.devRef .tc main_v13) = outArr m c := by
  unfold W5; rw [dif_pos rfl]
theorem W5_ne (c : Dev nD) (b : DevRef τ sig) (hb : b ≠ Proc.devRef .tc main_v13) : W5 m c b = W4 m c b := by
  unfold W5; rw [dif_neg hb]

/-- After the last stretch. -/
abbrev W6 (c : Dev nD) : Valuation τ sig (Elt F) := StableHlo.after hostOps1 (W5 m c)

/-- No operation writes an input array: each reaches the end as launched. -/
theorem W4_arg0 (c : Dev nD) : W4 m c (Proc.devRef .tc main_arg0) = m (c, Proc.devRef .tc main_arg0) := by
  dsimp only [W4, W3, W2, W1, hostOps0, hostOps0_1, hostOps0_2, hostOps0_3]
  after_results
theorem W4_arg1 (c : Dev nD) : W4 m c (Proc.devRef .tc main_arg1) = m (c, Proc.devRef .tc main_arg1) := by
  dsimp only [W4, W3, W2, W1, hostOps0, hostOps0_1, hostOps0_2, hostOps0_3]
  after_results
theorem W6_arg0 (c : Dev nD) : W6 m c (Proc.devRef .tc main_arg0) = m (c, Proc.devRef .tc main_arg0) := by
  refine Eq.trans ?_ ((W5_ne m c _ (StableHlo.devRef_ne_of_ne (by decide))).trans (W4_arg0 m c))
  dsimp only [W6, hostOps1]
  after_results
theorem W6_arg1 (c : Dev nD) : W6 m c (Proc.devRef .tc main_arg1) = m (c, Proc.devRef .tc main_arg1) := by
  refine Eq.trans ?_ ((W5_ne m c _ (StableHlo.devRef_ne_of_ne (by decide))).trans (W4_arg1 m c))
  dsimp only [W6, hostOps1]
  after_results

/-! ## The segments -/

/-- No core owes another anything: no level is assigned; no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the long-lived buffers held at a valuation. -/
def hseg (ops : List (HloOp τ sig (Elt F))) (hsub : ops.Forall fun op => op.bufs ⊆ StableHlo.tcRefs τ sig)
    (hfr : ops.Forall fun op => op.fresh = ∅) (V : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h)) (List.forall_iff_forall_mem.mp hfr) V R

/-- Off the two arrays of the region the entry and exit valuations agree. -/
theorem rest_congr (c : Dev nD) :
    (Pipeline.unscopedRest spec0 c (Vr m c) : sProp 𝕄) = Pipeline.unscopedRest spec0 c (fun b => W5 m c (Proc.devRef .tc b)) := by
  unfold Pipeline.unscopedRest
  refine bigSep_congr fun b hb => ?_
  have hne : b ≠ main_v13 := fun e => (Finset.mem_sdiff.mp hb).2 (Finset.mem_image.mpr ⟨2, Finset.mem_univ _, by rw [e]⟩)
  beta_reduce
  rw [W5_ne m c _ (StableHlo.devRef_ne_of_ne hne)]

/-- The arrays when the region is left, window by window: the stacked array as found (both its windows only read it),
    the output array at its final contents. -/
theorem exit_contents (c : Dev nD) (w : Fin cfg0.W) :
    (dats (Vr m) 0 c).arrAt w cfg0.N = W5 m c (Proc.devRef .tc (Pipeline.arrRef spec0 w)) := by
  match w with
  | ⟨0, _⟩ => exact ((dats (Vr m) 0 c).arrAt_in 0 rfl _).trans ((A_eq (Vr m) c 0).trans (W5_ne m c _ (StableHlo.devRef_ne_of_ne (by decide))).symm)
  | ⟨1, _⟩ => exact ((dats (Vr m) 0 c).arrAt_in 1 rfl _).trans ((A_eq (Vr m) c 1).trans (W5_ne m c _ (StableHlo.devRef_ne_of_ne (by decide))).symm)
  | ⟨2, _⟩ => exact (W5_out m c).symm

set_option backward.isDefEq.respectTransparency.types false in
/-- THE REGION. Entered from the long-lived buffers at the valuation the operations before it left: the two arrays of
    its windows go to the pipeline (the stacked array in two halves), the scratch vector is the invariant's, every other
    buffer bypasses the region. Left with the arrays put together again at the exit valuation. -/
def reg0 : Pipeline.RegionSeg (pcfgs (F := F)) adm (dats (Vr m)) () defs₀ Variants.none L lv 0 where
  win := winFacts₀0
  block_pos := block_pos0
  stage_whole := stage_whole0
  K := PEmpty
  osem := fun k => k.elim
  ho := Pipeline.OwnSemFacts.none _
  hbody c := (body_obligation (Vr m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(emp)
  Y c := iprop(emp)
  Z c := Pipeline.unscopedRest spec0 c (Vr m c)
  hentry c := by
    rw [show StableHlo.held (c : Thread nD τ) (Pipeline.ucRefs τ sig) (W4 m c) = unscopedBufs c (Vr m c) from (Pipeline.unscopedBufs_held c (W4 m c)).symm,
      Pipeline.unscopedBufs_split₀ cfgs 0 winFacts₀0.arr_unscoped c (Vr m c)]
    iintro ⟨⟨⟨Ha, Hrest⟩, HO⟩, -, -⟩
    ihave Harr := (Share.arrays_of_arrBufs c (dats (Vr m) 0 c) rfl rfl (Vr m c) ((dats (Vr m) 0 c).arrAt · 0) (fun w => A_eq (Vr m) c w)) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats (Vr m) 0 c).Φ 0 = iprop(∃ d, owns (c : Thread nD τ) scM fullShare d) from rfl, scopedRest_scratch]
    iintro ⟨-, -, Hr⟩
    iexact Hr
  hout c := by
    rw [Pipeline.ownSems0_none, scopedRest_scratch]
    show PhiS (Vr m) c (Fin.last cfg0.N).val ⊢ _
    refine (PhiS_some (Vr m) c _).trans ?_
    iintro H
    isplitr; · iempintro
    isplitr; · iempintro
    iexact H
  hexit c := by
    rw [show StableHlo.held (c : Thread nD τ) (Pipeline.ucRefs τ sig) (W5 m c) = unscopedBufs c (fun b => W5 m c (Proc.devRef .tc b)) from (Pipeline.unscopedBufs_held c (W5 m c)).symm,
      Pipeline.unscopedBufs_split₀ cfgs 0 winFacts₀0.arr_unscoped c _, ← rest_congr]
    iintro ⟨Ha, HO, -, HZ⟩
    ihave Hb := (Share.arrBufs_of_arrays c (dats (Vr m) 0 c) rfl rfl (fun b => W5 m c (Proc.devRef .tc b)) ((dats (Vr m) 0 c).arrAt · cfg0.N) (exit_contents m c)) $$ Ha
    imodintro
    isplitr [HO]
    · isplitl [Hb]; · iexact Hb
      iexact HZ
    · unfold Pipeline.Dat.owesAt Pipeline.owesWithin
      icases HO with ⟨%W, -, HO⟩; iexists W; iexact HO

/-- @main as its six segments. -/
abbrev segs : List (Pipeline.Seg (pcfgs (F := F)) adm (dats (Vr m)) () defs₀ Variants.none L lv) :=
  [.host (hseg hostOps0 hostOps0_sub hostOps0_fresh (W0 m)), .host (hseg hostOps0_1 hostOps0_1_sub hostOps0_1_fresh (W1 m)),
   .host (hseg hostOps0_2 hostOps0_2_sub hostOps0_2_fresh (W2 m)), .host (hseg hostOps0_3 hostOps0_3_sub hostOps0_3_fresh (W3 m)),
   .region (reg0 m), .host (hseg hostOps1 hostOps1_sub hostOps1_fresh (W5 m))]

set_option backward.isDefEq.respectTransparency.types false in
/-- At the compiled mesh, for any float values, from any memory with zero counters: every weakly fair execution of @main on
    the TensorCores terminates, nothing faulting, and every long-lived buffer ends at the final valuation. -/
theorem run_main : θ_run defs (onTc (τ := τ) (main (F := F))) (s₀ m ρ)
    (fun r => ∀ c : Dev nD, ∀ b ∈ Pipeline.ucRefs τ sig, r.2.mem (c, b) = W6 m c b) :=
  Pipeline.θ_run_regions_kit (pcfgs (F := F)) adm (dats (Vr m)) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W6 m c b)
    (hfin := fun c s' => by
      unfold StableHlo.held
      iintro ⟨Hh, HSI⟩
      ihave Hr := (pointsTo_read_all (Pipeline.ucRefs τ sig) (fun b => ((c : Dev nD), b)) (fun b => W6 m c b) s') $$ [Hh HSI]
      · isplitl [Hh] <;> iassumption
      icases Hr with ⟨%hr, HSI⟩
      imodintro
      isplitr; · ipureintro; exact hr
      iexact HSI)
    (hQ := fun _ h => h)

/-- The argument arrays are long-lived buffers. -/
theorem arg0_mem : (Proc.devRef .tc main_arg0 : DevRef τ sig) ∈ Pipeline.ucRefs τ sig := by decide
theorem arg1_mem : (Proc.devRef .tc main_arg1 : DevRef τ sig) ∈ Pipeline.ucRefs τ sig := by decide
theorem v30_mem : (Proc.devRef .tc main_v30 : DevRef τ sig) ∈ Pipeline.ucRefs τ sig := by decide

/-- THE FRAME: the program runs to the end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ arg0_mem).trans (W6_arg0 m c), (h c _ arg1_mem).trans (W6_arg1 m c)⟩) (run_main m ρ)

end Cert.Kernel.Frame

end
-- ==== Proof.KRuns.lean ====
/-
  The body of the row-block kernel, run once per control case.

  The grid has 8 x 8 points; point (i, j) handles row block i (1024 rows) against column block j (1024 rows of the
  same array, sliced out of the whole array the second window keeps resident). The body zeroes a scratch vector
  of 1024 running sums when j = 0, adds to it the row sums of exp (2 * (row block) (column block)^T) at every point, and
  copies it to the output block when j = 7. So three control cases meet the grid: the first column (reset, then
  add), the middle columns (add), the last column (add, then copy out). For each case the body's triple is proved by
  symbolic execution of the body's memory operations; what each written buffer ends with is recorded as the list
  of pieces stored into it, found by the execution itself.
-/
import proofs.«164459_j76733885710415_2_alg».proof.Proof.Gen.KernelIdeal.Launch
import proofs.«164459_j76733885710415_2_alg».proof.Proof.Gen.KernelIdeal.Skeleton
import proofs.«164459_j76733885710415_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions on the grid coordinates, in closed form -/

/-- "This is the first column block": the body's first conditional. -/
abbrev cond0 (i : grid0.Coords) : Prop :=
  (Scalar.cmpi .ne (Scalar.extui (Scalar.cmpi .eq (BitVec.ofNat 32 (i 1).val) 0#32)) 0#32) = 1#1
/-- It holds at the points whose position is a multiple of 8 (positions run row-major over the 8 x 8 grid). -/
theorem hcond0 : ∀ t : Fin cfg0.N, cond0 (grid0.coords t) ↔ t.val % 8 = 0 :=
  (by decide +kernel : ∀ t : Fin grid0.N, cond0 (grid0.coords t) ↔ t.val % 8 = 0)

/-- "This is the last column block": the body's second conditional. -/
abbrev cond1 (i : grid0.Coords) : Prop := k0_cond2 i = 1#1
/-- It holds at the points whose position is 7 modulo 8. -/
theorem hcond1 : ∀ t : Fin cfg0.N, cond1 (grid0.coords t) ↔ t.val % 8 = 7 :=
  (by decide +kernel : ∀ t : Fin grid0.N, cond1 (grid0.coords t) ↔ t.val % 8 = 7)

/-! ## The body in each case -/

set_option maxHeartbeats 4000000 in
/-- First column block: the scratch, at anything, is zeroed and then receives the block's row sums; the output's buffer is not
    touched and is handed back as found. -/
noncomputable def runA (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : cond0 i) (hc1 : ¬cond1 i)
    (x0 : Vec F S1024x256 .bf16) (x1 : Vec F S8192x256 .bf16) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, fun xi E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle column block: the scratch, at what the point before left, receives the block's row sums added to it; the
    output's buffer is handed back as found. -/
noncomputable def runB (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) :
    { LS : List (View.Piece (Elt F) S1024 .f32) //
      ∀ (xi : Vec F S1024 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, fun xi E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last column block: the scratch, at what the point before left, receives the block's row sums added to it, and the
    output's buffer, at anything, receives a copy of the result. -/
noncomputable def runC (c : Dev nD) (i : grid0.Coords) (arg2 : Memref sig .tc .vmem S1024x256 .bf16) (harg2 : arg2.IsWhole)
    (arg3 : Memref sig .tc .vmem S8192x256 .bf16) (harg3 : arg3.IsWhole) (arg4 : Memref sig .tc .vmem S1024 .f32) (harg4 : arg4.IsWhole)
    (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) :
    Σ' (LO : List (View.Piece (Elt F) S1024 .f32)), { LS : List (View.Piece (Elt F) S1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__ntxent_denom_kernel i arg2 harg2 arg3 harg3 arg4 harg4 arg5 harg5) K } := by
  refine ⟨?_, ?_, fun E K => ?run⟩
  case run =>
    simp only [cc0__ntxent_denom_kernel_eq_skeleton]; unfold cc0__ntxent_denom_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frame

end
-- ==== Proof.KFrame.lean ====
/-
  The row-block kernel's pipeline: what its buffers hold point by point, the proof data, and the body obligation.

  Positions run row-major over the 8 x 8 grid, so position t is row block t / 8 against column block t % 8. The
  scratch vector of running sums is reset at the positions divisible by 8, grows by one column block's row sums at
  every position, and is copied to the output's staging buffer at the positions that are 7 modulo 8, which are exactly
  the positions at which the pipeline writes the output block back. Between those the output's buffer is left as it
  was found. Both input windows read ONE array: the row window takes block t / 8 of it, the column window keeps the
  whole array resident, so the array is held in two half shares, one per window.
-/
import proofs.«164459_j76733885710415_2_alg».proof.Proof.KRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Everything here is stated for an arbitrary valuation `Vr`: the contents of the core's buffers when the region is
entered, as a function of the reference — whatever the operations before the region left. -/

variable (Vr : (c : Dev nD) → (b : Ref sig .tc) → Buf (Elt F) ((c : Thread nD τ).loc b))

/-! ## The windows' blocks and staging buffers -/

/-- Window `w`'s block at position `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vr c (Pipeline.arrRef spec0 w))

/-- Each window's current staging buffer at position `t`, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
/-- The scratch vector of running sums, and the views through which buffer contents are stated. -/
abbrev scM : Memref sig .tc .vmem S1024 .f32 := Memref.whole cc0_scratch0
abbrev VS : View sig .tc .vmem S1024 .f32 := scM.view
abbrev VO : View sig .tc .vmem S1024 .f32 := (Memref.whole cc0_stg2_0 : Memref sig .tc .vmem S1024 .f32).view

/-- The two input blocks at position `t` at their literal vector types: the row block (1024 rows of the array) and the
    column window's block (the whole array). -/
def rowBlk (c : Dev nD) (t : Fin cfg0.N) : Vec F S1024x256 .bf16 := iblk Vr c 0 t
def colBlk (c : Dev nD) (t : Fin cfg0.N) : Vec F S8192x256 .bf16 := iblk Vr c 1 t

/-- An input window's staging buffer holds the window's block at every position, fetched there or not: where it is not
    fetched the block index has not moved and the body left the block in place. -/
theorem before0_of {c : Dev nD} (dat : Dat τ (Elt F) Unit ℕ (UR sig nD τ) ℕ cfg0 c) (hA : dat.A 0 = Vr c (Pipeline.arrRef spec0 0))
    (hafter : ∀ t, dat.after 0 t = rowBlk Vr c t) (t : Fin cfg0.N) (d) : dat.before 0 t d = rowBlk Vr c t :=
  (dat.before_in_eq_fetched 0 rfl (fun _ => rfl) (fun _ _ _ => rfl) (fun t => by rw [hafter]; unfold Dat.blockOf rowBlk iblk; rw [hA]; try rfl) t d).trans
    (by unfold Dat.fetched Dat.blockOf rowBlk iblk; rw [hA]; try rfl)
theorem before1_of {c : Dev nD} (dat : Dat τ (Elt F) Unit ℕ (UR sig nD τ) ℕ cfg0 c) (hA : dat.A 1 = Vr c (Pipeline.arrRef spec0 1))
    (hafter : ∀ t, dat.after 1 t = colBlk Vr c t) (t : Fin cfg0.N) (d) : dat.before 1 t d = colBlk Vr c t :=
  (dat.before_in_eq_fetched 1 rfl (fun _ => rfl) (fun _ _ _ => rfl) (fun t => by rw [hafter]; unfold Dat.blockOf colBlk iblk; rw [hA]; try rfl) t d).trans
    (by unfold Dat.fetched Dat.blockOf colBlk iblk; rw [hA]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
/-- Away from the last column block nothing is stored into the output's buffer and it is not written back. -/
theorem idle2 : ∀ t : Fin cfg0.N, ¬cond1 (grid0.coords t) → cfg0.idle 2 (grid0.coords t) = true := by decide +kernel
theorem noFlush2 : ∀ t : Fin cfg0.N, ¬cond1 (grid0.coords t) → (cfg0.win 2).flush t = false := by decide +kernel
/-- At the last column block the output's buffer is stored into. -/
theorem live2 : ∀ t : Fin cfg0.N, cond1 (grid0.coords t) → cfg0.idle 2 (grid0.coords t) = false := by decide +kernel

/-- The scoped buffers no window stages are the scratch vector alone. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-! ## What each case leaves -/

/-- The first-column case's pieces cover the scratch vector; what they leave in it. -/
theorem scoverA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : cond0 i) (hc1 : ¬cond1 i)
    (x0 : Vec F S1024x256 .bf16) (x1 : Vec F S8192x256 .bf16) (y : S1024.Idx) :
    ∃ pc ∈ (runA c i arg2 harg2 arg3 harg3 arg4 harg4 arg5 harg5 hc0 hc1 x0 x1).1, y ∈ pc.1.set :=
  View.cover_of_tiledL (runA c i arg2 harg2 arg3 harg3 arg4 harg4 arg5 harg5 hc0 hc1 x0 x1).1 S1024.size (by sl_kernel_rfl) y
def soutA (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : cond0 i) (hc1 : ¬cond1 i)
    (x0 : Vec F S1024x256 .bf16) (x1 : Vec F S8192x256 .bf16) : Vec F S1024 .f32 :=
  VS.read (Elt F) (VS.writes (Elt F) VS.junk (runA c i arg2 harg2 arg3 harg3 arg4 harg4 arg5 harg5 hc0 hc1 x0 x1).1)

/-- The same for a middle column. -/
theorem scoverB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) (y : S1024.Idx) :
    ∃ pc ∈ (runB c i arg2 harg2 arg3 harg3 arg4 harg4 arg5 harg5 hc0 hc1 x0 x1 xs).1, y ∈ pc.1.set :=
  View.cover_of_tiledL (runB c i arg2 harg2 arg3 harg3 arg4 harg4 arg5 harg5 hc0 hc1 x0 x1 xs).1 S1024.size (by sl_kernel_rfl) y
def soutB (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) : Vec F S1024 .f32 :=
  VS.read (Elt F) (VS.writes (Elt F) VS.junk (runB c i arg2 harg2 arg3 harg3 arg4 harg4 arg5 harg5 hc0 hc1 x0 x1 xs).1)

/-- The last column: the pieces cover the scratch vector and the output's buffer; what they leave in each. -/
theorem scoverC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) (y : S1024.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S1024.size (by sl_kernel_rfl) y
theorem coverC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) (y : S1024.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S1024.size (by sl_kernel_rfl) y
def soutC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) : Vec F S1024 .f32 :=
  VS.read (Elt F) (VS.writes (Elt F) VS.junk (runC c i arg2 harg2 arg3 harg3 arg4 harg4 arg5 harg5 hc0 hc1 x0 x1 xs).2.1)
def outC (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) : Vec F S1024 .f32 :=
  VO.read (Elt F) (VO.writes (Elt F) VO.junk (runC c i arg2 harg2 arg3 harg3 arg4 harg4 arg5 harg5 hc0 hc1 x0 x1 xs).1)

/-! ## The accumulation, position by position -/

/-- Contents nobody reads: what the scratch vector is taken to hold before the first position (the first column's
    case overwrites it before reading it). -/
def junkV : Vec F S1024 .f32 := VS.read (Elt F) VS.junk

/-- One position: from what the position before left in the scratch vector (`prev`), what the body leaves in the
    output's staging buffer (first component; consulted only at the last column, elsewhere a copy of the second) and in
    the scratch vector (second component). -/
def stepAt (c : Dev nD) (t : Fin cfg0.N) (prev : Vec F S1024 .f32) : Vec F S1024 .f32 × Vec F S1024 .f32 :=
  if h0 : t.val % 8 = 0 then
    (soutA c (grid0.coords t) (ms0 t) (hs0 t) (ms1 t) (hs1 t) (ms2 t) (hs2 t) scM (Memref.isWhole_whole _) ((hcond0 t).mpr h0) (fun h => by have := (hcond1 t).mp h; omega) (rowBlk Vr c t) (colBlk Vr c t),
     soutA c (grid0.coords t) (ms0 t) (hs0 t) (ms1 t) (hs1 t) (ms2 t) (hs2 t) scM (Memref.isWhole_whole _) ((hcond0 t).mpr h0) (fun h => by have := (hcond1 t).mp h; omega) (rowBlk Vr c t) (colBlk Vr c t))
  else if h1 : t.val % 8 = 7 then
    (outC c (grid0.coords t) (ms0 t) (hs0 t) (ms1 t) (hs1 t) (ms2 t) (hs2 t) scM (Memref.isWhole_whole _) (fun h => h0 ((hcond0 t).mp h)) ((hcond1 t).mpr h1) (rowBlk Vr c t) (colBlk Vr c t) prev,
     soutC c (grid0.coords t) (ms0 t) (hs0 t) (ms1 t) (hs1 t) (ms2 t) (hs2 t) scM (Memref.isWhole_whole _) (fun h => h0 ((hcond0 t).mp h)) ((hcond1 t).mpr h1) (rowBlk Vr c t) (colBlk Vr c t) prev)
  else
    (soutB c (grid0.coords t) (ms0 t) (hs0 t) (ms1 t) (hs1 t) (ms2 t) (hs2 t) scM (Memref.isWhole_whole _) (fun h => h0 ((hcond0 t).mp h)) (fun h => h1 ((hcond1 t).mp h)) (rowBlk Vr c t) (colBlk Vr c t) prev,
     soutB c (grid0.coords t) (ms0 t) (hs0 t) (ms1 t) (hs1 t) (ms2 t) (hs2 t) scM (Memref.isWhole_whole _) (fun h => h0 ((hcond0 t).mp h)) (fun h => h1 ((hcond1 t).mp h)) (rowBlk Vr c t) (colBlk Vr c t) prev)

/-- What the scratch vector holds after position `n`. -/
def accAt (c : Dev nD) : ℕ → Vec F S1024 .f32
  | 0 => if h : 0 < cfg0.N then (stepAt Vr c ⟨0, h⟩ junkV).2 else junkV
  | n + 1 => if h : n + 1 < cfg0.N then (stepAt Vr c ⟨n + 1, h⟩ (accAt c n)).2 else accAt c n

/-- What the scratch vector holds before position `n`. -/
def prevAt (c : Dev nD) : ℕ → Vec F S1024 .f32
  | 0 => junkV
  | n + 1 => accAt Vr c n

/-- What the body leaves at position `t`. -/
def outsAt (c : Dev nD) (t : Fin cfg0.N) : Vec F S1024 .f32 × Vec F S1024 .f32 := stepAt Vr c t (prevAt Vr c t.val)

theorem accAt_eq (c : Dev nD) (t : Fin cfg0.N) : accAt Vr c t.val = (outsAt Vr c t).2 := by
  obtain ⟨n, hn⟩ := t
  cases n with
  | zero => unfold outsAt prevAt accAt; rw [dif_pos hn]
  | succ n => unfold outsAt prevAt; rw [accAt, dif_pos hn]

/-- The invariant before position `n`: before the first position the scratch vector at anything; afterwards at what the
    position before left in it. -/
def PhiS (c : Dev nD) : ℕ → sProp 𝕄
  | 0 => iprop(∃ d, owns (c : Thread nD τ) scM fullShare d)
  | n + 1 => owns (c : Thread nD τ) scM fullShare (accAt Vr c n)

theorem PhiS_pos (c : Dev nD) (n : ℕ) (hz : n ≠ 0) : PhiS Vr c n = owns (c : Thread nD τ) scM fullShare (prevAt Vr c n) := by
  cases n with
  | zero => exact absurd rfl hz
  | succ n => rfl

/-- At any position the invariant holds the scratch vector at SOMETHING. -/
theorem PhiS_some (c : Dev nD) (n : ℕ) : PhiS Vr c n ⊢ iprop(∃ d, owns (c : Thread nD τ) scM fullShare d) := by
  cases n with
  | zero => exact .rfl
  | succ n => unfold PhiS; iintro H; iexists _; iexact H

/-! ## The proof data -/

/-- The arrays as the region finds them; after the body each input's buffer at its block and the output's at the copied
    sums; the invariant above; the shared array's two readers at the two halves of the full share; nothing owed. -/
def dats (_ : Fin 1) (c : Dev nD) : Dat τ (Elt F) Unit ℕ (UR sig nD τ) ℕ cfg0 c where
  A w := Vr c (Pipeline.arrRef spec0 w)
  after w t := match w with
    | ⟨0, _⟩ => rowBlk Vr c t
    | ⟨1, _⟩ => colBlk Vr c t
    | ⟨2, _⟩ => (outsAt Vr c t).1
  Φ t := PhiS Vr c t.val
  q w := match w with
    | ⟨0, _⟩ => fullShare.left
    | ⟨1, _⟩ => fullShare.right
    | ⟨2, _⟩ => fullShare
  owed _ := 0

theorem A_eq (c : Dev nD) (w : Fin cfg0.W) : (dats Vr 0 c).A w = Vr c (Pipeline.arrRef spec0 w) := by dsimp only [dats]
theorem Phi_castSucc (c : Dev nD) (t : Fin cfg0.N) : (dats Vr 0 c).Φ t.castSucc = PhiS Vr c t.val := by
  dsimp only [dats]; simp only [Fin.coe_castSucc]
theorem Phi_succ (c : Dev nD) (t : Fin cfg0.N) : (dats Vr 0 c).Φ t.succ = owns (c : Thread nD τ) scM fullShare (outsAt Vr c t).2 := by
  dsimp only [dats]; simp only [Fin.val_succ]
  show owns (c : Thread nD τ) scM fullShare (accAt Vr c t.val) = _
  rw [accAt_eq]
theorem after0 (c : Dev nD) (t : Fin cfg0.N) : (dats Vr 0 c).after 0 t = rowBlk Vr c t := by dsimp only [dats]
theorem after1 (c : Dev nD) (t : Fin cfg0.N) : (dats Vr 0 c).after 1 t = colBlk Vr c t := by dsimp only [dats]
theorem after2 (c : Dev nD) (t : Fin cfg0.N) : (dats Vr 0 c).after 2 t = (outsAt Vr c t).1 := by dsimp only [dats]
theorem before0 (c : Dev nD) (t : Fin cfg0.N) (d) : (dats Vr 0 c).before 0 t d = rowBlk Vr c t :=
  before0_of Vr (dats Vr 0 c) (A_eq Vr c 0) (after0 Vr c) t d
theorem before1 (c : Dev nD) (t : Fin cfg0.N) (d) : (dats Vr 0 c).before 1 t d = colBlk Vr c t :=
  before1_of Vr (dats Vr 0 c) (A_eq Vr c 1) (after1 Vr c) t d

/-! ## The body obligation -/

/-- What the body is called with at position `t`, the windows one by one, -/
def bodyPre (c : Dev nD) (t : Fin cfg0.N) : sProp 𝕄 :=
  iprop((dats Vr 0 c).Φ t.castSucc ∗ (dats Vr 0 c).owesAt () t.castSucc
    ∗ (∃ d, owns (c : Thread nD τ) (ms0 t) fullShare ((dats Vr 0 c).before 0 t d))
    ∗ (∃ d, owns (c : Thread nD τ) (ms1 t) fullShare ((dats Vr 0 c).before 1 t d))
    ∗ (∃ d, owns (c : Thread nD τ) (ms2 t) fullShare ((dats Vr 0 c).before 2 t d)))

/-- and what it returns. -/
def bodyPost (c : Dev nD) (t : Fin cfg0.N) : sProp 𝕄 :=
  iprop((dats Vr 0 c).Φ t.succ ∗ (dats Vr 0 c).owesAt () t.succ
    ∗ (dats Vr 0 c).leavesExact 0 t ∗ (dats Vr 0 c).leavesExact 1 t ∗ (dats Vr 0 c).leavesExact 2 t)

set_option maxHeartbeats 4000000 in
/-- The body at any position. The inputs' buffers hold their blocks; the position's residue modulo 8 says which case it is in;
    the invariant hands the body the scratch vector at what the position before left (at anything, at a first column) and
    takes it back at this position's contents; away from the last column the output's buffer goes back as it came. -/
theorem sound_body (c : Dev nD) (t : Fin cfg0.N) :
    bodyPre Vr c t ⊢ wp frame (wpE (defs₀ (F := F)) Variants.none c none) Set.univ (bodyAt0 t) (fun _ => bodyPost Vr c t) := by
  unfold bodyPre bodyPost bodyAt0
  simp only [before0, before1]
  rw [show (dats Vr 0 c).owesAt () t.succ = (dats Vr 0 c).owesAt () t.castSucc from rfl]
  rw [Phi_succ, Phi_castSucc]
  rw [show (dats Vr 0 c).leavesExact 0 t = owns (c : Thread nD τ) (ms0 t) fullShare ((dats Vr 0 c).after 0 t) from by
    unfold Dat.leavesExact; rw [live0 t], after0]
  rw [show (dats Vr 0 c).leavesExact 1 t = owns (c : Thread nD τ) (ms1 t) fullShare ((dats Vr 0 c).after 1 t) from by
    unfold Dat.leavesExact; rw [live1 t], after1]
  have hN : t.val < 64 := lt_of_lt_of_eq t.isLt (show cfg0.N = 64 from N_0)
  by_cases h0 : t.val % 8 = 0
  · have hc1 : ¬cond1 (grid0.coords t) := fun h => by have := (hcond1 t).mp h; omega
    rw [Dat.leavesExact_idle (dats Vr 0 c) 2 t (idle2 t hc1) (noFlush2 t hc1)]
    unfold outsAt stepAt; rw [dif_pos h0]; unfold soutA; (try dsimp only)
    iintro ⟨HP, Ho, ⟨%d0, H0⟩, ⟨%d1, H1⟩, ⟨%d2, H2⟩⟩
    ihave HS := (PhiS_some Vr c t.val) $$ HP
    iapply ((runA c (grid0.coords t) _ _ _ _ _ _ _ _ ((hcond0 t).mpr h0) hc1 (rowBlk Vr c t) (colBlk Vr c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS]
    · unfold owns; iexists _; isplitr
      swap; · iexact HS
      ipureintro; exact View.read_writes_of_cover _ _ _ _ _ (scoverA c _ _ _ _ _ _ _ _ _ _ _ _ _)
    isplitl [Ho]; · iexact Ho
    isplitl [H0]; · iexact H0
    isplitl [H1]; · iexact H1
    iexists _; iexact H2
  · have hz : t.val ≠ 0 := fun h => h0 (by rw [h])
    rw [PhiS_pos Vr c t.val hz]
    by_cases h1 : t.val % 8 = 7
    · rw [show (dats Vr 0 c).leavesExact 2 t = owns (c : Thread nD τ) (ms2 t) fullShare ((dats Vr 0 c).after 2 t) from by
        unfold Dat.leavesExact; rw [live2 t ((hcond1 t).mpr h1)], after2]
      unfold outsAt stepAt; rw [dif_neg h0, dif_pos h1]; unfold outC soutC; (try dsimp only)
      iintro ⟨HS, Ho, ⟨%d0, H0⟩, ⟨%d1, H1⟩, ⟨%d2, H2⟩⟩
      iapply ((runC c (grid0.coords t) _ _ _ _ _ _ _ _ (fun h => h0 ((hcond0 t).mp h)) ((hcond1 t).mpr h1) (rowBlk Vr c t) (colBlk Vr c t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS]
      · unfold owns; iexists _; isplitr
        swap; · iexact HS
        ipureintro; exact View.read_writes_of_cover _ _ _ _ _ (scoverC c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (coverC c _ _ _ _ _ _ _ _ _ _ _ _ _ _)
    · have hc1 : ¬cond1 (grid0.coords t) := fun h => h1 ((hcond1 t).mp h)
      rw [Dat.leavesExact_idle (dats Vr 0 c) 2 t (idle2 t hc1) (noFlush2 t hc1)]
      unfold outsAt stepAt; rw [dif_neg h0, dif_neg h1]; unfold soutB; (try dsimp only)
      iintro ⟨HS, Ho, ⟨%d0, H0⟩, ⟨%d1, H1⟩, ⟨%d2, H2⟩⟩
      iapply ((runB c (grid0.coords t) _ _ _ _ _ _ _ _ (fun h => h0 ((hcond0 t).mp h)) hc1 (rowBlk Vr c t) (colBlk Vr c t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS]
      · unfold owns; iexists _; isplitr
        swap; · iexact HS
        ipureintro; exact View.read_writes_of_cover _ _ _ _ _ (scoverB c _ _ _ _ _ _ _ _ _ _ _ _ _ _)
      isplitl [Ho]; · iexact Ho
      isplitl [H0]; · iexact H0
      isplitl [H1]; · iexact H1
      iexists _; iexact H2

/-- The library's body obligation, at every position. -/
theorem body_obligation (c : Dev nD) : BodyObligation (dats (F := F) Vr 0 c) (defs₀ (F := F)) Variants.none () Set.univ := fun t => by
  rw [bigSep_W0, bigSep_W0]
  exact sound_body Vr c t

end Cert.KernelIdeal.Frame

end
-- ==== Proof.KShare.lean ====
/-
  Two input windows on one array. The row-block window and the resident column window both read the stacked,
  normalized array, and the output window owns the array of row sums. At entry the array read twice, held whole at
  the full share, is split into the two halves of the full share, one per input window; at exit the two halves are
  joined back into the full share. The output's array passes through unchanged.
-/
import proofs.«164459_j76733885710415_2_alg».proof.Proof.Gen.KernelIdeal.Launch
import Idealize.ShloMosaic.Lib.Pipeline.Regions
import Idealize.ShloMosaic.Lib.Tactic

set_option maxRecDepth 16384

noncomputable section

namespace Cert.KernelIdeal.Share

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct arrays behind the three windows. -/
theorem image_arrRef : Finset.univ.image (Pipeline.arrRef spec0) = [main_v12, main_v13].toFinset := by decide

theorem share0 (c : Dev nD) (dat : Pipeline.Dat τ (Elt F) Unit ℕ (UR sig nD τ) ℕ cfg0 c)
    (hq0 : dat.q 0 = fullShare.left) : dat.share 0 = fullShare.left := by
  unfold Pipeline.Dat.share
  rw [if_neg (by decide)]; exact hq0

theorem share1 (c : Dev nD) (dat : Pipeline.Dat τ (Elt F) Unit ℕ (UR sig nD τ) ℕ cfg0 c)
    (hq1 : dat.q 1 = fullShare.right) : dat.share 1 = fullShare.right := by
  unfold Pipeline.Dat.share
  rw [if_neg (by decide)]; exact hq1

theorem share2 (c : Dev nD) (dat : Pipeline.Dat τ (Elt F) Unit ℕ (UR sig nD τ) ℕ cfg0 c) : dat.share 2 = fullShare := by
  unfold Pipeline.Dat.share
  rw [if_pos (by decide)]

theorem arrays_of_arrBufs (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c.tc : Thread nD τ).loc b))
    (Fw : (w : Fin cfg0.W) → Buf (Elt F) ((cfg0.win w).arr.view.loc (c.tc : Thread nD τ)))
    (hF : ∀ w, Fw w = V (Pipeline.arrRef spec0 w)) :
    (Pipeline.arrBufs spec0 c V : sProp 𝕄) ⊢ dat.arrays Fw := by
  unfold Pipeline.arrBufs Pipeline.Dat.arrays
  rw [bigSep_eq_bigSepL_of_eq [main_v12, main_v13] image_arrRef (by decide), Gen.bigSep_W0]
  have w0 : (cfg0.win 0).arr.IsWhole := Memref.isWhole_whole main_v12
  have w1 : (cfg0.win 1).arr.IsWhole := Memref.isWhole_whole main_v12
  have w2 : (cfg0.win 2).arr.IsWhole := Memref.isWhole_whole main_v13
  rw [w0.set_eq_univ, w2.set_eq_univ, share0 c dat hq0, share1 c dat hq1, share2 c dat, hF 0, hF 1, hF 2]
  show iprop((((c.tc : Thread nD τ).loc main_v12) ↦{fullShare} V main_v12) ∗ (((c.tc : Thread nD τ).loc main_v13) ↦{fullShare} V main_v13))
    ⊢ (iprop((((c.tc : Thread nD τ).loc main_v12) ↦{fullShare.left} V main_v12) ∗ (((c.tc : Thread nD τ).loc main_v12) ↦{fullShare.right} V main_v12)
        ∗ (((c.tc : Thread nD τ).loc main_v13) ↦{fullShare} V main_v13)) : sProp 𝕄)
  iintro ⟨H12, H13⟩
  ihave H := (pointsTo_share (PosShare.mem_left_op_right fullShare)).1 $$ H12
  icases H with ⟨Hl, Hr⟩
  isplitl [Hl]; · iexact Hl
  isplitl [Hr]; · iexact Hr
  iexact H13

theorem arrBufs_of_arrays (c : Dev nD) (dat : Pipeline.Dat τ (Elt F) Unit ℕ (UR sig nD τ) ℕ cfg0 c)
    (hq0 : dat.q 0 = fullShare.left) (hq1 : dat.q 1 = fullShare.right)
    (V' : (b : Ref sig .tc) → Buf (Elt F) ((c.tc : Thread nD τ).loc b))
    (Fw : (w : Fin cfg0.W) → Buf (Elt F) ((cfg0.win w).arr.view.loc (c.tc : Thread nD τ)))
    (hF : ∀ w, Fw w = V' (Pipeline.arrRef spec0 w)) :
    (dat.arrays Fw : sProp 𝕄) ⊢ Pipeline.arrBufs spec0 c V' := by
  unfold Pipeline.arrBufs Pipeline.Dat.arrays
  rw [bigSep_eq_bigSepL_of_eq [main_v12, main_v13] image_arrRef (by decide), Gen.bigSep_W0]
  have w0 : (cfg0.win 0).arr.IsWhole := Memref.isWhole_whole main_v12
  have w2 : (cfg0.win 2).arr.IsWhole := Memref.isWhole_whole main_v13
  rw [w0.set_eq_univ, w2.set_eq_univ, share0 c dat hq0, share1 c dat hq1, share2 c dat, hF 0, hF 1, hF 2]
  show (iprop((((c.tc : Thread nD τ).loc main_v12) ↦{fullShare.left} V' main_v12) ∗ (((c.tc : Thread nD τ).loc main_v12) ↦{fullShare.right} V' main_v12)
        ∗ (((c.tc : Thread nD τ).loc main_v13) ↦{fullShare} V' main_v13)) : sProp 𝕄)
    ⊢ iprop((((c.tc : Thread nD τ).loc main_v12) ↦{fullShare} V' main_v12) ∗ (((c.tc : Thread nD τ).loc main_v13) ↦{fullShare} V' main_v13))
  iintro ⟨Hl, Hr, H13⟩
  ihave H12 := (pointsTo_share (PosShare.mem_left_op_right fullShare)).2 $$ [Hl Hr]
  · isplitl [Hl]; · iexact Hl
    iexact Hr
  isplitl [H12]; · iexact H12
  iexact H13

end Cert.KernelIdeal.Share

end
-- ==== Proof.KLaunch.lean ====
/-
  The launch of the whole program: the operations before the region, the region, the operations after it.

  The program is four stretches of host operations (each batch's row lengths, the clamp, the division, the stacking),
  ONE kernel region, and a last stretch of host operations (the diagonal term, the logarithms, the mean). Between
  two of these a core holds all its long-lived buffers at a valuation: the launch contents pushed through the
  operations run so far. The region is entered by taking the stacked array apart into two half shares, one per
  reading window, and the output array whole; it is left by putting the halves together again — the array is as it
  was, both readers having only read it — and recording the output array's final contents, which is the only buffer
  whose contents the region changes. The run's conclusion reads every long-lived buffer off the final valuation.
-/
import proofs.«164459_j76733885710415_2_alg».proof.Proof.KFrame
import proofs.«164459_j76733885710415_2_alg».proof.Proof.KShare

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's resource algebra is the whole of the certificate's. -/
abbrev EP : Emb (UR sig nD τ) (MT nD τ sig Unit (Elt F) ℕ (UR sig nD τ) ℕ) := emb₁

/-! ## The valuations between the segments -/

/-- Core `c`'s buffers at launch, then after each stretch of host operations before the region. -/
abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
/-- The contents the region finds, read at a reference. -/
abbrev Vr (c : Dev nD) (b : Ref sig .tc) : Buf (Elt F) ((c : Thread nD τ).loc b) := W4 m c (Proc.devRef .tc b)

/-- The output array when the region is left: every block written back. -/
def outArr (c : Dev nD) : Buf (Elt F) ((c : Thread nD τ).loc main_v13) := (dats (Vr m) 0 c).arrAt 2 cfg0.N

/-- The contents the region leaves: the output array at its final contents, everything else as found. -/
def W5 (c : Dev nD) : Valuation τ sig (Elt F) := fun b =>
  if h : b = Proc.devRef .tc main_v13 then h ▸ outArr m c else W4 m c b

theorem W5_out (c : Dev nD) : W5 m c (Proc.devRef .tc main_v13) = outArr m c := by
  unfold W5; rw [dif_pos rfl]
theorem W5_ne (c : Dev nD) (b : DevRef τ sig) (hb : b ≠ Proc.devRef .tc main_v13) : W5 m c b = W4 m c b := by
  unfold W5; rw [dif_neg hb]

/-- After the last stretch. -/
abbrev W6 (c : Dev nD) : Valuation τ sig (Elt F) := StableHlo.after hostOps1 (W5 m c)

/-- No operation writes an input array: each reaches the end as launched. -/
theorem W4_arg0 (c : Dev nD) : W4 m c (Proc.devRef .tc main_arg0) = m (c, Proc.devRef .tc main_arg0) := by
  dsimp only [W4, W3, W2, W1, hostOps0, hostOps0_1, hostOps0_2, hostOps0_3]
  after_results
theorem W4_arg1 (c : Dev nD) : W4 m c (Proc.devRef .tc main_arg1) = m (c, Proc.devRef .tc main_arg1) := by
  dsimp only [W4, W3, W2, W1, hostOps0, hostOps0_1, hostOps0_2, hostOps0_3]
  after_results
theorem W6_arg0 (c : Dev nD) : W6 m c (Proc.devRef .tc main_arg0) = m (c, Proc.devRef .tc main_arg0) := by
  refine Eq.trans ?_ ((W5_ne m c _ (StableHlo.devRef_ne_of_ne (by decide))).trans (W4_arg0 m c))
  dsimp only [W6, hostOps1]
  after_results
theorem W6_arg1 (c : Dev nD) : W6 m c (Proc.devRef .tc main_arg1) = m (c, Proc.devRef .tc main_arg1) := by
  refine Eq.trans ?_ ((W5_ne m c _ (StableHlo.devRef_ne_of_ne (by decide))).trans (W4_arg1 m c))
  dsimp only [W6, hostOps1]
  after_results

/-! ## The segments -/

/-- No core owes another anything: no level is assigned; no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A stretch of host operations over the long-lived buffers held at a valuation. -/
def hseg (ops : List (HloOp τ sig (Elt F))) (hsub : ops.Forall fun op => op.bufs ⊆ StableHlo.tcRefs τ sig)
    (hfr : ops.Forall fun op => op.fresh = ∅) (V : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h)) (List.forall_iff_forall_mem.mp hfr) V R

/-- Off the two arrays of the region the entry and exit valuations agree. -/
theorem rest_congr (c : Dev nD) :
    (Pipeline.unscopedRest spec0 c (Vr m c) : sProp 𝕄) = Pipeline.unscopedRest spec0 c (fun b => W5 m c (Proc.devRef .tc b)) := by
  unfold Pipeline.unscopedRest
  refine bigSep_congr fun b hb => ?_
  have hne : b ≠ main_v13 := fun e => (Finset.mem_sdiff.mp hb).2 (Finset.mem_image.mpr ⟨2, Finset.mem_univ _, by rw [e]⟩)
  beta_reduce
  rw [W5_ne m c _ (StableHlo.devRef_ne_of_ne hne)]

/-- The arrays when the region is left, window by window: the stacked array as found (both its windows only read it),
    the output array at its final contents. -/
theorem exit_contents (c : Dev nD) (w : Fin cfg0.W) :
    (dats (Vr m) 0 c).arrAt w cfg0.N = W5 m c (Proc.devRef .tc (Pipeline.arrRef spec0 w)) := by
  match w with
  | ⟨0, _⟩ => exact ((dats (Vr m) 0 c).arrAt_in 0 rfl _).trans ((A_eq (Vr m) c 0).trans (W5_ne m c _ (StableHlo.devRef_ne_of_ne (by decide))).symm)
  | ⟨1, _⟩ => exact ((dats (Vr m) 0 c).arrAt_in 1 rfl _).trans ((A_eq (Vr m) c 1).trans (W5_ne m c _ (StableHlo.devRef_ne_of_ne (by decide))).symm)
  | ⟨2, _⟩ => exact (W5_out m c).symm

set_option backward.isDefEq.respectTransparency.types false in
/-- THE REGION. Entered from the long-lived buffers at the valuation the operations before it left: the two arrays of
    its windows go to the pipeline (the stacked array in two halves), the scratch vector is the invariant's, every other
    buffer bypasses the region. Left with the arrays put together again at the exit valuation. -/
def reg0 : Pipeline.RegionSeg (pcfgs (F := F)) adm (dats (Vr m)) () defs₀ Variants.none L lv 0 where
  win := winFacts₀0
  block_pos := block_pos0
  stage_whole := stage_whole0
  K := PEmpty
  osem := fun k => k.elim
  ho := Pipeline.OwnSemFacts.none _
  hbody c := (body_obligation (Vr m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(emp)
  Y c := iprop(emp)
  Z c := Pipeline.unscopedRest spec0 c (Vr m c)
  hentry c := by
    rw [show StableHlo.held (c : Thread nD τ) (Pipeline.ucRefs τ sig) (W4 m c) = unscopedBufs c (Vr m c) from (Pipeline.unscopedBufs_held c (W4 m c)).symm,
      Pipeline.unscopedBufs_split₀ cfgs 0 winFacts₀0.arr_unscoped c (Vr m c)]
    iintro ⟨⟨⟨Ha, Hrest⟩, HO⟩, -, -⟩
    ihave Harr := (Share.arrays_of_arrBufs c (dats (Vr m) 0 c) rfl rfl (Vr m c) ((dats (Vr m) 0 c).arrAt · 0) (fun w => A_eq (Vr m) c w)) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats (Vr m) 0 c).Φ 0 = iprop(∃ d, owns (c : Thread nD τ) scM fullShare d) from rfl, scopedRest_scratch]
    iintro ⟨-, -, Hr⟩
    iexact Hr
  hout c := by
    rw [Pipeline.ownSems0_none, scopedRest_scratch]
    show PhiS (Vr m) c (Fin.last cfg0.N).val ⊢ _
    refine (PhiS_some (Vr m) c _).trans ?_
    iintro H
    isplitr; · iempintro
    isplitr; · iempintro
    iexact H
  hexit c := by
    rw [show StableHlo.held (c : Thread nD τ) (Pipeline.ucRefs τ sig) (W5 m c) = unscopedBufs c (fun b => W5 m c (Proc.devRef .tc b)) from (Pipeline.unscopedBufs_held c (W5 m c)).symm,
      Pipeline.unscopedBufs_split₀ cfgs 0 winFacts₀0.arr_unscoped c _, ← rest_congr]
    iintro ⟨Ha, HO, -, HZ⟩
    ihave Hb := (Share.arrBufs_of_arrays c (dats (Vr m) 0 c) rfl rfl (fun b => W5 m c (Proc.devRef .tc b)) ((dats (Vr m) 0 c).arrAt · cfg0.N) (exit_contents m c)) $$ Ha
    imodintro
    isplitr [HO]
    · isplitl [Hb]; · iexact Hb
      iexact HZ
    · unfold Pipeline.Dat.owesAt Pipeline.owesWithin
      icases HO with ⟨%W, -, HO⟩; iexists W; iexact HO

/-- @main as its six segments. -/
abbrev segs : List (Pipeline.Seg (pcfgs (F := F)) adm (dats (Vr m)) () defs₀ Variants.none L lv) :=
  [.host (hseg hostOps0 hostOps0_sub hostOps0_fresh (W0 m)), .host (hseg hostOps0_1 hostOps0_1_sub hostOps0_1_fresh (W1 m)),
   .host (hseg hostOps0_2 hostOps0_2_sub hostOps0_2_fresh (W2 m)), .host (hseg hostOps0_3 hostOps0_3_sub hostOps0_3_fresh (W3 m)),
   .region (reg0 m), .host (hseg hostOps1 hostOps1_sub hostOps1_fresh (W5 m))]

set_option backward.isDefEq.respectTransparency.types false in
/-- At the compiled mesh, for any float values, from any memory with zero counters: every weakly fair execution of @main on
    the TensorCores terminates, nothing faulting, and every long-lived buffer ends at the final valuation. -/
theorem run_main : θ_run defs (onTc (τ := τ) (main (F := F))) (s₀ m ρ)
    (fun r => ∀ c : Dev nD, ∀ b ∈ Pipeline.ucRefs τ sig, r.2.mem (c, b) = W6 m c b) :=
  Pipeline.θ_run_regions_kit (pcfgs (F := F)) adm (dats (Vr m)) () cellOf_inj EP defs₀ Variants.none L lv m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W6 m c))
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = W6 m c b)
    (hfin := fun c s' => by
      unfold StableHlo.held
      iintro ⟨Hh, HSI⟩
      ihave Hr := (pointsTo_read_all (Pipeline.ucRefs τ sig) (fun b => ((c : Dev nD), b)) (fun b => W6 m c b) s') $$ [Hh HSI]
      · isplitl [Hh] <;> iassumption
      icases Hr with ⟨%hr, HSI⟩
      imodintro
      isplitr; · ipureintro; exact hr
      iexact HSI)
    (hQ := fun _ h => h)

/-- The argument arrays are long-lived buffers. -/
theorem arg0_mem : (Proc.devRef .tc main_arg0 : DevRef τ sig) ∈ Pipeline.ucRefs τ sig := by decide
theorem arg1_mem : (Proc.devRef .tc main_arg1 : DevRef τ sig) ∈ Pipeline.ucRefs τ sig := by decide
theorem v30_mem : (Proc.devRef .tc main_v30 : DevRef τ sig) ∈ Pipeline.ucRefs τ sig := by decide

/-- THE FRAME: the program runs to the end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ arg0_mem).trans (W6_arg0 m c), (h c _ arg1_mem).trans (W6_arg1 m c)⟩) (run_main m ρ)

end Cert.KernelIdeal.Frame

end
-- ==== Proof.KPieces.lean ====
/-
  What each control case of the row-block kernel leaves, as a value.

  The pieces the symbolic execution found are read back: in every case the scratch vector ends at the body's one
  arithmetic term — the running sums it held (zero, at a first column, where the body has just stored zeros and reads
  them back) plus the row sums of exp (2 * (row block) (column block)^T) — where the column block is the 1024 rows of the
  resident array that start at row 1024 * j. At a last column the output's buffer receives a copy of exactly that.
-/
import proofs.«164459_j76733885710415_2_alg».proof.Proof.KFrame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a; rfl
theorem hz2 : (![0, 0] : Fin 2 → Nat) = fun _ => 0 := funext fun a => by fin_cases a <;> rfl

/-- Column block `j` of the resident array: its 1024 rows from row 1024 * j on. -/
def colSlice (i : grid0.Coords) (x1 : Vec F S8192x256 .bf16) : Vec F S1024x256 .bf16 :=
  View.ld x1 (Rect.unit (s := S8192x256) (k0_off1 i) S1024x256.size (k0_off1_inb i))

/-- A middle column: the running sums plus this block's row sums. -/
theorem soutB_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : ¬cond1 i)
    (x0 : Vec F S1024x256 .bf16) (x1 : Vec F S8192x256 .bf16) (xs : Vec F S1024 .f32) :
    soutB c i arg2 harg2 arg3 harg3 arg4 harg4 arg5 harg5 hc0 hc1 x0 x1 xs = k0_pay2 x0 (colSlice i x1) xs := by
  unfold soutB
  rw [View.read_writes_eq_canon _ _ _ (scoverB c i arg2 harg2 arg3 harg3 arg4 harg4 arg5 harg5 hc0 hc1 x0 x1 xs)]
  unfold runB
  dsimp only
  rw [View.canon_unit_zero hz1]
  simp only [View.readAt_eq_ld, harg2.read_unread, harg3.read_unread, harg5.read_unread, View.ld_unit_zero (S := S1024x256) hz2, View.ld_unit_zero (S := S1024) hz1]
  rfl

/-- The last column: the scratch vector as in a middle column, -/
theorem soutC_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) :
    soutC c i arg2 harg2 arg3 harg3 arg4 harg4 arg5 harg5 hc0 hc1 x0 x1 xs = k0_pay2 x0 (colSlice i x1) xs := by
  unfold soutC
  rw [View.read_writes_eq_canon _ _ _ (scoverC c i arg2 harg2 arg3 harg3 arg4 harg4 arg5 harg5 hc0 hc1 x0 x1 xs)]
  unfold runC
  dsimp only
  sl_unfold_words
  rw [View.canon_unit_zero hz1]
  simp only [View.readAt_eq_ld, harg2.read_unread, harg3.read_unread, harg5.read_unread, View.ld_unit_zero (S := S1024x256) hz2, View.ld_unit_zero (S := S1024) hz1]
  rfl

/-- and the output's buffer a copy of it. -/
theorem outC_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : ¬cond0 i) (hc1 : cond1 i)
    (x0 : Vec F S1024x256 .bf16) (x1 : Vec F S8192x256 .bf16) (xs : Vec F S1024 .f32) :
    outC c i arg2 harg2 arg3 harg3 arg4 harg4 arg5 harg5 hc0 hc1 x0 x1 xs = k0_pay2 x0 (colSlice i x1) xs := by
  unfold outC
  rw [View.read_writes_eq_canon _ _ _ (coverC c i arg2 harg2 arg3 harg3 arg4 harg4 arg5 harg5 hc0 hc1 x0 x1 xs)]
  unfold runC
  dsimp only
  sl_unfold_words
  rw [View.canon_unit_zero hz1]
  simp only [View.readAt_eq_ld, harg2.read_unread, harg3.read_unread, harg5.read_unread, View.ld_unit_zero (S := S1024x256) hz2, View.ld_unit_zero (S := S1024) hz1]
  rw [View.readCov_unit_zero (S := S1024) _ hz1]
  rfl

/-- A first column: zeros plus this block's row sums. -/
theorem soutA_eq (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S1024 .f32) (harg4 : arg4.IsWhole) (arg5 : Memref sig .tc .vmem S1024 .f32) (harg5 : arg5.IsWhole) (hc0 : cond0 i) (hc1 : ¬cond1 i)
    (x0 : Vec F S1024x256 .bf16) (x1 : Vec F S8192x256 .bf16) :
    soutA c i arg2 harg2 arg3 harg3 arg4 harg4 arg5 harg5 hc0 hc1 x0 x1 = k0_pay2 x0 (colSlice i x1) (k0_pay1 (F := F)) := by
  unfold soutA
  rw [View.read_writes_eq_canon _ _ _ (scoverA c i arg2 harg2 arg3 harg3 arg4 harg4 arg5 harg5 hc0 hc1 x0 x1)]
  unfold runA
  dsimp only
  sl_unfold_words
  rw [View.canon_cons_unit_zero (S := S1024) hz1, View.readCov_unit_zero (S := S1024) _ hz1]
  simp only [View.readAt_eq_ld, harg2.read_unread, harg3.read_unread, View.ld_unit_zero (S := S1024x256) hz2, View.ld_unit_zero (S := S1024) hz1]
  rfl

end Cert.KernelIdeal.Frame

end
-- ==== Proof.KStep.lean ====
/-
  One position of the row-block kernel as ONE term: whatever the control case, the scratch vector ends at the body's
  arithmetic term of the position's two blocks and of what was there before — zeros at a first column (the body has
  just stored them), what the position before left otherwise; at a last column the output's buffer ends at the same.
-/
import proofs.«164459_j76733885710415_2_alg».proof.Proof.KPieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (Vr : (c : Dev nD) → (b : Ref sig .tc) → Buf (Elt F) ((c : Thread nD τ).loc b))

/-- What the running sums are taken to be before a position's addition. -/
def startOf (t : Fin cfg0.N) (prev : Vec F S1024 .f32) : Vec F S1024 .f32 :=
  if t.val % 8 = 0 then k0_pay1 (F := F) else prev

set_option maxHeartbeats 4000000 in
theorem stepAt_snd (c : Dev nD) (t : Fin cfg0.N) (prev : Vec F S1024 .f32) :
    (stepAt Vr c t prev).2 = k0_pay2 (rowBlk Vr c t) (colSlice (grid0.coords t) (colBlk Vr c t)) (startOf t prev) := by
  unfold stepAt startOf
  by_cases h0 : t.val % 8 = 0
  · rw [dif_pos h0, if_pos h0]; dsimp only; exact soutA_eq c (grid0.coords t) (ms0 t) (hs0 t) (ms1 t) (hs1 t) (ms2 t) (hs2 t) scM (Memref.isWhole_whole _) _ _ (rowBlk Vr c t) (colBlk Vr c t)
  · rw [dif_neg h0, if_neg h0]
    by_cases h1 : t.val % 8 = 7
    · rw [dif_pos h1]; dsimp only; exact soutC_eq c (grid0.coords t) (ms0 t) (hs0 t) (ms1 t) (hs1 t) (ms2 t) (hs2 t) scM (Memref.isWhole_whole _) _ _ (rowBlk Vr c t) (colBlk Vr c t) prev
    · rw [dif_neg h1]; dsimp only; exact soutB_eq c (grid0.coords t) (ms0 t) (hs0 t) (ms1 t) (hs1 t) (ms2 t) (hs2 t) scM (Memref.isWhole_whole _) _ _ (rowBlk Vr c t) (colBlk Vr c t) prev

set_option maxHeartbeats 4000000 in
theorem stepAt_fst (c : Dev nD) (t : Fin cfg0.N) (prev : Vec F S1024 .f32) (h7 : t.val % 8 = 7) :
    (stepAt Vr c t prev).1 = k0_pay2 (rowBlk Vr c t) (colSlice (grid0.coords t) (colBlk Vr c t)) prev := by
  unfold stepAt
  rw [dif_neg (by omega), dif_pos h7]; dsimp only; exact outC_eq c (grid0.coords t) (ms0 t) (hs0 t) (ms1 t) (hs1 t) (ms2 t) (hs2 t) scM (Memref.isWhole_whole _) _ _ (rowBlk Vr c t) (colBlk Vr c t) prev

end Cert.KernelIdeal.Frame

end
-- ==== Proof.KGeom.lean ====
/-
  The geometry of the kernel's windows, read at an index. Positions run row-major over the 8 x 8 grid: position t is
  row block t / 8 against column block t % 8. The row window's block at t is rows 1024 (t / 8) … of the stacked
  array; the resident window's block is the whole array, of which the body slices the 1024 rows from row
  1024 (t % 8) on; the output window's block at t is rows 1024 (t / 8) … of the output, and the blocks written back
  at the last column blocks, t = 8 k + 7, tile the output's 8192 rows.
-/
import proofs.«164459_j76733885710415_2_alg».proof.Proof.KPieces
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (Vr : (c : Dev nD) → (b : Ref sig .tc) → Buf (Elt F) ((c : Thread nD τ).loc b))

/-- The row window's block index at position `t`: row block `t / 8`, the one block of features. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- The output window's block index at position `t`: row block `t / 8`. -/
theorem index2 : ∀ t : Fin cfg0.N, win0_2.index t 0 = t.val / 8 :=
  (by decide +kernel : ∀ t : Fin grid0.N, win0_2.index t 0 = t.val / 8)

/-- The resident window's block index: always the one block. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where the column slice starts at position `t`: row `1024 * (t % 8)`, feature 0. -/
theorem off1 : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The output window's blocks are never clipped: 1024 rows each. -/
theorem xsize2 : ∀ t : Fin cfg0.N, win0_2.xsize (grid0.coords t) 0 = 1024 :=
  (by decide +kernel : ∀ t : Fin grid0.N, win0_2.xsize (grid0.coords t) 0 = 1024)

theorem rowBlk_apply (c : Dev nD) (t : Fin cfg0.N) (p : Fin 1024) (d : Fin 256) :
    rowBlk Vr c t (ValueIdx.ix2 p d)
      = Vr c main_v12 (ValueIdx.ix2 ⟨1024 * (t.val / 8) + p.val, by have hN : cfg0.N = 64 := N_0; have := t.isLt; have := p.isLt; omega⟩ d) := by
  unfold rowBlk iblk
  rw [View.read_apply]
  show Vr c main_v12 _ = Vr c main_v12 _
  congr 1
  funext a
  apply Fin.ext
  match a with
  | ⟨0, _⟩ => show win0_0.index t 0 * 1024 + 1 * p.val = 1024 * (t.val / 8) + p.val; rw [(index0 t).1]; omega
  | ⟨1, _⟩ => show win0_0.index t 1 * 256 + 1 * d.val = d.val; rw [(index0 t).2]; omega

/-- The resident window's block is the whole array. -/
theorem colBlk_apply (c : Dev nD) (t : Fin cfg0.N) (r : Fin 8192) (d : Fin 256) :
    colBlk Vr c t (ValueIdx.ix2 r d) = Vr c main_v12 (ValueIdx.ix2 r d) := by
  unfold colBlk iblk
  rw [View.read_apply]
  show Vr c main_v12 _ = Vr c main_v12 _
  congr 1
  funext a
  apply Fin.ext
  match a with
  | ⟨0, _⟩ => show win0_1.index t 0 * 8192 + 1 * r.val = r.val; rw [(index1 t).1]; omega
  | ⟨1, _⟩ => show win0_1.index t 1 * 256 + 1 * d.val = d.val; rw [(index1 t).2]; omega

/-- A column slice read at an index: the rows from the slice's first row on. -/
theorem colSlice_apply' (i : grid0.Coords) (x1 : Vec F S8192x256 .bf16) (q : Fin 1024) (d : Fin 256) (o : ℕ)
    (h0 : k0_off1 i 0 = o) (h1 : k0_off1 i 1 = 0) (hb : o + q.val < 8192) :
    colSlice i x1 (ValueIdx.ix2 q d) = x1 (ValueIdx.ix2 ⟨o + q.val, hb⟩ d) := by
  unfold colSlice
  show x1 ((Rect.unit (s := S8192x256) (k0_off1 i) S1024x256.size (k0_off1_inb i)).emb (ValueIdx.ix2 q d)) = _
  congr 1
  funext a
  apply Fin.ext
  match a with
  | ⟨0, _⟩ => show k0_off1 i 0 + 1 * q.val = o + q.val; omega
  | ⟨1, _⟩ => show k0_off1 i 1 + 1 * d.val = d.val; omega

theorem colSlice_apply (c : Dev nD) (t : Fin cfg0.N) (q : Fin 1024) (d : Fin 256) :
    colSlice (grid0.coords t) (colBlk Vr c t) (ValueIdx.ix2 q d)
      = Vr c main_v12 (ValueIdx.ix2 ⟨1024 * (t.val % 8) + q.val, by have := q.isLt; omega⟩ d) := by
  rw [colSlice_apply' (grid0.coords t) (colBlk Vr c t) q d (1024 * (t.val % 8)) (off1 t).1 (off1 t).2 (by have := q.isLt; omega)]
  exact colBlk_apply Vr c t _ d

/-- The output window's block at position `t`, read off any contents of the output array. -/
theorem outBlk_read (c : Dev nD) (t : Fin cfg0.N) (G : Buf (Elt F) ((cfg0.win 2).arr.view.loc (c.tc : Thread nD τ))) (p : Fin 1024) :
    ((cfg0.win 2).blk t).view.read (Elt F) G (ValueIdx.ix1 p)
      = G (ValueIdx.ix1 ⟨1024 * (t.val / 8) + p.val, by have hN : cfg0.N = 64 := N_0; have := t.isLt; have := p.isLt; omega⟩) := by
  rw [View.read_apply]
  show G _ = G _
  congr 1
  funext a
  apply Fin.ext
  match a with
  | ⟨0, _⟩ => show win0_2.index t 0 * 1024 + 1 * p.val = 1024 * (t.val / 8) + p.val; rw [index2 t]; omega

/-- The output's blocks at the last column blocks cover the output array: row `r` lies in the block written back at
    position `8 * (r / 1024) + 7`. -/
theorem cover2_lit (i : S8192.Idx) :
    ∃ t : Fin cfg0.N, (cfg0.win 2).flush t = true ∧ i ∈ ((cfg0.win 2).blk t).view.set := by
  have hN : cfg0.N = 64 := N_0
  have hi : (i 0 : ℕ) < 8192 := (i 0).isLt
  have ht : 8 * ((i 0 : ℕ) / 1024) + 7 < cfg0.N := by omega
  refine ⟨⟨8 * ((i 0 : ℕ) / 1024) + 7, ht⟩, (flush0_2 _).mpr (by show (8 * ((i 0 : ℕ) / 1024) + 7) % 8 = 7; omega), ?_⟩
  show i ∈ ((View.whole main_v13).slice (win0_2.rect ⟨8 * ((i 0 : ℕ) / 1024) + 7, ht⟩)).set
  rw [View.set_slice_whole, Rect.mem_set_unit]
  intro a
  match a with
  | ⟨0, _⟩ =>
    show win0_2.index ⟨8 * ((i 0 : ℕ) / 1024) + 7, ht⟩ 0 * win0_2.size 0 ≤ (i 0 : ℕ)
      ∧ (i 0 : ℕ) < win0_2.index ⟨8 * ((i 0 : ℕ) / 1024) + 7, ht⟩ 0 * win0_2.size 0 + win0_2.xsize (grid0.coords ⟨8 * ((i 0 : ℕ) / 1024) + 7, ht⟩) 0
    rw [index2, xsize2]
    show (8 * ((i 0 : ℕ) / 1024) + 7) / 8 * 1024 ≤ (i 0 : ℕ) ∧ (i 0 : ℕ) < (8 * ((i 0 : ℕ) / 1024) + 7) / 8 * 1024 + 1024
    omega

theorem cover2 (c : Dev nD) (i : ((cfg0.win 2).arr.view.loc (c.tc : Thread nD τ)).2.ty.Idx) :
    ∃ t : Fin cfg0.N, (cfg0.win 2).flush t = true ∧ i ∈ ((cfg0.win 2).blk t).view.set :=
  cover2_lit i

end Cert.KernelIdeal.Frame

end
-- ==== Proof.LossSpec.lean ====
/-
  The contrastive (normalized, temperature-scaled cross-entropy) loss of two batches of 4096 row vectors of
  length 256, over the extended reals, written in the two arrangements in which it is computed.

  Every row is divided by its Euclidean length clamped below by a small constant, the two batches are stacked
  into 8192 unit rows `z`, and the similarity of rows `r`, `c` is their inner product `dot z r c`. Row `r`'s
  partner is the row 4096 places away. The loss is the mean over `r` of

      - log ( exp (s(r, partner r) / T) / Σ_{c ≠ r} exp (s(r, c) / T) ),       T = 1/2.

  `lossR` is that formula as it stands: the rows stacked first and normalized afterwards, the excluded
  diagonal term written as a factor `1 - [r = c]` inside the sum, the quotient inside the logarithm, division by
  `T`. `lossK` is the arrangement that avoids the mask: each batch normalized before stacking, the sum taken
  over ALL columns and the diagonal term `exp (2 s(r, r))` subtracted afterwards, the logarithm of the quotient
  split as `-2 s + log (denominator)`, multiplication by `2` in place of division by `1/2`. The two agree
  whenever every entry is a real number (then every length is a positive real, every similarity and exponential a
  real, and each masked sum a positive real); that is proved elsewhere, this module only states the two forms.
-/
import Idealize.ShloMosaic.PureOps.Ideal
import Idealize.ShloMosaic.Lib.ValueIdx

noncomputable section

namespace Cert.Contrastive

open Idealize.ShloMosaic

/-- An `n × k` matrix of extended reals. -/
abbrev Mat (n k : Nat) : Type := Fin n → Fin k → EReal

/-- A rank-two array read as a matrix. -/
def toMat {n k : Nat} (x : (⟨2, ![n, k]⟩ : Shape).Idx → EReal) : Mat n k := fun r d => x (ValueIdx.ix2 r d)

/-- The lower clamp of a row's length (the single-precision number nearest 1e-8). -/
def eps : EReal := Ideal.ofBits .f32 0x322BCC77#32
/-- The numbers 2, 1/2, 1 and 8192 as the single-precision patterns that denote them exactly. -/
def two : EReal := Ideal.ofBits .f32 0x40000000#32
def half : EReal := Ideal.ofBits .f32 0x3F000000#32
def one : EReal := Ideal.ofBits .f32 0x3F800000#32
def count : EReal := Ideal.ofBits .f32 0x46000000#32

/-- The rows of `a` above the rows of `b`. -/
def stack (a b : Mat 4096 256) : Mat 8192 256 := fun r d =>
  if h : r.val < 4096 then a ⟨r.val, h⟩ d else b ⟨r.val - 4096, by omega⟩ d

/-- A row's Euclidean length, clamped below by `eps`. -/
def len {n : Nat} (x : Mat n 256) (r : Fin n) : EReal := max (Ideal.sqrt (∑ d, x r d * x r d)) eps

/-- Every row divided by its clamped length. -/
def unit {n : Nat} (x : Mat n 256) : Mat n 256 := fun r d => Ideal.div (x r d) (len x r)

/-- The inner product of rows `r` and `c`. -/
def dot {n : Nat} (z : Mat n 256) (r c : Fin n) : EReal := ∑ d, z r d * z c d

/-- The row 4096 places away, cyclically. -/
def partner (r : Fin 8192) : Fin 8192 :=
  if h : r.val < 4096 then ⟨r.val + 4096, by omega⟩ else ⟨r.val - 4096, by omega⟩

/-- A stacked row's index within its own batch. -/
def wrap (r : Fin 8192) : Fin 4096 := ⟨r.val % 4096, Nat.mod_lt _ (by norm_num)⟩

/-! ## The masked arrangement -/

/-- `1 - [r = c]`. -/
def offDiag (r c : Fin 8192) : EReal := one - (if r = c then 1 else 0)

/-- Row `r`'s denominator: the sum over the OTHER columns, the excluded one as a zero factor. -/
def denR (z : Mat 8192 256) (r : Fin 8192) : EReal :=
  ∑ c, offDiag r c * Ideal.exp (Ideal.div (dot z r c) half)

/-- The loss, stacked first and normalized afterwards, the quotient inside the logarithm. -/
def lossR (a b : Mat 4096 256) : EReal :=
  Ideal.div (∑ r, -(Ideal.log (Ideal.div (Ideal.exp (Ideal.div (dot (unit (stack a b)) r (partner r)) half))
    (denR (unit (stack a b)) r)))) count

/-! ## The unmasked arrangement -/

/-- Row `r`'s sum over ALL columns. -/
def fullK (z : Mat 8192 256) (r : Fin 8192) : EReal := ∑ c, Ideal.exp (dot z r c * two)

/-- The diagonal term the full sum contains once. -/
def selfK (z : Mat 8192 256) (r : Fin 8192) : EReal := Ideal.exp (dot z r r * two)

/-- The similarity of row `k` of the first batch with row `k` of the second, each normalized. -/
def posK (a b : Mat 4096 256) (k : Fin 4096) : EReal := ∑ d, unit a k d * unit b k d

/-- The loss, normalized first and stacked afterwards, the diagonal subtracted, the logarithm split. -/
def lossK (a b : Mat 4096 256) : EReal :=
  Ideal.div (∑ r, (-(posK a b (wrap r) * two)
    + Ideal.log (fullK (stack (unit a) (unit b)) r - selfK (stack (unit a) (unit b)) r))) count

end Cert.Contrastive

end
-- ==== Proof.KPayload.lean ====
/-
  The kernel body's arithmetic at an index, over the extended reals. One step of the body takes a block of 1024
  rows, a block of 1024 columns' rows and the running sums, and adds to row `p`'s running sum the sum over the
  block's columns `q` of `exp (2 · ⟨row p, row q⟩)`: the product of the two blocks contracted over the 256
  features into a zero accumulator, times the splat of 2, the exponential, the sum along the columns from zero.
  The first step stores zero.
-/
import proofs.«164459_j76733885710415_2_alg».proof.Proof.Gen.KernelIdeal.Skeleton
import proofs.«164459_j76733885710415_2_alg».proof.Proof.LossSpec
import Idealize.ShloMosaic.PureOps.Ideal.Laws
import Idealize.ShloMosaic.Lib.ValueIdx
import Idealize.ShloMosaic.Lib.Pipeline.Value

namespace Cert.KernelIdeal.Payload

open Idealize.ShloMosaic Cert.KernelIdeal Cert.KernelIdeal.Gen

/-- The matrix product's dimension record: rows of the left block against rows of the right block. -/
abbrev D := dot_S1024x256_S1024x256_S1024x1024_1_1_0_0_n_n

theorem lhs_0 (i : S1024x1024.Idx) (k : D.contr.Idx) : (D.lhsIdx i k 0).val = (i 0).val := by
  unfold DotDims.lhsIdx
  rw [dif_neg (show ¬(0 : Fin S1024x256.rank) ∈ D.lhsBatch by decide),
    dif_pos (show (0 : Fin S1024x256.rank) ∈ D.lhsNonContracting by decide)]
  rfl

theorem lhs_1 (i : S1024x1024.Idx) (k : D.contr.Idx) : (D.lhsIdx i k 1).val = (k ⟨0, by decide⟩).val :=
  D.lhsIdx_val_of_single rfl i k

theorem rhs_0 (i : S1024x1024.Idx) (k : D.contr.Idx) : (D.rhsIdx i k 0).val = (i 1).val := by
  unfold DotDims.rhsIdx
  rw [dif_neg (show ¬(0 : Fin S1024x256.rank) ∈ D.rhsBatch by decide),
    dif_pos (show (0 : Fin S1024x256.rank) ∈ D.rhsNonContracting by decide)]
  rfl

theorem rhs_1 (i : S1024x1024.Idx) (k : D.contr.Idx) : (D.rhsIdx i k 1).val = (k ⟨0, by decide⟩).val :=
  D.rhsIdx_val_of_single rfl i k

/-- The product into a zero accumulator at `(p, q)`: the inner product of row `p` of the left block with row
    `q` of the right block. -/
theorem dot_apply (x y : FVec Ideal S1024x256 .bf16) (p q : Fin 1024) :
    matmul D none x y (constant (F := Ideal) S1024x1024 .f32 0x00000000#32) (ValueIdx.ix2 p q)
      = ∑ d : Fin 256, x (ValueIdx.ix2 p d) * y (ValueIdx.ix2 q d) := by
  refine (Ideal.matmul_constant_zero_apply D none x y (ValueIdx.ix2 p q)).trans ?_
  rw [← Equiv.sum_comp (ValueIdx.contrEquiv1 D 256 rfl rfl).symm]
  refine Finset.sum_congr rfl fun k _ => ?_
  have hk := ValueIdx.contrEquiv1_symm_val D 256 rfl rfl k
  have el : D.lhsIdx (ValueIdx.ix2 p q) ((ValueIdx.contrEquiv1 D 256 rfl rfl).symm k) = ValueIdx.ix2 p k :=
    funext fun a => Fin.ext (by
      match a with
      | ⟨0, _⟩ => exact lhs_0 _ _
      | ⟨1, _⟩ => exact (lhs_1 _ _).trans hk)
  have er : D.rhsIdx (ValueIdx.ix2 p q) ((ValueIdx.contrEquiv1 D 256 rfl rfl).symm k) = ValueIdx.ix2 q k :=
    funext fun a => Fin.ext (by
      match a with
      | ⟨0, _⟩ => exact rhs_0 _ _
      | ⟨1, _⟩ => exact (rhs_1 _ _).trans hk)
  rw [el, er]

theorem pay1_apply (p : Fin 1024) : k0_pay1 (F := Ideal) (ValueIdx.ix1 p) = 0 := by
  unfold k0_pay1
  rw [shapeCast_self]
  exact Ideal.ofBits_zero_f32

theorem lift_eq (p q : Fin 1024) :
    (reduces_S1024x1024_S1024 : S1024x1024.Reduces [1] S1024).lift (ValueIdx.ix1 p) q = ValueIdx.ix2 p q :=
  funext fun a => Fin.ext (by
    match a with
    | ⟨0, _⟩ => rfl
    | ⟨1, _⟩ => rfl)

/-- The lane sum at row `p`: the sum over the columns. -/
theorem red_apply (src : FVec Ideal S1024x1024 .f32) (p : Fin 1024) :
    multiReduction (F := Ideal) .add [1] S1024 src 0x00000000#32 reduces_S1024x1024_S1024 (.inl rfl) rfl (ValueIdx.ix1 p)
      = ∑ q : Fin 1024, src (ValueIdx.ix2 p q) := by
  refine (Ideal.multiReduction_add_single src _ _ _ _ _).trans ?_
  refine Finset.sum_congr rfl fun q _ => ?_
  exact congrArg src (lift_eq p q)

theorem pay2_apply (v3 v8 : Vec Ideal S1024x256 .bf16) (v14 : Vec Ideal S1024 .f32) (p : Fin 1024) :
    k0_pay2 (F := Ideal) v3 v8 v14 (ValueIdx.ix1 p)
      = v14 (ValueIdx.ix1 p) + ∑ q : Fin 1024,
          Ideal.exp ((∑ d : Fin 256, v3 (ValueIdx.ix2 p d) * v8 (ValueIdx.ix2 q d)) * Cert.Contrastive.two) := by
  unfold k0_pay2
  simp only [shapeCast_self]
  refine (ValueIdx.addf_apply _ _ _).trans ?_
  refine congrArg (fun t => v14 (ValueIdx.ix1 p) + t) ?_
  refine (red_apply _ p).trans ?_
  refine Finset.sum_congr rfl fun q _ => ?_
  refine congrArg Ideal.exp ?_
  refine (ValueIdx.mulf_apply _ _ _).trans ?_
  rw [dot_apply]
  rfl

end Cert.KernelIdeal.Payload
-- ==== Proof.KBlocks.lean ====
/-
  Two facts about finite sums of extended reals. A sum over 8192 columns is the sum, over the 8 blocks of 1024
  consecutive columns, of the blocks' sums; and a sequence that starts at zero plus its first increment and adds
  one increment per step is the sequence of partial sums of the increments.
-/
import proofs.«164459_j76733885710415_2_alg».proof.Proof.LossSpec

namespace Cert.Contrastive

/-- `n` consecutive blocks of length `m` make up the first `m * n` numbers. -/
theorem sum_blocks_range (f : ℕ → EReal) (m : ℕ) :
    ∀ n : ℕ, ∑ k ∈ Finset.range n, ∑ q ∈ Finset.range m, f (m * k + q) = ∑ c ∈ Finset.range (m * n), f c
  | 0 => by rw [Finset.range_zero, Finset.sum_empty, Nat.mul_zero, Finset.range_zero, Finset.sum_empty]
  | n + 1 => by
    rw [Finset.sum_range_succ, sum_blocks_range f m n, Nat.mul_succ, Finset.sum_range_add]

/-- The 8192 columns, block by block. -/
theorem sum_blocks (f : ℕ → EReal) :
    ∑ k ∈ Finset.range 8, ∑ q : Fin 1024, f (1024 * k + q.val) = ∑ c : Fin 8192, f c.val := by
  rw [Fin.sum_univ_eq_sum_range (fun c => f c) 8192]
  refine Eq.trans ?_ (sum_blocks_range f 1024 8)
  refine Finset.sum_congr rfl fun k _ => ?_
  exact Fin.sum_univ_eq_sum_range (fun q => f (1024 * k + q)) 1024

/-- A running sum is the partial sum of its increments. -/
theorem fold_range (s : ℕ → EReal) (T : ℕ → EReal) (h0 : T 0 = 0 + s 0) (hs : ∀ j, T (j + 1) = T j + s (j + 1)) :
    ∀ j : ℕ, T j = ∑ k ∈ Finset.range (j + 1), s k
  | 0 => by rw [h0, zero_add, Finset.sum_range_one]
  | j + 1 => by rw [hs j, fold_range s T h0 hs j, ← Finset.sum_range_succ]

end Cert.Contrastive
-- ==== Proof.KHostPure.lean ====
/-
  The kernel program's host operations before its region, as pure functions of the two input batches, each read
  at an index over the extended reals: a row's norm is the square root of its sum of squares, its clamped length the
  larger of that and the clamp, the normalized batch every entry over its row's clamped length, and the region's
  input the two normalized batches one above the other.
-/
import proofs.«164459_j76733885710415_2_alg».proof.Proof.LossSpec
import proofs.«164459_j76733885710415_2_alg».proof.Proof.Gen.KernelIdeal.Launch
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx
open Cert.Contrastive

/-- A host sum over the columns of a 4096 x 256 array from a zero initial value, read at row k: the sum of the row. -/
theorem reduce_rows_apply (y : (⟨S4096x256, .f32⟩ : BufTy).Contents (Elt Ideal)) (k : Fin 4096) :
    Host.reduceAdd (F := Ideal) y (constant (F := Ideal) S_ .f32 0x00000000#32) reducesTo_S4096x256_S4096_d1 h_S_ (ix1 k)
      = ∑ d : Fin 256, y (ix2 k d) := by
  simp only [Host.reduceAdd, Ideal.hostReduceAdd_def]
  rw [Ideal.hostReduceAdd_single reducesTo_S4096x256_S4096_d1 (by decide)]
  show Ideal.ofBits .f32 0x00000000#32 + _ = _
  rw [Ideal.ofBits_zero_f32, zero_add]
  refine Finset.sum_congr rfl fun d _ => ?_
  exact congrArg y (funext fun a => Fin.ext (by match a with | ⟨0, _⟩ => rfl | ⟨1, _⟩ => rfl))

/-- The row-norm function: each row's sum of squares, as a column, under the square root. -/
def rowNorm (x : (⟨S4096x256, .f32⟩ : BufTy).Contents (Elt Ideal)) : (⟨S4096x1, .f32⟩ : BufTy).Contents (Elt Ideal) :=
  Host.sqrt (F := Ideal) (broadcastInDim S4096x1 ![0] bcast_S4096_S4096x1_0
    (Host.reduceAdd (F := Ideal) (mulf (F := Ideal) x x) (constant (F := Ideal) S_ .f32 0x00000000#32) reducesTo_S4096x256_S4096_d1 h_S_))

theorem rowNorm_apply (x : (⟨S4096x256, .f32⟩ : BufTy).Contents (Elt Ideal)) (k : Fin 4096) (z : Fin 1) :
    rowNorm x (ix2 k z) = Ideal.sqrt (∑ d : Fin 256, toMat x k d * toMat x k d) := by
  unfold rowNorm
  show Ideal.sqrt _ = _
  refine congrArg Ideal.sqrt ?_
  refine (broadcastInDim_apply _ bcast_S4096_S4096x1_0 _ (ix2 k z) (ix1 k) (fun a => match a with
    | ⟨0, _⟩ => by show k.val = if (4096 : Nat) = 1 then 0 else k.val; rw [if_neg (by decide)])).trans ?_
  exact reduce_rows_apply _ k

/-- The clamped row length: the larger of the row norm and the clamp. -/
def rowLen (x : (⟨S4096x256, .f32⟩ : BufTy).Contents (Elt Ideal)) : (⟨S4096x1, .f32⟩ : BufTy).Contents (Elt Ideal) :=
  maximumf (F := Ideal) (rowNorm x) (broadcastInDim S4096x1 ![] bcast_S_S4096x1 (constant (F := Ideal) S_ .f32 0x322BCC77#32))

theorem rowLen_apply (x : (⟨S4096x256, .f32⟩ : BufTy).Contents (Elt Ideal)) (k : Fin 4096) (z : Fin 1) :
    rowLen x (ix2 k z) = len (toMat x) k := by
  unfold rowLen len
  show max (rowNorm x (ix2 k z)) _ = _
  rw [rowNorm_apply]
  refine congrArg (max _) ?_
  exact broadcastInDim_apply _ bcast_S_S4096x1 _ (ix2 k z) ix0 (fun a => a.elim0)

/-- Every entry divided by its row's clamped length. -/
def rowUnit (x : (⟨S4096x256, .f32⟩ : BufTy).Contents (Elt Ideal)) : (⟨S4096x256, .f32⟩ : BufTy).Contents (Elt Ideal) :=
  Host.divf (F := Ideal) (φ := .f32) x (broadcastInDim S4096x256 ![0, 1] bcast_S4096x1_S4096x256_0_1 (rowLen x))

theorem rowUnit_apply (x : (⟨S4096x256, .f32⟩ : BufTy).Contents (Elt Ideal)) (k : Fin 4096) (d : Fin 256) :
    rowUnit x (ix2 k d) = unit (toMat x) k d := by
  unfold rowUnit Cert.Contrastive.unit
  show Ideal.div (x (ix2 k d)) _ = _
  refine congrArg (Ideal.div _) ?_
  refine (broadcastInDim_apply _ bcast_S4096x1_S4096x256_0_1 _ (ix2 k d) (ix2 k (0 : Fin 1)) (fun a => match a with
    | ⟨0, _⟩ => by show k.val = if (4096 : Nat) = 1 then 0 else k.val; rw [if_neg (by decide)]
    | ⟨1, _⟩ => by show 0 = if (1 : Nat) = 1 then 0 else d.val; rw [if_pos rfl])).trans ?_
  exact rowLen_apply x k 0

/-- The two batches, each divided by its rows' clamped lengths, one above the other (the change of format is the
    identity on extended reals). -/
def stacked (x y : (⟨S4096x256, .f32⟩ : BufTy).Contents (Elt Ideal)) : (⟨S8192x256, .bf16⟩ : BufTy).Contents (Elt Ideal) :=
  concatenate S8192x256 0
    [⟨S4096x256, truncf (F := Ideal) .bf16 (rowUnit x) bitsLt_bf16_f32⟩,
     ⟨S4096x256, truncf (F := Ideal) .bf16 (rowUnit y) bitsLt_bf16_f32⟩]
    concatenates_S4096x256_S4096x256_S8192x256_d0

theorem stacked_apply_left (x y : (⟨S4096x256, .f32⟩ : BufTy).Contents (Elt Ideal)) (r : Fin 8192) (k : Fin 4096) (d : Fin 256) (hk : k.val = r.val) :
    stacked x y (ix2 r d) = unit (toMat x) k d := by
  unfold stacked
  refine (concatenate_pair_apply_left (t := S8192x256) (s₁ := S4096x256) (s₂ := S4096x256) (0 : Fin 2) _ _
    concatenates_S4096x256_S4096x256_S8192x256_d0 (ix2 r d) rfl
    (ix2 k d) (fun b => match b with | ⟨0, _⟩ => hk | ⟨1, _⟩ => rfl)).trans ?_
  exact rowUnit_apply x k d

theorem stacked_apply_right (x y : (⟨S4096x256, .f32⟩ : BufTy).Contents (Elt Ideal)) (r : Fin 8192) (k : Fin 4096) (d : Fin 256) (hk : k.val + 4096 = r.val) :
    stacked x y (ix2 r d) = unit (toMat y) k d := by
  unfold stacked
  refine (concatenate_pair_apply_right (t := S8192x256) (s₁ := S4096x256) (s₂ := S4096x256) (0 : Fin 2) _ _
    concatenates_S4096x256_S4096x256_S8192x256_d0 (ix2 r d) rfl rfl
    (ix2 k d)
    (fun b hb => match b, hb with | ⟨0, _⟩, hb => absurd rfl hb | ⟨1, _⟩, _ => rfl)
    hk).trans ?_
  exact rowUnit_apply y k d

theorem stacked_apply (x y : (⟨S4096x256, .f32⟩ : BufTy).Contents (Elt Ideal)) (r : Fin 8192) (d : Fin 256) :
    stacked x y (ix2 r d) = stack (unit (toMat x)) (unit (toMat y)) r d := by
  unfold stack
  by_cases h : r.val < 4096
  · rw [dif_pos h]
    exact stacked_apply_left x y r ⟨r.val, h⟩ d rfl
  · rw [dif_neg h]
    exact stacked_apply_right x y r ⟨r.val - 4096, _⟩ d (Nat.sub_add_cancel (Nat.not_lt.mp h))

end Cert.KernelIdeal.HostValue

end
-- ==== Proof.KHostPrefix.lean ====
/-
  The kernel program's host operations before its region, run on arbitrary launch contents: the two normalized
  batches and their stacking, read at an index, are the specification's `unit` and `stack`; the inputs themselves
  are left as launched.
-/
import proofs.«164459_j76733885710415_2_alg».proof.Proof.KHostPure
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx
open Cert.Contrastive

/-- The contents after the host operations that precede the region, from launch contents `W`. -/
local notation "W4[" W "]" => StableHlo.after (hostOps0_3 (F := Ideal)) (StableHlo.after (hostOps0_2 (F := Ideal))
  (StableHlo.after (hostOps0_1 (F := Ideal)) (StableHlo.after (hostOps0 (F := Ideal)) W)))

/-! ## What the operations before the region leave, as functions of the launch contents -/

theorem W4_v7_eq (W₀ : Valuation τ sig (Elt Ideal)) :
    (W4[W₀] (Proc.devRef .tc main_v7) : S4096x256.Idx → EReal) = rowUnit (W₀ (Proc.devRef .tc main_arg0)) := by
  dsimp only [hostOps0, hostOps0_1, hostOps0_2, hostOps0_3]
  after_results
  rfl

theorem W4_v9_eq (W₀ : Valuation τ sig (Elt Ideal)) :
    (W4[W₀] (Proc.devRef .tc main_v9) : S4096x256.Idx → EReal) = rowUnit (W₀ (Proc.devRef .tc main_arg1)) := by
  dsimp only [hostOps0, hostOps0_1, hostOps0_2, hostOps0_3]
  after_results
  rfl

theorem W4_v12_eq (W₀ : Valuation τ sig (Elt Ideal)) :
    (W4[W₀] (Proc.devRef .tc main_v12) : S8192x256.Idx → EReal)
      = stacked (W₀ (Proc.devRef .tc main_arg0)) (W₀ (Proc.devRef .tc main_arg1)) := by
  dsimp only [hostOps0, hostOps0_1, hostOps0_2, hostOps0_3]
  after_results
  rfl

/-- No operation before the region writes the first input. -/
theorem W4_arg0 (W₀ : Valuation τ sig (Elt Ideal)) :
    W4[W₀] (Proc.devRef .tc main_arg0) = W₀ (Proc.devRef .tc main_arg0) := by
  dsimp only [hostOps0, hostOps0_1, hostOps0_2, hostOps0_3]
  after_results

/-- No operation before the region writes the second input. -/
theorem W4_arg1 (W₀ : Valuation τ sig (Elt Ideal)) :
    W4[W₀] (Proc.devRef .tc main_arg1) = W₀ (Proc.devRef .tc main_arg1) := by
  dsimp only [hostOps0, hostOps0_1, hostOps0_2, hostOps0_3]
  after_results

/-! ## The same at an index, in the specification's terms -/

/-- The first normalized batch. -/
theorem W4_v7 (W₀ : Valuation τ sig (Elt Ideal)) (k : Fin 4096) (d : Fin 256) :
    W4[W₀] (Proc.devRef .tc main_v7) (ix2 k d) = unit (toMat (W₀ (Proc.devRef .tc main_arg0))) k d :=
  (congrFun (W4_v7_eq W₀) (ix2 k d)).trans (rowUnit_apply _ k d)

/-- The second normalized batch. -/
theorem W4_v9 (W₀ : Valuation τ sig (Elt Ideal)) (k : Fin 4096) (d : Fin 256) :
    W4[W₀] (Proc.devRef .tc main_v9) (ix2 k d) = unit (toMat (W₀ (Proc.devRef .tc main_arg1))) k d :=
  (congrFun (W4_v9_eq W₀) (ix2 k d)).trans (rowUnit_apply _ k d)

/-- The region's input: the two normalized batches stacked. -/
theorem W4_v12 (W₀ : Valuation τ sig (Elt Ideal)) (r : Fin 8192) (d : Fin 256) :
    W4[W₀] (Proc.devRef .tc main_v12) (ix2 r d)
      = stack (unit (toMat (W₀ (Proc.devRef .tc main_arg0)))) (unit (toMat (W₀ (Proc.devRef .tc main_arg1)))) r d :=
  (congrFun (W4_v12_eq W₀) (ix2 r d)).trans (stacked_apply _ _ r d)

end Cert.KernelIdeal.HostValue

end
-- ==== Proof.KHostTailPure.lean ====
/-
  The kernel program's host operations after its region, as one pure function of the four arrays they read, and that
  function in closed form over the extended reals: the mean over the stacked rows of minus twice the row's similarity
  with its partner plus the logarithm of the region's row sum less the row's own diagonal term.
-/
import proofs.«164459_j76733885710415_2_alg».proof.Proof.KHostPure

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx
open Cert.Contrastive

/-- A host sum over the columns of an 8192 x 256 array from a zero initial value, read at row r: the sum of the row. -/
theorem reduce_rows8_apply (y : (⟨S8192x256, .f32⟩ : BufTy).Contents (Elt Ideal)) (r : Fin 8192) :
    Host.reduceAdd (F := Ideal) y (constant (F := Ideal) S_ .f32 0x00000000#32) reducesTo_S8192x256_S8192_d1 h_S_ (ix1 r)
      = ∑ d : Fin 256, y (ix2 r d) := by
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  refine Finset.sum_congr rfl fun d _ => ?_
  exact congrArg y (funext fun a => Fin.ext (by match a with | ⟨0, _⟩ => rfl | ⟨1, _⟩ => rfl))

/-- A rank-one index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {n : Nat} (f : (⟨1, ![n]⟩ : Shape).Idx → EReal) : ∑ i, f i = ∑ k : Fin n, f (ix1 k) := by
  rw [← Equiv.sum_comp (idxEquiv1 (n := n)).symm f]
  rfl

/-- A host sum of a vector of 8192 entries from a zero initial value: the sum of the entries. -/
theorem reduce_all_apply (y : (⟨S8192, .f32⟩ : BufTy).Contents (Elt Ideal)) (j : S_.Idx) :
    Host.reduceAdd (F := Ideal) y (constant (F := Ideal) S_ .f32 0x00000000#32) reducesTo_S8192_S_d0 h_S_ j
      = ∑ r : Fin 8192, y (ix1 r) := by
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add]
  exact sum_idx1 y

/-- A vector of 4096 entries followed by itself, read at r: the entry r places in, cyclically. -/
theorem concat_self_apply (v : (⟨S4096, .f32⟩ : BufTy).Contents (Elt Ideal)) (r : Fin 8192) :
    concatenate S8192 0 [⟨S4096, v⟩, ⟨S4096, v⟩] concatenates_S4096_S4096_S8192_d0 (ix1 r) = v (ix1 (wrap r)) := by
  by_cases h : r.val < 4096
  · have hw : (wrap r).val = r.val := Nat.mod_eq_of_lt h
    exact concatenate_pair_apply_left (t := S8192) (s₁ := S4096) (s₂ := S4096) (0 : Fin 1) _ _
      concatenates_S4096_S4096_S8192_d0 (ix1 r) rfl (ix1 (wrap r)) (fun b => match b with | ⟨0, _⟩ => hw)
  · have hw : (wrap r).val + 4096 = r.val := by
      show r.val % 4096 + 4096 = r.val
      have := r.isLt
      omega
    exact concatenate_pair_apply_right (t := S8192) (s₁ := S4096) (s₂ := S4096) (0 : Fin 1) _ _
      concatenates_S4096_S4096_S8192_d0 (ix1 r) rfl rfl (ix1 (wrap r))
      (fun b hb => match b, hb with | ⟨0, _⟩, hb => absurd rfl hb) hw

/-- The diagonal term of each stacked row: the exponential of twice its sum of squares. -/
def selfTerm (v12 : (⟨S8192x256, .bf16⟩ : BufTy).Contents (Elt Ideal)) : (⟨S8192, .f32⟩ : BufTy).Contents (Elt Ideal) :=
  Host.exp (F := Ideal) (mulf (F := Ideal)
    (Host.reduceAdd (F := Ideal)
      (mulf (F := Ideal) (extf (F := Ideal) .f32 v12 bitsLt_bf16_f32) (extf (F := Ideal) .f32 v12 bitsLt_bf16_f32))
      (constant (F := Ideal) S_ .f32 0x00000000#32) reducesTo_S8192x256_S8192_d1 h_S_)
    (broadcastInDim S8192 ![] bcast_S_S8192 (constant (F := Ideal) S_ .f32 0x40000000#32)))

theorem selfTerm_apply (v12 : (⟨S8192x256, .bf16⟩ : BufTy).Contents (Elt Ideal)) (r : Fin 8192) :
    selfTerm v12 (ix1 r) = Ideal.exp ((∑ d : Fin 256, toMat v12 r d * toMat v12 r d) * two) := by
  unfold selfTerm
  show Ideal.exp (_ * _) = _
  refine congrArg Ideal.exp ?_
  refine congr (congrArg HMul.hMul ?_) ?_
  · exact reduce_rows8_apply _ r
  · exact broadcastInDim_apply _ bcast_S_S8192 _ (ix1 r) ix0 (fun a => a.elim0)

/-- Row k of the first normalized batch times row k of the second, summed. -/
def rowDots (v7 v9 : (⟨S4096x256, .f32⟩ : BufTy).Contents (Elt Ideal)) : (⟨S4096, .f32⟩ : BufTy).Contents (Elt Ideal) :=
  Host.reduceAdd (F := Ideal) (mulf (F := Ideal) v7 v9) (constant (F := Ideal) S_ .f32 0x00000000#32) reducesTo_S4096x256_S4096_d1 h_S_

/-- Minus twice the similarity of each stacked row with its partner. -/
def posTerm (v7 v9 : (⟨S4096x256, .f32⟩ : BufTy).Contents (Elt Ideal)) : (⟨S8192, .f32⟩ : BufTy).Contents (Elt Ideal) :=
  Host.negf (F := Ideal) (mulf (F := Ideal)
    (concatenate S8192 0 [⟨S4096, rowDots v7 v9⟩, ⟨S4096, rowDots v7 v9⟩] concatenates_S4096_S4096_S8192_d0)
    (broadcastInDim S8192 ![] bcast_S_S8192 (constant (F := Ideal) S_ .f32 0x40000000#32)))

theorem posTerm_apply (v7 v9 : (⟨S4096x256, .f32⟩ : BufTy).Contents (Elt Ideal)) (r : Fin 8192) :
    posTerm v7 v9 (ix1 r) = -((∑ d : Fin 256, toMat v7 (wrap r) d * toMat v9 (wrap r) d) * two) := by
  unfold posTerm
  show -(_ * _) = _
  refine congrArg Neg.neg ?_
  refine congr (congrArg HMul.hMul ?_) ?_
  · refine (concat_self_apply _ r).trans ?_
    exact reduce_rows_apply _ (wrap r)
  · exact broadcastInDim_apply _ bcast_S_S8192 _ (ix1 r) ix0 (fun a => a.elim0)

/-- The operations after the region as one function of what they read: the stacked rows, the region's row sums and
    the two normalized batches. -/
def lossTail (v12 : (⟨S8192x256, .bf16⟩ : BufTy).Contents (Elt Ideal)) (v13 : (⟨S8192, .f32⟩ : BufTy).Contents (Elt Ideal)) (v7 v9 : (⟨S4096x256, .f32⟩ : BufTy).Contents (Elt Ideal)) :
    (⟨S_, .f32⟩ : BufTy).Contents (Elt Ideal) :=
  Host.divf (F := Ideal) (φ := .f32)
    (Host.reduceAdd (F := Ideal)
      (addf (F := Ideal) (posTerm v7 v9) (Host.log (F := Ideal) (subf (F := Ideal) v13 (selfTerm v12))))
      (constant (F := Ideal) S_ .f32 0x00000000#32) reducesTo_S8192_S_d0 h_S_)
    (constant (F := Ideal) S_ .f32 0x46000000#32)

theorem lossTail_eq (v12 : (⟨S8192x256, .bf16⟩ : BufTy).Contents (Elt Ideal)) (v13 : (⟨S8192, .f32⟩ : BufTy).Contents (Elt Ideal)) (v7 v9 : (⟨S4096x256, .f32⟩ : BufTy).Contents (Elt Ideal)) :
    lossTail v12 v13 v7 v9 = fun _ => Ideal.div (∑ r : Fin 8192,
      (-((∑ d : Fin 256, toMat v7 (wrap r) d * toMat v9 (wrap r) d) * two)
        + Ideal.log (v13 (ix1 r) - Ideal.exp ((∑ d : Fin 256, toMat v12 r d * toMat v12 r d) * two)))) count := by
  funext j
  unfold lossTail
  show Ideal.div _ count = _
  refine congrArg (fun t => Ideal.div t count) ?_
  refine (reduce_all_apply _ j).trans ?_
  refine Finset.sum_congr rfl fun r _ => ?_
  show posTerm v7 v9 (ix1 r) + Ideal.log (v13 (ix1 r) - selfTerm v12 (ix1 r)) = _
  rw [posTerm_apply, selfTerm_apply]

end Cert.KernelIdeal.HostValue

end
-- ==== Proof.KHostTail.lean ====
/-
  The kernel program's host operations after its region, run on arbitrary contents: the result is the closed form
  of the tail over the four arrays it reads, the inputs are left as they were, and on contents whose normalized
  batches, stacked rows and region output are the specification's the result is the loss in its unmasked arrangement.
-/
import proofs.«164459_j76733885710415_2_alg».proof.Proof.KHostPrefix
import proofs.«164459_j76733885710415_2_alg».proof.Proof.KHostTailPure
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx
open Cert.Contrastive

/-- The contents after the host operations that precede the region, from launch contents `W`. -/
local notation "W4[" W "]" => StableHlo.after (hostOps0_3 (F := Ideal)) (StableHlo.after (hostOps0_2 (F := Ideal))
  (StableHlo.after (hostOps0_1 (F := Ideal)) (StableHlo.after (hostOps0 (F := Ideal)) W)))

/-- A rank-one array read as a vector. -/
def toVec {n : Nat} (x : (⟨1, ![n]⟩ : Shape).Idx → EReal) : Fin n → EReal := fun r => x (ix1 r)

/-! ## The operations after the region, run on arbitrary contents -/

theorem tail_v30_eq (W5 : Valuation τ sig (Elt Ideal)) :
    (StableHlo.after (hostOps1 (F := Ideal)) W5 (Proc.devRef .tc main_v30) : S_.Idx → EReal)
      = lossTail (W5 (Proc.devRef .tc main_v12)) (W5 (Proc.devRef .tc main_v13))
          (W5 (Proc.devRef .tc main_v7)) (W5 (Proc.devRef .tc main_v9)) := by
  dsimp only [hostOps1]
  after_results
  rfl

/-- The result, in closed form over what the operations read. -/
theorem tail_v30 (W5 : Valuation τ sig (Elt Ideal)) :
    (StableHlo.after (hostOps1 (F := Ideal)) W5 (Proc.devRef .tc main_v30) : S_.Idx → EReal)
      = fun _ => Ideal.div (∑ r : Fin 8192,
          (-((∑ d : Fin 256, toMat (W5 (Proc.devRef .tc main_v7)) (wrap r) d * toMat (W5 (Proc.devRef .tc main_v9)) (wrap r) d) * two)
            + Ideal.log (toVec (W5 (Proc.devRef .tc main_v13)) r
                - Ideal.exp ((∑ d : Fin 256, toMat (W5 (Proc.devRef .tc main_v12)) r d * toMat (W5 (Proc.devRef .tc main_v12)) r d) * two)))) count :=
  (tail_v30_eq W5).trans (lossTail_eq _ _ _ _)

/-- No operation after the region writes the first input. -/
theorem tail_arg0 (W5 : Valuation τ sig (Elt Ideal)) :
    StableHlo.after (hostOps1 (F := Ideal)) W5 (Proc.devRef .tc main_arg0) = W5 (Proc.devRef .tc main_arg0) := by
  dsimp only [hostOps1]
  after_results

/-- No operation after the region writes the second input. -/
theorem tail_arg1 (W5 : Valuation τ sig (Elt Ideal)) :
    StableHlo.after (hostOps1 (F := Ideal)) W5 (Proc.devRef .tc main_arg1) = W5 (Proc.devRef .tc main_arg1) := by
  dsimp only [hostOps1]
  after_results

/-! ## The result is the unmasked arrangement of the loss -/

/-- Contents whose normalized batches and stacked rows are the specification's, and whose region output is each
    stacked row's sum over all columns, end with the loss in its unmasked arrangement. -/
theorem tail_lossK (a b : Mat 4096 256) (W5 : Valuation τ sig (Elt Ideal))
    (h12 : ∀ (r : Fin 8192) (d : Fin 256), W5 (Proc.devRef .tc main_v12) (ix2 r d) = stack (unit a) (unit b) r d)
    (h7 : ∀ (k : Fin 4096) (d : Fin 256), W5 (Proc.devRef .tc main_v7) (ix2 k d) = unit a k d)
    (h9 : ∀ (k : Fin 4096) (d : Fin 256), W5 (Proc.devRef .tc main_v9) (ix2 k d) = unit b k d)
    (h13 : ∀ r : Fin 8192, W5 (Proc.devRef .tc main_v13) (ix1 r) = fullK (stack (unit a) (unit b)) r) :
    (StableHlo.after (hostOps1 (F := Ideal)) W5 (Proc.devRef .tc main_v30) : S_.Idx → EReal) = fun _ => lossK a b := by
  rw [tail_v30]
  funext _
  unfold lossK posK selfK dot
  refine congrArg (fun t => Ideal.div t count) (Finset.sum_congr rfl fun r _ => ?_)
  simp only [toMat, toVec, h12, h7, h9, h13]

/-- The same for contents that agree with the prefix's on what the tail reads besides the region's output. -/
theorem tail_lossK_of_prefix (W₀ W5 : Valuation τ sig (Elt Ideal))
    (e12 : W5 (Proc.devRef .tc main_v12) = W4[W₀] (Proc.devRef .tc main_v12))
    (e7 : W5 (Proc.devRef .tc main_v7) = W4[W₀] (Proc.devRef .tc main_v7))
    (e9 : W5 (Proc.devRef .tc main_v9) = W4[W₀] (Proc.devRef .tc main_v9))
    (h13 : ∀ r : Fin 8192, W5 (Proc.devRef .tc main_v13) (ix1 r)
      = fullK (stack (unit (toMat (W₀ (Proc.devRef .tc main_arg0)))) (unit (toMat (W₀ (Proc.devRef .tc main_arg1))))) r) :
    (StableHlo.after (hostOps1 (F := Ideal)) W5 (Proc.devRef .tc main_v30) : S_.Idx → EReal)
      = fun _ => lossK (toMat (W₀ (Proc.devRef .tc main_arg0))) (toMat (W₀ (Proc.devRef .tc main_arg1))) :=
  tail_lossK _ _ W5
    (fun r d => (congrFun e12 (ix2 r d)).trans (W4_v12 W₀ r d))
    (fun k d => (congrFun e7 (ix2 k d)).trans (W4_v7 W₀ k d))
    (fun k d => (congrFun e9 (ix2 k d)).trans (W4_v9 W₀ k d))
    h13

end Cert.KernelIdeal.HostValue

end
-- ==== Proof.KValue.lean ====
/-
  The value of the row-block kernel at the ideal instance: the output array holds, at row r, the sum over ALL 8192
  columns c of exp (2 <z_r, z_c>) of the stacked unit rows z — and so the whole program ends at the loss in its
  unmasked arrangement.

  Row r = 1024 i + p is handled at the eight positions 8 i + k, k = 0 .. 7. By induction on the position, the scratch
  vector's entry p after position 8 i + k is the sum over the column blocks 0 .. k of that block's row sum (the
  first column starts from the zero the body has just stored, every later one adds to what the position before left);
  after the eighth block the eight block sums are the sum over all columns, the blocks being consecutive runs of
  1024 columns. The output's buffer receives that vector at the positions 8 i + 7, which are the ones that write the
  output block i back, and these blocks tile the output array.
-/
import proofs.«164459_j76733885710415_2_alg».proof.Proof.KLaunch
import proofs.«164459_j76733885710415_2_alg».proof.Proof.KStep
import proofs.«164459_j76733885710415_2_alg».proof.Proof.KGeom
import proofs.«164459_j76733885710415_2_alg».proof.Proof.KPayload
import proofs.«164459_j76733885710415_2_alg».proof.Proof.KBlocks
import proofs.«164459_j76733885710415_2_alg».proof.Proof.KHostTail

set_option maxRecDepth 16384

noncomputable section

namespace Cert.KernelIdeal.Frame

open Cert.KernelIdeal Cert.KernelIdeal.Gen
open Idealize.ShloMosaic Idealize.ShloMosaic.TcCoe Idealize.SL.Sem
open Idealize.ShloMosaic.Pipeline (Dat)
open Cert.Contrastive Cert.KernelIdeal.Payload Idealize.ShloMosaic.ValueIdx

variable (Vr : (c : Dev nD) → (b : Ref sig .tc) → Buf (Elt Ideal) ((c : Thread nD τ).loc b)) (c : Dev nD)

/-! ## The running sums -/

/-- The stacked rows as the region finds them, as a matrix; and by row NUMBER (zero past the last row). -/
def Zm : Mat 8192 256 := toMat (Vr c main_v12)
def Zn (n : ℕ) (d : Fin 256) : EReal := if h : n < 8192 then Zm Vr c ⟨n, h⟩ d else 0
theorem Zn_lt (n : ℕ) (h : n < 8192) (d : Fin 256) : Zn Vr c n d = Zm Vr c ⟨n, h⟩ d := dif_pos h

/-- The term of row `r` and column `n`, and the row sum of row 1024 i + p over column block k. -/
def term (r n : ℕ) : EReal := Ideal.exp ((∑ d : Fin 256, Zn Vr c r d * Zn Vr c n d) * two)
def blockSum (i k : ℕ) (p : Fin 1024) : EReal := ∑ q : Fin 1024, term Vr c (1024 * i + p.val) (1024 * k + q.val)

/-- The two input blocks at position t, read by row number. -/
theorem rowBlk_Zn (t : Fin cfg0.N) (p : Fin 1024) (d : Fin 256) :
    rowBlk Vr c t (ix2 p d) = Zn Vr c (1024 * (t.val / 8) + p.val) d := by
  have hN : t.val < 64 := lt_of_lt_of_eq t.isLt (show cfg0.N = 64 from N_0)
  rw [rowBlk_apply Vr c t p d, Zn_lt Vr c _ (by omega)]; rfl
theorem colSlice_Zn (t : Fin cfg0.N) (q : Fin 1024) (d : Fin 256) :
    colSlice (grid0.coords t) (colBlk Vr c t) (ix2 q d) = Zn Vr c (1024 * (t.val % 8) + q.val) d := by
  rw [colSlice_apply Vr c t q d, Zn_lt Vr c _ (by omega)]; rfl

/-- One position's arithmetic: what was there plus the block's row sum. -/
theorem step_apply (t : Fin cfg0.N) (prev : Vec Ideal S1024 .f32) (p : Fin 1024) :
    k0_pay2 (F := Ideal) (rowBlk Vr c t) (colSlice (grid0.coords t) (colBlk Vr c t)) prev (ix1 p)
      = prev (ix1 p) + blockSum Vr c (t.val / 8) (t.val % 8) p := by
  rw [pay2_apply]
  unfold blockSum term
  simp only [rowBlk_Zn, colSlice_Zn]

/-- The starting value of a position's addition, entry p: zero at a first column. -/
theorem startOf_apply (t : Fin cfg0.N) (prev : Vec Ideal S1024 .f32) (p : Fin 1024) :
    startOf t prev (ix1 p) = if t.val % 8 = 0 then 0 else prev (ix1 p) := by
  unfold startOf
  by_cases h : t.val % 8 = 0
  · rw [if_pos h, if_pos h]; exact pay1_apply p
  · rw [if_neg h, if_neg h]

/-- The scratch vector after position n, entry p: the block sums of the column blocks so far in this row block. -/
theorem accAt_apply : ∀ (n : ℕ) (hn : n < cfg0.N) (p : Fin 1024),
    accAt Vr c n (ix1 p) = ∑ k ∈ Finset.range (n % 8 + 1), blockSum Vr c (n / 8) k p
  | 0, hn, p => by
    unfold accAt
    rw [dif_pos hn, stepAt_snd, step_apply, startOf_apply]
    simp
  | n + 1, hn, p => by
    have hN : n + 1 < 64 := lt_of_lt_of_eq hn (show cfg0.N = 64 from N_0)
    rw [accAt, dif_pos hn, stepAt_snd, step_apply, startOf_apply]
    by_cases h0 : (n + 1) % 8 = 0
    · rw [if_pos h0]
      simp only [h0]
      simp
    · rw [if_neg h0, accAt_apply n (Nat.lt_of_succ_lt hn) p]
      have e1 : (n + 1) / 8 = n / 8 := by omega
      have e2 : (n + 1) % 8 = n % 8 + 1 := by omega
      simp only [e1, e2]
      rw [Finset.sum_range_succ (fun k => blockSum Vr c (n / 8) k p) (n % 8 + 1)]

/-! ## The output array -/

/-- Every row's sum over all columns, as contents of the output array. -/
def Gout : Buf (Elt Ideal) ((cfg0.win 2).arr.view.loc (c.tc : Thread nD τ)) := fun i => fullK (Zm Vr c) (i 0)

/-- At a last column the output's buffer receives what the scratch vector ends with. -/
theorem out_eq_acc (t : Fin cfg0.N) (h7 : t.val % 8 = 7) : (outsAt Vr c t).1 = (outsAt Vr c t).2 := by
  unfold outsAt
  rw [stepAt_fst Vr c t _ h7, stepAt_snd]
  unfold startOf
  rw [if_neg (by omega)]

/-- The eight block sums of a row are its sum over all columns. -/
theorem blocks_fullK (i : ℕ) (p : Fin 1024) (h : 1024 * i + p.val < 8192) :
    ∑ k ∈ Finset.range 8, blockSum Vr c i k p = fullK (Zm Vr c) ⟨1024 * i + p.val, h⟩ := by
  unfold blockSum fullK
  rw [sum_blocks (fun n => term Vr c (1024 * i + p.val) n)]
  refine Finset.sum_congr rfl fun c' _ => ?_
  unfold term dot
  simp only [Zn_lt Vr c _ h, Zn_lt Vr c _ c'.isLt]

/-- What a writing position writes back is its block of the row sums. -/
theorem flushed_eq (t : Fin cfg0.N) (hf : (cfg0.win 2).flush t = true) :
    (dats Vr 0 c).flushed 2 t = ((cfg0.win 2).blk t).view.read (Elt Ideal) (Gout Vr c) := by
  have h7 : t.val % 8 = 7 := (flush0_2 t).mp hf
  have hN : t.val < 64 := lt_of_lt_of_eq t.isLt (show cfg0.N = 64 from N_0)
  show (cfg0.win 2).cut (grid0.coords t) ((dats Vr 0 c).after 2 t) = _
  rw [after2, out_eq_acc Vr c t h7, ← accAt_eq]
  refine funext fun (y : S1024.Idx) => ?_
  obtain ⟨p, rfl⟩ : ∃ p : Fin 1024, y = ix1 p := ⟨y 0, eq_ix1 y⟩
  rw [outBlk_read c t (Gout Vr c) p]
  show accAt Vr c t.val (ix1 p) = fullK (Zm Vr c) _
  rw [accAt_apply Vr c t.val t.isLt p, h7]
  exact blocks_fullK Vr c (t.val / 8) p (by omega)

/-- So the output array ends holding every row's sum over all columns. -/
theorem final_out : (dats Vr 0 c).arrAt 2 cfg0.N = Gout Vr c :=
  (dats Vr 0 c).arrAt_eq_of_cover 2 (Gout Vr c) (flushed_eq Vr c) (cover2 c)

/-! ## The program's result -/

variable (m : (ℓ : Loc nD τ sig) → Buf (Elt Ideal) ℓ) (ρ : Dev nD → PrngReg)

/-- The result buffer of the whole program: the loss in its unmasked arrangement, of the two argument arrays. -/
theorem v30_lossK :
    W6 m c (Proc.devRef .tc main_v30)
      = fun _ => lossK (toMat (m (c, Proc.devRef .tc main_arg0))) (toMat (m (c, Proc.devRef .tc main_arg1))) := by
  refine Cert.KernelIdeal.HostValue.tail_lossK_of_prefix (W0 m c) (W5 m c)
    (W5_ne m c _ (StableHlo.devRef_ne_of_ne (by decide))) (W5_ne m c _ (StableHlo.devRef_ne_of_ne (by decide)))
    (W5_ne m c _ (StableHlo.devRef_ne_of_ne (by decide))) (fun r => ?_)
  rw [W5_out]; unfold outArr; rw [final_out (Vr m) c]
  show fullK (Zm (Vr m) c) r = _
  rw [show Zm (Vr m) c = stack (unit (toMat (m (c, Proc.devRef .tc main_arg0)))) (unit (toMat (m (c, Proc.devRef .tc main_arg1))))
    from funext fun r => funext fun d => Cert.KernelIdeal.HostValue.W4_v12 (W0 m c) r d]

/-- THE KERNEL'S RUN, read: the result at the loss, both argument arrays unchanged. -/
theorem run_value : θ_run defs (onTc (τ := τ) (main (F := Ideal))) ⟨m, fun _ => 0, ρ⟩ (fun r => ∀ c : Dev nD,
      r.2.mem ((c.tc : Thread nD τ).loc main_v30)
        = (fun _ => lossK (toMat (m ((c.tc : Thread nD τ).loc main_arg0))) (toMat (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ v30_mem).trans (v30_lossK c m), (h c _ arg0_mem).trans (W6_arg0 m c),
    (h c _ arg1_mem).trans (W6_arg1 m c)⟩) (run_main m ρ)

end Cert.KernelIdeal.Frame

end
-- ==== Proof.RefBase.lean ====
/-
  The reference program read as a function of its two arguments, first stretch: the stacked rows, each row's
  clamped Euclidean length, and the unit rows, each at an index given by its coordinates.
-/
import proofs.«164459_j76733885710415_2_alg».proof.Proof.RefReadP
import proofs.«164459_j76733885710415_2_alg».proof.Proof.LossSpec

noncomputable section

namespace Cert.ReferenceIdeal.RefValue

open Cert.ReferenceIdeal Cert.ReferenceIdeal.Gen Cert.ReferenceIdeal.ReadP Cert.Contrastive
open Idealize.ShloMosaic Idealize.ShloMosaic.ValueIdx Idealize.SL.Sem

/-- The concatenation of the two arguments along the rows is the stacked matrix. -/
theorem stacked_ix (x0 x1 : FVec Ideal S4096x256 .f32) (r : Fin 8192) (d : Fin 256) :
    val_main_v0 (F := Ideal) x0 x1 (ix2 r d) = stack (toMat x0) (toMat x1) r d := by
  unfold val_main_v0 stack toMat
  by_cases h : r.val < 4096
  · rw [dif_pos h]
    exact concatenate_pair_apply_left (0 : Fin S8192x256.rank) x0 x1 concatenates_S4096x256_S4096x256_S8192x256_d0
      (ix2 r d) rfl (ix2 ⟨r.val, h⟩ d) (fun b => match b with | ⟨0, _⟩ => rfl | ⟨1, _⟩ => rfl)
  · rw [dif_neg h]
    exact concatenate_pair_apply_right (0 : Fin S8192x256.rank) x0 x1 concatenates_S4096x256_S4096x256_S8192x256_d0
      (ix2 r d) rfl rfl (ix2 ⟨r.val - 4096, by omega⟩ d)
      (fun b hb => match b, hb with | ⟨0, _⟩, hb => absurd rfl hb | ⟨1, _⟩, _ => rfl)
      (by show (r.val - 4096) + 4096 = r.val; omega)

/-- A row's clamped length, at the column index the program keeps it in. -/
theorem length_ix (x0 x1 : FVec Ideal S4096x256 .f32) (r : Fin 8192) (z : Fin 1) :
    val_main_v3 (F := Ideal) x0 x1 (ix2 r z) = len (stack (toMat x0) (toMat x1)) r := by
  have e1 : idx_main_call0_v2 (ix2 r z) = ix1 r := funext fun a => Fin.ext (by match a with | ⟨0, _⟩ => rfl)
  have e2 : ∀ k : Fin 256, idx_main_call0_v1 (ix1 r) k = ix2 r k := fun k =>
    funext fun a => Fin.ext (by match a with | ⟨0, _⟩ => rfl | ⟨1, _⟩ => rfl)
  rw [val_main_v3_apply, val_main_v1_apply, val_main_call0_v2_apply, e1, val_main_call0_v1_apply, val_main_v2_apply,
    val_main_cst_apply, val_main_call0_cst_apply]
  simp only [e2, val_main_call0_v0_apply, stacked_ix, Ideal.ofBits_def, Ideal.mulf_def, Ideal.maximumf_def,
    Ideal.hostUnary_sqrt_def, Ideal.ofBits_zero_f32, zero_add]
  rfl

/-- The unit rows: every entry of the stacked matrix divided by its row's clamped length. -/
theorem unit_ix (x0 x1 : FVec Ideal S4096x256 .f32) (r : Fin 8192) (d : Fin 256) :
    val_main_v5 (F := Ideal) x0 x1 (ix2 r d) = unit (stack (toMat x0) (toMat x1)) r d := by
  have e : idx_main_v4 (ix2 r d) = ix2 r (0 : Fin 1) :=
    funext fun a => Fin.ext (by match a with | ⟨0, _⟩ => rfl | ⟨1, _⟩ => rfl)
  rw [val_main_v5_apply, val_main_v4_apply, e, length_ix, stacked_ix]
  rfl

end Cert.ReferenceIdeal.RefValue

end
-- ==== Proof.RefSim.lean ====
/-
  The reference's similarity matrix at an index: entry (r, c) of the product of the unit rows with their
  transpose is the inner product of unit rows r and c.
-/
import proofs.«164459_j76733885710415_2_alg».proof.Proof.RefBase

noncomputable section

namespace Cert.ReferenceIdeal.RefValue

open Cert.ReferenceIdeal Cert.ReferenceIdeal.Gen Cert.ReferenceIdeal.ReadP Cert.Contrastive
open Idealize.ShloMosaic Idealize.ShloMosaic.ValueIdx Idealize.SL.Sem

/-- The similarity of rows `r` and `c`. -/
theorem sim_ix (x0 x1 : FVec Ideal S4096x256 .f32) (r c : Fin 8192) :
    val_main_v7 (F := Ideal) x0 x1 (ix2 r c) = dot (unit (stack (toMat x0) (toMat x1))) r c := by
  have el : ∀ k : Fin 256, lidx_main_v7 (ix2 r c) k = ix2 r k := fun k =>
    funext fun a => Fin.ext (by match a with | ⟨0, _⟩ => rfl | ⟨1, _⟩ => rfl)
  have er : ∀ k : Fin 256, idx_main_v6 (ridx_main_v7 (ix2 r c) k) = ix2 c k := fun k =>
    funext fun a => Fin.ext (by match a with | ⟨0, _⟩ => rfl | ⟨1, _⟩ => rfl)
  rw [val_main_v7_apply]
  simp only [el, val_main_v6_apply, er, unit_ix]
  rfl

end Cert.ReferenceIdeal.RefValue

end
-- ==== Proof.RefWords.lean ====
/-
  Facts about 32-bit words and about a two-coordinate gather that the reading of the reference needs, stated
  without reference to any program.

  * A natural number below 2^31 written as a 32-bit word reads back, signed, as itself; so the comparison
    "below zero" of such a word is false, and the index arithmetic "if i < 0 then i + 8192 else i" on the row
    numbers 0 … 4095 and on the shifted row numbers 4096 … 8191 returns the number itself.
  * The indicator of the diagonal: the one-bit word of "row number = column number", read unsigned as an
    extended real, is 1 on the diagonal and 0 off it.
  * A gather from an N × M array at an R × 2 array of start indices, both axes collapsed and slices of size
    one: result entry t is the array's entry at (row, column) = the two start indices of row t, each read signed
    and clamped into the array.
-/
import Idealize.ShloMosaic.Lib.ValueIdx
import Idealize.ShloMosaic.Lib.Affine
import Idealize.ShloMosaic.PureOps.Ideal
import Idealize.ShloMosaic.PureOps.Ideal.Laws

noncomputable section

namespace Cert.ReferenceIdeal.RefValue

open Idealize.ShloMosaic Idealize.ShloMosaic.ValueIdx

/-! ## Words -/

/-- A number below 2^31, as a 32-bit word, reads signed as itself. -/
theorem toInt_small (n : Nat) (h : n < 2 ^ 31) : (BitVec.ofNat 32 n).toInt = (n : Int) := by
  rw [BitVec.toInt_eq_toNat_of_lt (by simp only [BitVec.toNat_ofNat]; omega)]
  simp only [BitVec.toNat_ofNat]
  omega

/-- Such a word is not below zero. -/
theorem slt_zero_small (n : Nat) (h : n < 2 ^ 31) : IntOp.cmpi .slt (BitVec.ofNat 32 n) 0#32 = 0#1 := by
  refine eq_zero_of_ne_one fun h1 => ?_
  have := IntOp.cmpi_slt.mp h1
  rw [toInt_small n h] at this
  simp at this
  omega

/-- The wrapped row number of a row 0 … 4095 is the row number. -/
theorem idx_self (t : Nat) (h : t < 4096) :
    (Scalar.select (IntOp.cmpi .slt (BitVec.ofNat 32 t) 0#32) (IntOp.addi (BitVec.ofNat 32 t) 8192#32)
      (BitVec.ofNat 32 t)).toInt.toNat = t := by
  rw [slt_zero_small t (by omega), select_zero, toInt_small t (by omega)]
  rfl

/-- Adding 4096 to a row number 0 … 4095 does not wrap. -/
theorem add_small (t : Nat) (h : t < 4096) : IntOp.addi (BitVec.ofNat 32 t) 4096#32 = BitVec.ofNat 32 (t + 4096) := by
  unfold IntOp.addi
  rw [← BitVec.ofNat_add]

/-- The wrapped shifted row number of a row 0 … 4095 is the row number plus 4096. -/
theorem idx_shift (t : Nat) (h : t < 4096) :
    (Scalar.select (IntOp.cmpi .slt (IntOp.addi (BitVec.ofNat 32 t) 4096#32) 0#32)
      (IntOp.addi (IntOp.addi (BitVec.ofNat 32 t) 4096#32) 8192#32)
      (IntOp.addi (BitVec.ofNat 32 t) 4096#32)).toInt.toNat = t + 4096 := by
  rw [add_small t h, slt_zero_small _ (by omega), select_zero, toInt_small _ (by omega)]
  rfl

/-- The diagonal's indicator as an extended real. -/
theorem diag_word (r c : Nat) (hr : r < 8192) (hc : c < 8192) :
    FloatOps.uitofp (F := Ideal) .f32 (IntOp.cmpi .eq (IntOp.addi (BitVec.ofNat 32 r) 0#32) (BitVec.ofNat 32 c))
      = if r = c then (1 : EReal) else 0 := by
  have e : IntOp.addi (BitVec.ofNat 32 r) 0#32 = BitVec.ofNat 32 r := by unfold IntOp.addi; exact BitVec.add_zero _
  rw [e]
  by_cases h : r = c
  · subst h
    rw [if_pos rfl, IntOp.cmpi_eq.mpr rfl]
    show (((1#1 : BitVec 1).toNat : ℝ) : EReal) = 1
    simp
  · rw [if_neg h]
    have h0 : IntOp.cmpi .eq (BitVec.ofNat 32 r) (BitVec.ofNat 32 c) = 0#1 := by
      refine eq_zero_of_ne_one fun h1 => h ?_
      have := congrArg BitVec.toNat (IntOp.cmpi_eq.mp h1)
      simp only [BitVec.toNat_ofNat] at this
      omega
    rw [h0]
    show (((0#1 : BitVec 1).toNat : ℝ) : EReal) = 0
    simp

/-! ## A gather of single entries of a matrix -/

section Gather
variable {α : Type}

/-- The dimension numbers of reading single entries of an `N × M` array at `R` (row, column) pairs. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Entry `t` of the gather is the array's entry at the clamped start indices of row `t`. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (t : Fin R) :
    Host.gather (pairDims N M R wf) x idx (ix1 t)
      = x (ix2 ⟨min (idx (ix2 t (0 : Fin 2))).toInt.toNat (N - 1), by omega⟩
               ⟨min (idx (ix2 t (1 : Fin 2))).toInt.toNat (M - 1), by omega⟩) := by
  unfold Host.gather
  congr 1
  funext a
  refine Fin.ext ?_
  show (pairDims N M R wf).start (ix1 t) idx a + (pairDims N M R wf).batchCoord (ix1 t) a
    + (pairDims N M R wf).offCoord (ix1 t) a = _
  have hc : a ∈ (pairDims N M R wf).collapsedSliceDims := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hc)]
  simp only [Nat.add_zero]
  unfold GatherDims.start
  have ha : a = 0 ∨ a = 1 := by
    match a with
    | ⟨0, _⟩ => exact Or.inl rfl
    | ⟨1, _⟩ => exact Or.inr rfl
  rcases ha with rfl | rfl
  · rw [dif_pos (show (0 : Fin 2) ∈ (pairDims N M R wf).startIndexMap from List.mem_cons_self)]
    have hsi : (pairDims N M R wf).siIdx (ix1 t) ⟨List.idxOf (0 : Fin 2) (pairDims N M R wf).startIndexMap,
        List.idxOf_lt_length_iff.2 List.mem_cons_self⟩ = ix2 t (0 : Fin 2) := by
      funext b; refine Fin.ext ?_
      match b with
      | ⟨0, _⟩ => rfl
      | ⟨1, _⟩ => rfl
    rw [hsi]
    rfl
  · rw [dif_pos (show (1 : Fin 2) ∈ (pairDims N M R wf).startIndexMap from
      List.mem_cons_of_mem _ List.mem_cons_self)]
    have hsi : (pairDims N M R wf).siIdx (ix1 t) ⟨List.idxOf (1 : Fin 2) (pairDims N M R wf).startIndexMap,
        List.idxOf_lt_length_iff.2 (List.mem_cons_of_mem _ List.mem_cons_self)⟩ = ix2 t (1 : Fin 2) := by
      funext b; refine Fin.ext ?_
      match b with
      | ⟨0, _⟩ => rfl
      | ⟨1, _⟩ => rfl
    rw [hsi]
    rfl

end Gather

end Cert.ReferenceIdeal.RefValue

end
-- ==== Proof.RefPos.lean ====
/-
  The reference's positives: the two gathers read the similarity matrix on the two diagonals 4096 places off
  the main one, and their concatenation, at row r, is the similarity of row r with its partner.

  The start indices of the first gather are (i, i + 4096) and of the second (i + 4096, i), for i = 0 … 4095, each
  passed through "if below zero add 8192", which changes nothing on these values; every index is inside the
  matrix, so the clamp changes nothing either.
-/
import proofs.«164459_j76733885710415_2_alg».proof.Proof.RefSim
import proofs.«164459_j76733885710415_2_alg».proof.Proof.RefWords

noncomputable section

namespace Cert.ReferenceIdeal.RefValue

open Cert.ReferenceIdeal Cert.ReferenceIdeal.Gen Cert.ReferenceIdeal.ReadP Cert.Contrastive
open Idealize.ShloMosaic Idealize.ShloMosaic.ValueIdx Idealize.SL.Sem

/-- The program's gather is the gather of single entries at (row, column) pairs. -/
theorem gathered {w : Nat} (x : FVec Ideal S8192x8192 .f32) (idx : IVec S4096x2 w) (t : Fin 4096) :
    Host.gather gather_S8192x8192_S4096x2_S4096_n_01_n_n_01_1_11 x idx (ix1 t)
      = x (ix2 ⟨min (idx (ix2 t (0 : Fin 2))).toInt.toNat (8192 - 1), by omega⟩
               ⟨min (idx (ix2 t (1 : Fin 2))).toInt.toNat (8192 - 1), by omega⟩) :=
  gather_pair_apply (N := 8192) (M := 8192) (R := 4096) (by norm_num) (by norm_num)
    Facts₀.gather_S8192x8192_S4096x2_S4096_n_01_n_n_01_1_11_wf x idx t

theorem ix1_of_col (t : Fin 4096) : idx_main_v21 (ix2 t (0 : Fin 1)) = ix1 t :=
  funext fun a => Fin.ext (by match a with | ⟨0, _⟩ => rfl)

/-- A column pair's left entry. -/
theorem pair_left (a b : IVec S4096x1 32) (t : Fin 4096) :
    concatenate S4096x2 1 [⟨S4096x1, a⟩, ⟨S4096x1, b⟩] Facts₀.concatenates_S4096x1_S4096x1_S4096x2_d1 (ix2 t (0 : Fin 2))
      = a (ix2 t (0 : Fin 1)) :=
  concatenate_pair_apply_left (1 : Fin S4096x2.rank) a b Facts₀.concatenates_S4096x1_S4096x1_S4096x2_d1
    (ix2 t (0 : Fin 2)) rfl (ix2 t (0 : Fin 1)) (fun c => match c with | ⟨0, _⟩ => rfl | ⟨1, _⟩ => rfl)

/-- A column pair's right entry. -/
theorem pair_right (a b : IVec S4096x1 32) (t : Fin 4096) :
    concatenate S4096x2 1 [⟨S4096x1, a⟩, ⟨S4096x1, b⟩] Facts₀.concatenates_S4096x1_S4096x1_S4096x2_d1 (ix2 t (1 : Fin 2))
      = b (ix2 t (0 : Fin 1)) :=
  concatenate_pair_apply_right (1 : Fin S4096x2.rank) a b Facts₀.concatenates_S4096x1_S4096x1_S4096x2_d1
    (ix2 t (1 : Fin 2)) rfl rfl (ix2 t (0 : Fin 1))
    (fun c hc => match c, hc with | ⟨0, _⟩, _ => rfl | ⟨1, _⟩, hc => absurd rfl hc)
    (by show 0 + 1 = 1; rfl)

/-- The first gather's row indices: i. -/
theorem first_row (t : Fin 4096) : (val_main_v23 (F := Ideal) (ix2 t (0 : Fin 2))).toInt.toNat = t.val := by
  unfold val_main_v23
  rw [pair_left, val_main_v21_apply, ix1_of_col, val_main_v15_apply, val_main_v12_apply, val_main_v14_apply,
    val_main_v8_apply, val_main_v11_apply, val_main_c_0_apply, val_main_v13_apply, val_main_c_1_apply]
  exact idx_self t.val t.isLt

/-- The first gather's column indices: i + 4096. -/
theorem first_col (t : Fin 4096) : (val_main_v23 (F := Ideal) (ix2 t (1 : Fin 2))).toInt.toNat = t.val + 4096 := by
  unfold val_main_v23
  rw [pair_right, val_main_v22_apply, show idx_main_v22 (ix2 t (0 : Fin 1)) = ix1 t from ix1_of_col t,
    val_main_v20_apply, val_main_v17_apply, val_main_v19_apply, val_main_v10_apply, val_main_v8_apply,
    val_main_v9_apply, val_main_c_apply, val_main_v16_apply, val_main_c_2_apply, val_main_v18_apply,
    val_main_c_3_apply]
  exact idx_shift t.val t.isLt

/-- The second gather's row indices: i + 4096. -/
theorem second_row (t : Fin 4096) : (val_main_v39 (F := Ideal) (ix2 t (0 : Fin 2))).toInt.toNat = t.val + 4096 := by
  unfold val_main_v39
  rw [pair_left, val_main_v37_apply, show idx_main_v37 (ix2 t (0 : Fin 1)) = ix1 t from ix1_of_col t,
    val_main_v31_apply, val_main_v28_apply, val_main_v30_apply, val_main_v26_apply, val_main_v8_apply,
    val_main_v25_apply, val_main_c_4_apply, val_main_v27_apply, val_main_c_5_apply, val_main_v29_apply,
    val_main_c_6_apply]
  exact idx_shift t.val t.isLt

/-- The second gather's column indices: i. -/
theorem second_col (t : Fin 4096) : (val_main_v39 (F := Ideal) (ix2 t (1 : Fin 2))).toInt.toNat = t.val := by
  unfold val_main_v39
  rw [pair_right, val_main_v38_apply, show idx_main_v38 (ix2 t (0 : Fin 1)) = ix1 t from ix1_of_col t,
    val_main_v36_apply, val_main_v33_apply, val_main_v35_apply, val_main_v8_apply, val_main_v32_apply,
    val_main_c_7_apply, val_main_v34_apply, val_main_c_8_apply]
  exact idx_self t.val t.isLt

/-- The first gather: the similarity of row i with row i + 4096. -/
theorem first_ix (x0 x1 : FVec Ideal S4096x256 .f32) (t : Fin 4096) :
    val_main_v24 (F := Ideal) x0 x1 (ix1 t)
      = dot (unit (stack (toMat x0) (toMat x1))) ⟨t.val, by omega⟩ ⟨t.val + 4096, by omega⟩ := by
  unfold val_main_v24
  rw [gathered]
  have hr : (⟨min (val_main_v23 (F := Ideal) (ix2 t (0 : Fin 2))).toInt.toNat (8192 - 1), by omega⟩ : Fin 8192)
      = ⟨t.val, by omega⟩ := Fin.ext (by show min _ _ = t.val; rw [first_row]; omega)
  have hc : (⟨min (val_main_v23 (F := Ideal) (ix2 t (1 : Fin 2))).toInt.toNat (8192 - 1), by omega⟩ : Fin 8192)
      = ⟨t.val + 4096, by omega⟩ := Fin.ext (by show min _ _ = t.val + 4096; rw [first_col]; omega)
  rw [hr, hc, sim_ix]

/-- The second gather: the similarity of row i + 4096 with row i. -/
theorem second_ix (x0 x1 : FVec Ideal S4096x256 .f32) (t : Fin 4096) :
    val_main_v40 (F := Ideal) x0 x1 (ix1 t)
      = dot (unit (stack (toMat x0) (toMat x1))) ⟨t.val + 4096, by omega⟩ ⟨t.val, by omega⟩ := by
  unfold val_main_v40
  rw [gathered]
  have hr : (⟨min (val_main_v39 (F := Ideal) (ix2 t (0 : Fin 2))).toInt.toNat (8192 - 1), by omega⟩ : Fin 8192)
      = ⟨t.val + 4096, by omega⟩ := Fin.ext (by show min _ _ = t.val + 4096; rw [second_row]; omega)
  have hc : (⟨min (val_main_v39 (F := Ideal) (ix2 t (1 : Fin 2))).toInt.toNat (8192 - 1), by omega⟩ : Fin 8192)
      = ⟨t.val, by omega⟩ := Fin.ext (by show min _ _ = t.val; rw [second_col]; omega)
  rw [hr, hc, sim_ix]

/-- The positives: at row `r`, the similarity of row `r` with its partner. -/
theorem pos_ix (x0 x1 : FVec Ideal S4096x256 .f32) (r : Fin 8192) :
    val_main_v41 (F := Ideal) x0 x1 (ix1 r) = dot (unit (stack (toMat x0) (toMat x1))) r (partner r) := by
  unfold val_main_v41
  by_cases h : r.val < 4096
  · rw [concatenate_pair_apply_left (0 : Fin S8192.rank) (val_main_v24 (F := Ideal) x0 x1) (val_main_v40 (F := Ideal) x0 x1)
      Facts₀.concatenates_S4096_S4096_S8192_d0 (ix1 r) rfl (ix1 ⟨r.val, h⟩) (fun c => match c with | ⟨0, _⟩ => rfl),
      first_ix]
    unfold partner
    rw [dif_pos h]
  · rw [concatenate_pair_apply_right (0 : Fin S8192.rank) (val_main_v24 (F := Ideal) x0 x1) (val_main_v40 (F := Ideal) x0 x1)
      Facts₀.concatenates_S4096_S4096_S8192_d0 (ix1 r) rfl rfl (ix1 ⟨r.val - 4096, by omega⟩)
      (fun c hc => match c, hc with | ⟨0, _⟩, hc => absurd rfl hc)
      (by show (r.val - 4096) + 4096 = r.val; omega),
      second_ix]
    unfold partner
    rw [dif_neg h]
    have e : (⟨r.val - 4096 + 4096, by omega⟩ : Fin 8192) = r := Fin.ext (by show r.val - 4096 + 4096 = r.val; omega)
    rw [e]

end Cert.ReferenceIdeal.RefValue

end
-- ==== Proof.RefDen.lean ====
/-
  The reference's mask and denominators: the mask entry (r, c) is 1 minus the diagonal's indicator, and row r's
  sum over the columns of mask times exponential of similarity over one half is the masked denominator.
-/
import proofs.«164459_j76733885710415_2_alg».proof.Proof.RefSim
import proofs.«164459_j76733885710415_2_alg».proof.Proof.RefWords

noncomputable section

namespace Cert.ReferenceIdeal.RefValue

open Cert.ReferenceIdeal Cert.ReferenceIdeal.Gen Cert.ReferenceIdeal.ReadP Cert.Contrastive
open Idealize.ShloMosaic Idealize.ShloMosaic.ValueIdx Idealize.SL.Sem

/-- The mask: one off the diagonal, zero on it. -/
theorem mask_ix (r c : Fin 8192) : val_main_v49 (F := Ideal) (ix2 r c) = offDiag r c := by
  rw [val_main_v49_apply, val_main_v48_apply, val_main_cst_10_apply, val_main_v47_apply, val_main_v46_apply,
    val_main_v45_apply, val_main_v42_apply, val_main_v44_apply, val_main_c_9_apply, val_main_v43_apply]
  show one - FloatOps.uitofp (F := Ideal) .f32
    (IntOp.cmpi .eq (IntOp.addi (BitVec.ofNat 32 r.val) 0#32) (BitVec.ofNat 32 c.val)) = _
  rw [diag_word r.val c.val r.isLt c.isLt]
  unfold offDiag
  by_cases h : r = c
  · subst h
    rw [if_pos rfl, if_pos rfl]
  · rw [if_neg h, if_neg (fun hv => h (Fin.ext hv))]

/-- Row `r`'s masked denominator. -/
theorem den_ix (x0 x1 : FVec Ideal S4096x256 .f32) (r : Fin 8192) :
    val_main_v54 (F := Ideal) x0 x1 (ix1 r) = denR (unit (stack (toMat x0) (toMat x1))) r := by
  have e : ∀ k : Fin 8192, idx_main_v54 (ix1 r) k = ix2 r k := fun k =>
    funext fun a => Fin.ext (by match a with | ⟨0, _⟩ => rfl | ⟨1, _⟩ => rfl)
  rw [val_main_v54_apply, val_main_cst_12_apply]
  simp only [e, val_main_v53_apply, val_main_v52_apply, val_main_v51_apply, val_main_v50_apply,
    val_main_cst_11_apply, mask_ix, sim_ix, Ideal.ofBits_def, Ideal.ofBits_zero_f32, zero_add, Ideal.mulf_def,
    Ideal.hostUnary_exp_def, Ideal.hostDivf_def]
  rfl

end Cert.ReferenceIdeal.RefValue

end
-- ==== Proof.RefLoss.lean ====
/-
  The reference program computes the masked arrangement of the contrastive loss: its last stage, as a function
  of the two arguments, is `lossR` of the two matrices.
-/
import proofs.«164459_j76733885710415_2_alg».proof.Proof.RefPos
import proofs.«164459_j76733885710415_2_alg».proof.Proof.RefDen

noncomputable section

namespace Cert.ReferenceIdeal.RefValue

open Cert.ReferenceIdeal Cert.ReferenceIdeal.Gen Cert.ReferenceIdeal.ReadP Cert.Contrastive
open Idealize.ShloMosaic Idealize.ShloMosaic.ValueIdx Idealize.ShloMosaic.TcCoe Idealize.SL.Sem

/-- The 8192 rows as the index set of a rank-one array. -/
def rowEquiv : Fin 8192 ≃ S8192.Idx where
  toFun := ix1
  invFun := fun j => j 0
  left_inv := fun _ => rfl
  right_inv := fun j => (eq_ix1 j).symm

/-- Row `r`'s loss term. -/
theorem term_ix (x0 x1 : FVec Ideal S4096x256 .f32) (r : Fin 8192) :
    val_main_v60 (F := Ideal) x0 x1 (ix1 r)
      = -(Ideal.log (Ideal.div (Ideal.exp (Ideal.div (dot (unit (stack (toMat x0) (toMat x1))) r (partner r)) half))
          (denR (unit (stack (toMat x0) (toMat x1))) r))) := by
  rw [val_main_v60_apply, val_main_v59_apply, val_main_v58_apply, val_main_v57_apply, val_main_v56_apply,
    val_main_v55_apply, val_main_cst_13_apply, pos_ix, den_ix]
  simp only [Ideal.ofBits_def, Ideal.hostNegf_def, Ideal.negf_def, Ideal.hostUnary_log_def, Ideal.hostUnary_exp_def,
    Ideal.hostDivf_def]
  rfl

/-- The reference's result, as a function of its arguments, is the masked arrangement of the loss. -/
theorem result_eq (x0 x1 : FVec Ideal S4096x256 .f32) :
    val_main_v62 (F := Ideal) x0 x1 = fun _ => lossR (toMat x0) (toMat x1) := by
  funext i
  rw [val_main_v62_apply, val_main_v61_apply, val_main_cst_14_apply, val_main_cst_15_apply,
    ← Fintype.sum_equiv rowEquiv (fun r => val_main_v60 (F := Ideal) x0 x1 (ix1 r)) (val_main_v60 (F := Ideal) x0 x1)
      (fun _ => rfl)]
  simp only [term_ix, Ideal.ofBits_def, Ideal.ofBits_zero_f32, zero_add, Ideal.hostDivf_def]
  rfl

end Cert.ReferenceIdeal.RefValue

end
-- ==== Proof.RefRun.lean ====
/-
  The reference program, run.

  The reference computes the contrastive loss of two batches in 85 operations: the batches stacked, each row divided
  by its clamped length, the 8192 x 8192 matrix of similarities, the positive pairs gathered from it, the masked
  row sums of the exponentials, and the mean of the negated logarithms of the quotients. Every execution of the
  program ends with the result buffer holding the last stage of the staged reading of the program, applied to the
  two arguments' initial contents, and with the arguments unchanged.

  The three kinds of concatenation in it (of the two batches, of a row index with its partner's, of the two halves of
  the positive-pair similarities) are named as functions of their two operands.
-/
import proofs.«164459_j76733885710415_2_alg».proof.Proof.RefReadP
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The two batches stacked; an index pair and its partner side by side; the two halves of the positive-pair similarities stacked. -/
def cat_v0 (a b : (⟨S4096x256, .f32⟩ : BufTy).Contents (Elt F)) : (⟨S8192x256, .f32⟩ : BufTy).Contents (Elt F) :=
  concatenate S8192x256 0 [⟨S4096x256, a⟩, ⟨S4096x256, b⟩] concatenates_S4096x256_S4096x256_S8192x256_d0
def cat_i2 (a b : (⟨S4096x1, .i32⟩ : BufTy).Contents (Elt F)) : (⟨S4096x2, .i32⟩ : BufTy).Contents (Elt F) :=
  concatenate S4096x2 1 [⟨S4096x1, a⟩, ⟨S4096x1, b⟩] concatenates_S4096x1_S4096x1_S4096x2_d1
def cat_v41 (a b : (⟨S4096, .f32⟩ : BufTy).Contents (Elt F)) : (⟨S8192, .f32⟩ : BufTy).Contents (Elt F) :=
  concatenate S8192 0 [⟨S4096, a⟩, ⟨S4096, b⟩] concatenates_S4096_S4096_S8192_d0

/-- @main's 85 operations, in order (a called function's operations stand in its call's place, spelt `TRef.…`). -/
abbrev ops : List (HloOp τ sig (Elt F)) :=
  [ binary main_arg0 main_arg1 main_v0 (cat_v0 : (⟨S4096x256, .f32⟩ : BufTy).Contents (Elt F) → (⟨S4096x256, .f32⟩ : BufTy).Contents (Elt F) → (⟨S8192x256, .f32⟩ : BufTy).Contents (Elt F)),
    TRef.binary (TRef.of (T := ⟨S8192x256, .f32⟩) main_v0) (TRef.of (T := ⟨S8192x256, .f32⟩) main_v0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x256 ![0, 1] bcast_S8192x1_S8192x256_0_1 : (⟨S8192x1, .f32⟩ : BufTy).Contents (Elt F) → (⟨S8192x256, .f32⟩ : BufTy).Contents (Elt F)),
    binary main_v0 main_v4 main_v5 (Host.divf : (⟨S8192x256, .f32⟩ : BufTy).Contents (Elt F) → (⟨S8192x256, .f32⟩ : BufTy).Contents (Elt F) → (⟨S8192x256, .f32⟩ : BufTy).Contents (Elt F)),
    unary main_v5 main_v6 ((transpose S256x8192 [1, 0] · transposes_S8192x256_S256x8192_1_0) : (⟨S8192x256, .f32⟩ : BufTy).Contents (Elt F) → (⟨S256x8192, .f32⟩ : BufTy).Contents (Elt F)),
    binary main_v5 main_v6 main_v7 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_v8 (iotaInDim S4096 32 0),
    nullary main_c (constantI S_ 32 4096#32),
    unary main_c main_v9 (broadcastInDim S4096 ![] bcast_S_S4096 : (⟨S_, .i32⟩ : BufTy).Contents (Elt F) → (⟨S4096, .i32⟩ : BufTy).Contents (Elt F)),
    binary main_v8 main_v9 main_v10 (addi : (⟨S4096, .i32⟩ : BufTy).Contents (Elt F) → (⟨S4096, .i32⟩ : BufTy).Contents (Elt F) → (⟨S4096, .i32⟩ : BufTy).Contents (Elt F)),
    nullary main_c_0 (constantI S_ 32 0#32),
    unary main_c_0 main_v11 (broadcastInDim S4096 ![] bcast_S_S4096 : (⟨S_, .i32⟩ : BufTy).Contents (Elt F) → (⟨S4096, .i32⟩ : BufTy).Contents (Elt F)),
    binary main_v8 main_v11 main_v12 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8192#32),
    unary main_c_1 main_v13 (broadcastInDim S4096 ![] bcast_S_S4096 : (⟨S_, .i32⟩ : BufTy).Contents (Elt F) → (⟨S4096, .i32⟩ : BufTy).Contents (Elt F)),
    binary main_v8 main_v13 main_v14 (addi : (⟨S4096, .i32⟩ : BufTy).Contents (Elt F) → (⟨S4096, .i32⟩ : BufTy).Contents (Elt F) → (⟨S4096, .i32⟩ : BufTy).Contents (Elt F)),
    ternary main_v12 main_v14 main_v8 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_2 (constantI S_ 32 0#32),
    unary main_c_2 main_v16 (broadcastInDim S4096 ![] bcast_S_S4096 : (⟨S_, .i32⟩ : BufTy).Contents (Elt F) → (⟨S4096, .i32⟩ : BufTy).Contents (Elt F)),
    binary main_v10 main_v16 main_v17 (cmpi .slt : (⟨S4096, .i32⟩ : BufTy).Contents (Elt F) → (⟨S4096, .i32⟩ : BufTy).Contents (Elt F) → (⟨S4096, .i1⟩ : BufTy).Contents (Elt F)),
    nullary main_c_3 (constantI S_ 32 8192#32),
    unary main_c_3 main_v18 (broadcastInDim S4096 ![] bcast_S_S4096 : (⟨S_, .i32⟩ : BufTy).Contents (Elt F) → (⟨S4096, .i32⟩ : BufTy).Contents (Elt F)),
    binary main_v10 main_v18 main_v19 (addi : (⟨S4096, .i32⟩ : BufTy).Contents (Elt F) → (⟨S4096, .i32⟩ : BufTy).Contents (Elt F) → (⟨S4096, .i32⟩ : BufTy).Contents (Elt F)),
    ternary main_v17 main_v19 main_v10 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v15 main_v21 (broadcastInDim S4096x1 ![0] bcast_S4096_S4096x1_0 : (⟨S4096, .i32⟩ : BufTy).Contents (Elt F) → (⟨S4096x1, .i32⟩ : BufTy).Contents (Elt F)),
    unary main_v20 main_v22 (broadcastInDim S4096x1 ![0] bcast_S4096_S4096x1_0 : (⟨S4096, .i32⟩ : BufTy).Contents (Elt F) → (⟨S4096x1, .i32⟩ : BufTy).Contents (Elt F)),
    binary main_v21 main_v22 main_v23 (cat_i2 : (⟨S4096x1, .i32⟩ : BufTy).Contents (Elt F) → (⟨S4096x1, .i32⟩ : BufTy).Contents (Elt F) → (⟨S4096x2, .i32⟩ : BufTy).Contents (Elt F)),
    binary main_v7 main_v23 main_v24 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    nullary main_c_4 (constantI S_ 32 4096#32),
    unary main_c_4 main_v25 (broadcastInDim S4096 ![] bcast_S_S4096 : (⟨S_, .i32⟩ : BufTy).Contents (Elt F) → (⟨S4096, .i32⟩ : BufTy).Contents (Elt F)),
    binary main_v8 main_v25 main_v26 (addi : (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v27 (broadcastInDim S4096 ![] bcast_S_S4096 : (⟨S_, .i32⟩ : BufTy).Contents (Elt F) → (⟨S4096, .i32⟩ : BufTy).Contents (Elt F)),
    binary main_v26 main_v27 main_v28 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v29 (broadcastInDim S4096 ![] bcast_S_S4096 : (⟨S_, .i32⟩ : BufTy).Contents (Elt F) → (⟨S4096, .i32⟩ : BufTy).Contents (Elt F)),
    binary main_v26 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v26 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_7 (constantI S_ 32 0#32),
    unary main_c_7 main_v32 (broadcastInDim S4096 ![] bcast_S_S4096 : (⟨S_, .i32⟩ : BufTy).Contents (Elt F) → (⟨S4096, .i32⟩ : BufTy).Contents (Elt F)),
    binary main_v8 main_v32 main_v33 (cmpi .slt : (⟨S4096, .i32⟩ : BufTy).Contents (Elt F) → (⟨S4096, .i32⟩ : BufTy).Contents (Elt F) → (⟨S4096, .i1⟩ : BufTy).Contents (Elt F)),
    nullary main_c_8 (constantI S_ 32 8192#32),
    unary main_c_8 main_v34 (broadcastInDim S4096 ![] bcast_S_S4096 : (⟨S_, .i32⟩ : BufTy).Contents (Elt F) → (⟨S4096, .i32⟩ : BufTy).Contents (Elt F)),
    binary main_v8 main_v34 main_v35 (addi : (⟨S4096, .i32⟩ : BufTy).Contents (Elt F) → (⟨S4096, .i32⟩ : BufTy).Contents (Elt F) → (⟨S4096, .i32⟩ : BufTy).Contents (Elt F)),
    ternary main_v33 main_v35 main_v8 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v31 main_v37 (broadcastInDim S4096x1 ![0] bcast_S4096_S4096x1_0 : (⟨S4096, .i32⟩ : BufTy).Contents (Elt F) → (⟨S4096x1, .i32⟩ : BufTy).Contents (Elt F)),
    unary main_v36 main_v38 (broadcastInDim S4096x1 ![0] bcast_S4096_S4096x1_0 : (⟨S4096, .i32⟩ : BufTy).Contents (Elt F) → (⟨S4096x1, .i32⟩ : BufTy).Contents (Elt F)),
    binary main_v37 main_v38 main_v39 (cat_i2 : (⟨S4096x1, .i32⟩ : BufTy).Contents (Elt F) → (⟨S4096x1, .i32⟩ : BufTy).Contents (Elt F) → (⟨S4096x2, .i32⟩ : BufTy).Contents (Elt F)),
    binary main_v7 main_v39 main_v40 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    binary main_v24 main_v40 main_v41 (cat_v41 : (⟨S4096, .f32⟩ : BufTy).Contents (Elt F) → (⟨S4096, .f32⟩ : BufTy).Contents (Elt F) → (⟨S8192, .f32⟩ : BufTy).Contents (Elt F)),
    nullary main_v42 (iotaInDim S8192x8192 32 0),
    nullary main_v43 (iotaInDim S8192x8192 32 1),
    nullary main_c_9 (constantI S_ 32 0#32),
    unary main_c_9 main_v44 (broadcastInDim S8192x8192 ![] bcast_S_S8192x8192 : (⟨S_, .i32⟩ : BufTy).Contents (Elt F) → (⟨S8192x8192, .i32⟩ : BufTy).Contents (Elt F)),
    binary main_v42 main_v44 main_v45 (addi : (⟨S8192x8192, .i32⟩ : BufTy).Contents (Elt F) → (⟨S8192x8192, .i32⟩ : BufTy).Contents (Elt F) → (⟨S8192x8192, .i32⟩ : BufTy).Contents (Elt F)),
    binary main_v45 main_v43 main_v46 (cmpi .eq : (⟨S8192x8192, .i32⟩ : BufTy).Contents (Elt F) → (⟨S8192x8192, .i32⟩ : BufTy).Contents (Elt F) → (⟨S8192x8192, .i1⟩ : BufTy).Contents (Elt F)),
    unary main_v46 main_v47 (uitofp .f32 : (⟨S8192x8192, .i1⟩ : BufTy).Contents (Elt F) → (⟨S8192x8192, .f32⟩ : BufTy).Contents (Elt F)),
    nullary main_cst_10 (constant S_ .f32 0x3F800000#32),
    unary main_cst_10 main_v48 (broadcastInDim S8192x8192 ![] bcast_S_S8192x8192 : (⟨S_, .f32⟩ : BufTy).Contents (Elt F) → (⟨S8192x8192, .f32⟩ : BufTy).Contents (Elt F)),
    binary main_v48 main_v47 main_v49 (subf : (⟨S8192x8192, .f32⟩ : BufTy).Contents (Elt F) → (⟨S8192x8192, .f32⟩ : BufTy).Contents (Elt F) → (⟨S8192x8192, .f32⟩ : BufTy).Contents (Elt F)),
    nullary main_cst_11 (constant S_ .f32 0x3F000000#32),
    unary main_cst_11 main_v50 (broadcastInDim S8192x8192 ![] bcast_S_S8192x8192 : (⟨S_, .f32⟩ : BufTy).Contents (Elt F) → (⟨S8192x8192, .f32⟩ : BufTy).Contents (Elt F)),
    binary main_v7 main_v50 main_v51 (Host.divf : (⟨S8192x8192, .f32⟩ : BufTy).Contents (Elt F) → (⟨S8192x8192, .f32⟩ : BufTy).Contents (Elt F) → (⟨S8192x8192, .f32⟩ : BufTy).Contents (Elt F)),
    unary main_v51 main_v52 (Host.exp : (⟨S8192x8192, .f32⟩ : BufTy).Contents (Elt F) → (⟨S8192x8192, .f32⟩ : BufTy).Contents (Elt F)),
    binary main_v49 main_v52 main_v53 (mulf : (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x00000000#32),
    binary main_v53 main_cst_12 main_v54 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x3F000000#32),
    unary main_cst_13 main_v55 (broadcastInDim S8192 ![] bcast_S_S8192 : (⟨S_, .f32⟩ : BufTy).Contents (Elt F) → (⟨S8192, .f32⟩ : BufTy).Contents (Elt F)),
    binary main_v41 main_v55 main_v56 (Host.divf : (⟨S8192, .f32⟩ : BufTy).Contents (Elt F) → (⟨S8192, .f32⟩ : BufTy).Contents (Elt F) → (⟨S8192, .f32⟩ : BufTy).Contents (Elt F)),
    unary main_v56 main_v57 (Host.exp : (⟨S8192, .f32⟩ : BufTy).Contents (Elt F) → (⟨S8192, .f32⟩ : BufTy).Contents (Elt F)),
    binary main_v57 main_v54 main_v58 (Host.divf : (⟨S8192, .f32⟩ : BufTy).Contents (Elt F) → (⟨S8192, .f32⟩ : BufTy).Contents (Elt F) → (⟨S8192, .f32⟩ : BufTy).Contents (Elt F)),
    unary main_v58 main_v59 (Host.log : (⟨S8192, .f32⟩ : BufTy).Contents (Elt F) → (⟨S8192, .f32⟩ : BufTy).Contents (Elt F)),
    unary main_v59 main_v60 (Host.negf : (⟨S8192, .f32⟩ : BufTy).Contents (Elt F) → (⟨S8192, .f32⟩ : BufTy).Contents (Elt F)),
    nullary main_cst_14 (constant S_ .f32 0x00000000#32),
    binary main_v60 main_cst_14 main_v61 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_15 (constant S_ .f32 0x46000000#32),
    binary main_v61 main_cst_15 main_v62 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., binary_bufs_sub .., unary_bufs_sub .., unary_bufs_sub .., nullary_bufs_sub .., binary_bufs_sub .., nullary_bufs_sub .., binary_bufs_sub ..⟩

set_option maxRecDepth 8192 in
set_option maxHeartbeats 4000000 in
/-- The result buffer after the operations: the last stage of the arguments. -/
theorem after_main_v62 (m : (ℓ : Loc nD τ sig) → Buf (Elt F) ℓ) (c : Dev nD) :
    after (ops : List (HloOp τ sig (Elt F))) (launchContents m c) (Proc.devRef .tc main_v62)
      = Cert.ReferenceIdeal.ReadP.val_main_v62 (F := F) (m ((c.tc : Thread nD τ).loc main_arg0)) (m ((c.tc : Thread nD τ).loc main_arg1)) := by
  after_results_simp <;> rfl

set_option maxRecDepth 8192 in
set_option maxHeartbeats 4000000 in
/-- No operation writes an argument. -/
theorem after_main_arg0 (m : (ℓ : Loc nD τ sig) → Buf (Elt F) ℓ) (c : Dev nD) :
    after (ops : List (HloOp τ sig (Elt F))) (launchContents m c) (Proc.devRef .tc main_arg0) = m ((c.tc : Thread nD τ).loc main_arg0) := by
  after_results_simp <;> rfl

set_option maxRecDepth 8192 in
set_option maxHeartbeats 4000000 in
theorem after_main_arg1 (m : (ℓ : Loc nD τ sig) → Buf (Elt F) ℓ) (c : Dev nD) :
    after (ops : List (HloOp τ sig (Elt F))) (launchContents m c) (Proc.devRef .tc main_arg1) = m ((c.tc : Thread nD τ).loc main_arg1) := by
  after_results_simp <;> rfl

set_option maxRecDepth 8192 in
set_option maxHeartbeats 4000000 in
/-- On every device, for any float values, from any memory with zero counters: every weakly fair execution of the
    program terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = Cert.ReferenceIdeal.ReadP.val_main_v62 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v62).trans (after_main_v62 m c),
      (h c main_arg0).trans (after_main_arg0 m c),
      (h c main_arg1).trans (after_main_arg1 m c)⟩)
    (run_seq scopedRefs_eq scopedSems_eq defs main (fun _ => ops) main_eq (fun _ => ops_sub) m ρ)

end Cert.ReferenceIdeal.HandRun

end
-- ==== Proof.LossBridgeConst.lean ====
/-
  The values of the named constants of the loss as real numbers, and the small facts about the embedding of
  the reals into the extended reals that the comparison of the two arrangements uses: the embedding commutes
  with finite sums and with the maximum of two numbers.
-/
import proofs.«164459_j76733885710415_2_alg».proof.Proof.LossSpec

noncomputable section

namespace Cert.Contrastive

open Idealize.ShloMosaic

/-- The pattern `0x40000000` is the number 2. -/
theorem two_eq : two = ((2 : ℝ) : EReal) := by
  simp [two, Ideal.ofBits, Ideal.ieee]
  rw [← EReal.coe_mul]; norm_num

/-- The pattern `0x3F000000` is the number 1/2. -/
theorem half_eq : half = ((1 / 2 : ℝ) : EReal) := by
  simp [half, Ideal.ofBits, Ideal.ieee]
  rw [← EReal.coe_mul]; norm_num

/-- The pattern `0x3F800000` is the number 1. -/
theorem one_eq : one = (1 : EReal) := by
  simp [one, Ideal.ofBits, Ideal.ieee]
  rw [← EReal.coe_mul, ← EReal.coe_one]; norm_num

/-- The pattern `0x46000000` is the number 8192. -/
theorem count_eq : count = ((8192 : ℝ) : EReal) := by
  simp [count, Ideal.ofBits, Ideal.ieee]
  rw [← EReal.coe_mul]; norm_num

/-- The clamp as a real number: `11258999 · 2^(-50)`. -/
def epsR : ℝ := 11258999 * (2 : ℝ) ^ (-50 : ℤ)

theorem eps_eq : eps = (epsR : EReal) := by
  simp [eps, epsR, Ideal.ofBits, Ideal.ieee]

theorem epsR_pos : 0 < epsR := by unfold epsR; positivity

/-- A matrix of reals read as a matrix of extended reals. -/
def cm {n k : Nat} (x : Fin n → Fin k → ℝ) : Mat n k := fun r d => (x r d : EReal)

/-- The embedding of the reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The embedding of the reals commutes with the maximum. -/
theorem coe_max (x y : ℝ) : ((max x y : ℝ) : EReal) = max (x : EReal) (y : EReal) :=
  (EReal.coe_strictMono.monotone).map_max

/-- Dividing by a nonzero real: the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- Dividing by one half is doubling. -/
theorem div_half (x : ℝ) : Ideal.div (x : EReal) half = ((x * 2 : ℝ) : EReal) := by
  rw [half_eq, div_coe_coe x (by norm_num)]; congr 1; ring

/-- Multiplying by the constant two. -/
theorem mul_two' (x : ℝ) : (x : EReal) * two = ((x * 2 : ℝ) : EReal) := by
  rw [two_eq, EReal.coe_mul]

end Cert.Contrastive

end
-- ==== Proof.LossBridgeRows.lean ====
/-
  Rows. Normalizing after stacking is normalizing before stacking, because the clamped length of a stacked row
  is the clamped length of the row it came from; the similarity of a stacked row with its partner is the
  similarity of the two batches' rows of the same index; and a matrix of reals normalizes to a matrix of reals,
  since a clamped length is a positive real.
-/
import proofs.«164459_j76733885710415_2_alg».proof.Proof.LossBridgeConst

noncomputable section

namespace Cert.Contrastive

open Idealize.ShloMosaic

/-- Stacking and normalizing commute. -/
theorem unit_stack (a b : Mat 4096 256) : unit (stack a b) = stack (unit a) (unit b) := by
  funext r d
  by_cases h : r.val < 4096
  · simp only [unit, len, stack, dif_pos h]
  · simp only [unit, len, stack, dif_neg h]

/-- A stacked row against its partner: row `wrap r` of one batch against row `wrap r` of the other. -/
theorem dot_partner (u v : Mat 4096 256) (r : Fin 8192) :
    dot (stack u v) r (partner r) = ∑ d, u (wrap r) d * v (wrap r) d := by
  unfold dot
  apply Finset.sum_congr rfl
  intro d _
  by_cases h : r.val < 4096
  · have hp : ¬ (partner r).val < 4096 := by simp only [partner, dif_pos h]; omega
    have e1 : (⟨r.val, h⟩ : Fin 4096) = wrap r := by
      apply Fin.ext; simp only [wrap]; omega
    have e2 : (⟨(partner r).val - 4096, by have := (partner r).isLt; omega⟩ : Fin 4096) = wrap r := by
      apply Fin.ext; simp only [wrap, partner, dif_pos h]; omega
    simp only [stack, dif_pos h, dif_neg hp, e1, e2]
  · have hp : (partner r).val < 4096 := by
      have := r.isLt; simp only [partner, dif_neg h]; omega
    have e1 : (⟨r.val - 4096, by have := r.isLt; omega⟩ : Fin 4096) = wrap r := by
      have := r.isLt; apply Fin.ext; simp only [wrap]; omega
    have e2 : (⟨(partner r).val, hp⟩ : Fin 4096) = wrap r := by
      have := r.isLt; apply Fin.ext; simp only [wrap, partner, dif_neg h]; omega
    simp only [stack, dif_pos hp, dif_neg h, e1, e2]
    exact mul_comm _ _

/-- The clamped length of a row of reals, as a real. -/
def lenR {n : Nat} (x : Fin n → Fin 256 → ℝ) (r : Fin n) : ℝ := max (Real.sqrt (∑ d, x r d * x r d)) epsR

theorem lenR_pos {n : Nat} (x : Fin n → Fin 256 → ℝ) (r : Fin n) : 0 < lenR x r :=
  lt_of_lt_of_le epsR_pos (le_max_right _ _)

theorem len_cm {n : Nat} (x : Fin n → Fin 256 → ℝ) (r : Fin n) : len (cm x) r = (lenR x r : EReal) := by
  have hs : (∑ d, cm x r d * cm x r d) = ((∑ d, x r d * x r d : ℝ) : EReal) := by
    rw [coe_sum]; apply Finset.sum_congr rfl; intro d _; simp only [cm, EReal.coe_mul]
  have h0 : ¬ (∑ d, x r d * x r d) < 0 :=
    not_lt.mpr (Finset.sum_nonneg fun d _ => mul_self_nonneg _)
  rw [len, hs, Ideal.sqrt_coe, if_neg h0, eps_eq, lenR, coe_max]

/-- A matrix of reals normalizes to the matrix of the real quotients. -/
theorem unit_cm {n : Nat} (x : Fin n → Fin 256 → ℝ) : unit (cm x) = cm (fun r d => x r d / lenR x r) := by
  funext r d
  simp only [unit, len_cm]
  simp only [cm]
  exact div_coe_coe _ (ne_of_gt (lenR_pos x r))

/-- Real matrices stack to a real matrix. -/
theorem stack_cm (x y : Fin 4096 → Fin 256 → ℝ) :
    stack (cm x) (cm y) = cm (fun r d => if h : r.val < 4096 then x ⟨r.val, h⟩ d else y ⟨r.val - 4096, by omega⟩ d) := by
  funext r d
  by_cases h : r.val < 4096
  · simp only [stack, cm, dif_pos h]
  · simp only [stack, cm, dif_neg h]

end Cert.Contrastive

end
-- ==== Proof.LossBridgeDen.lean ====
/-
  The denominator. For a matrix of reals every similarity is a real and every exponential a positive real; the
  masked sum over the columns and the full sum less its diagonal term are then one and the same real number,
  the sum of the exponentials over the OTHER columns, which is positive because there is at least one other
  column. With a positive real denominator the logarithm of the quotient splits into a difference, which is
  the comparison of the two arrangements' summands row by row.
-/
import proofs.«164459_j76733885710415_2_alg».proof.Proof.LossBridgeRows

noncomputable section

namespace Cert.Contrastive

open Idealize.ShloMosaic

/-- The similarity of two rows of reals, as a real. -/
def dotR {n : Nat} (z : Fin n → Fin 256 → ℝ) (r c : Fin n) : ℝ := ∑ d, z r d * z c d

theorem dot_cm {n : Nat} (z : Fin n → Fin 256 → ℝ) (r c : Fin n) : dot (cm z) r c = (dotR z r c : EReal) := by
  rw [dotR, coe_sum]; apply Finset.sum_congr rfl; intro d _; simp only [cm, EReal.coe_mul]

/-- The sum of the exponentials over the other columns, as a real. -/
def denRR (z : Fin 8192 → Fin 256 → ℝ) (r : Fin 8192) : ℝ :=
  ∑ c ∈ Finset.univ.erase r, Real.exp (dotR z r c * 2)

theorem partner_ne (r : Fin 8192) : partner r ≠ r := by
  intro h
  have hv := congrArg Fin.val h
  have hr := r.isLt
  by_cases h' : r.val < 4096
  · simp only [partner, dif_pos h'] at hv; omega
  · simp only [partner, dif_neg h'] at hv; omega

/-- At least one other column remains, and every term is positive. -/
theorem denRR_pos (z : Fin 8192 → Fin 256 → ℝ) (r : Fin 8192) : 0 < denRR z r := by
  apply Finset.sum_pos
  · intro c _; exact Real.exp_pos _
  · exact ⟨partner r, Finset.mem_erase.mpr ⟨partner_ne r, Finset.mem_univ _⟩⟩

/-- The masked sum is the sum over the other columns. -/
theorem denR_cm (z : Fin 8192 → Fin 256 → ℝ) (r : Fin 8192) : denR (cm z) r = (denRR z r : EReal) := by
  unfold denR denRR
  rw [coe_sum, ← Finset.add_sum_erase _ _ (Finset.mem_univ r)]
  have h0 : offDiag r r * Ideal.exp (Ideal.div (dot (cm z) r r) half) = 0 := by
    have : offDiag r r = 0 := by
      rw [offDiag, if_pos rfl, one_eq]
      show ((1 : ℝ) : EReal) - ((1 : ℝ) : EReal) = 0
      rw [← EReal.coe_sub, sub_self, EReal.coe_zero]
    rw [this, zero_mul]
  rw [h0, zero_add]
  apply Finset.sum_congr rfl
  intro c hc
  have hne : ¬ r = c := fun e => (Finset.ne_of_mem_erase hc) e.symm
  have h1 : offDiag r c = 1 := by
    rw [offDiag, if_neg hne, one_eq]
    show ((1 : ℝ) : EReal) - ((0 : ℝ) : EReal) = 1
    rw [← EReal.coe_sub, sub_zero, EReal.coe_one]
  rw [h1, one_mul, dot_cm, div_half, Ideal.exp_coe]

/-- The full sum less its diagonal term is the sum over the other columns. -/
theorem fullK_sub_selfK (z : Fin 8192 → Fin 256 → ℝ) (r : Fin 8192) :
    fullK (cm z) r - selfK (cm z) r = (denRR z r : EReal) := by
  have hf : fullK (cm z) r = ((∑ c, Real.exp (dotR z r c * 2) : ℝ) : EReal) := by
    unfold fullK; rw [coe_sum]; apply Finset.sum_congr rfl; intro c _
    rw [dot_cm, mul_two', Ideal.exp_coe]
  have hs : selfK (cm z) r = ((Real.exp (dotR z r r * 2) : ℝ) : EReal) := by
    unfold selfK; rw [dot_cm, mul_two', Ideal.exp_coe]
  have hr : (∑ c, Real.exp (dotR z r c * 2)) - Real.exp (dotR z r r * 2) = denRR z r := by
    rw [denRR, ← Finset.add_sum_erase _ (fun c => Real.exp (dotR z r c * 2)) (Finset.mem_univ r)]
    exact add_sub_cancel_left _ _
  rw [hf, hs, ← EReal.coe_sub, hr]

/-- One row's summand in the two arrangements. -/
theorem row_eq (z : Fin 8192 → Fin 256 → ℝ) (r : Fin 8192) :
    -(Ideal.log (Ideal.div (Ideal.exp (Ideal.div (dot (cm z) r (partner r)) half)) (denR (cm z) r)))
      = -(dot (cm z) r (partner r) * two) + Ideal.log (fullK (cm z) r - selfK (cm z) r) := by
  have hD := denRR_pos z r
  have hq : 0 < Real.exp (dotR z r (partner r) * 2) / denRR z r := div_pos (Real.exp_pos _) hD
  have hr : -Real.log (Real.exp (dotR z r (partner r) * 2) / denRR z r)
      = -(dotR z r (partner r) * 2) + Real.log (denRR z r) := by
    rw [Real.log_div (ne_of_gt (Real.exp_pos _)) (ne_of_gt hD), Real.log_exp]; ring
  rw [denR_cm, fullK_sub_selfK, dot_cm, div_half, mul_two', Ideal.exp_coe, div_coe_coe _ (ne_of_gt hD),
    Ideal.log_coe, Ideal.log_coe, if_neg (not_le.mpr hD), if_neg (not_le.mpr hq),
    ← EReal.coe_neg, ← EReal.coe_neg, ← EReal.coe_add, hr]

end Cert.Contrastive

end
-- ==== Proof.LossBridge.lean ====
/-
  The two arrangements of the contrastive loss agree on matrices of real numbers: the rows are normalized to the
  same real matrix whichever comes first, stacking or normalizing; the positive pair's similarity is the same
  inner product; and row by row the negated logarithm of the quotient is the split form, the masked denominator
  being the full sum less its diagonal term.
-/
import proofs.«164459_j76733885710415_2_alg».proof.Proof.LossBridgeDen

noncomputable section

namespace Cert.Contrastive

open Idealize.ShloMosaic

theorem lossK_eq_lossR (a b : Mat 4096 256) (ha : ∀ r d, ∃ x : ℝ, a r d = (x : EReal))
    (hb : ∀ r d, ∃ x : ℝ, b r d = (x : EReal)) : lossK a b = lossR a b := by
  choose A hA using ha
  choose B hB using hb
  have ea : a = cm A := funext fun r => funext fun d => hA r d
  have eb : b = cm B := funext fun r => funext fun d => hB r d
  rw [ea, eb]
  unfold lossK lossR
  rw [unit_stack]
  obtain ⟨Z, hZ⟩ : ∃ Z : Fin 8192 → Fin 256 → ℝ, stack (unit (cm A)) (unit (cm B)) = cm Z :=
    ⟨_, by rw [unit_cm, unit_cm, stack_cm]⟩
  refine congrArg (fun s : EReal => Ideal.div s count) ?_
  apply Finset.sum_congr rfl
  intro r _
  have hp : posK (cm A) (cm B) (wrap r) = dot (stack (unit (cm A)) (unit (cm B))) r (partner r) := by
    rw [dot_partner]; rfl
  rw [hp, hZ]
  exact (row_eq Z r).symm

end Cert.Contrastive

end
-- ==== Proof.Finite.lean ====
/-
  From the precondition to real entries. The precondition is the conjunction, over both arguments, of
  "every entry's absolute value is less than +∞"; at the extended reals the absolute value of either infinity is
  `⊤`, which is not less than `⊤`, so an entry that passes is a real number.
-/
import proofs.«164459_j76733885710415_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

namespace Cert.Contrastive

open Idealize.ShloMosaic Cert.Pre_finite_inputs

/-- The rank-zero shape has one index. -/
instance subsingleton_scalar_idx : Subsingleton S_.Idx := ⟨fun a b => funext fun d => d.elim0⟩

/-- An extended real whose absolute value is less than the pattern of `+∞` is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition every entry of both arguments is a real number. -/
theorem real_of_pre [Cert.Pre_finite_inputs.Facts] (x0 x1 : FVec Ideal S4096x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  have ea := fun i => Host.reduce_andi_all _ _ _ _ _ ha i
  have eb := fun i => Host.reduce_andi_all _ _ _ _ _ hb i
  exact ⟨fun i => real_of_abs_lt (x0 i) (ea i), fun i => real_of_abs_lt (x1 i) (eb i)⟩

end Cert.Contrastive
-- ==== Proof.LossBridgePre.lean ====
/-
  The two arrangements agree on the arguments the precondition admits: under it every entry of both arrays is a
  real number, which is all the comparison of the arrangements needs.
-/
import proofs.«164459_j76733885710415_2_alg».proof.Proof.LossBridge
import proofs.«164459_j76733885710415_2_alg».proof.Proof.Finite

noncomputable section

namespace Cert.Contrastive

open Idealize.ShloMosaic Cert.Pre_finite_inputs

theorem lossK_eq_lossR_of_pre [Cert.Pre_finite_inputs.Facts] (x0 x1 : FVec Ideal S4096x256 .f32)
    (h : Cert.Pre_finite_inputs.fn (F := Ideal) x0 x1 = fun _ => 1#1) :
    lossK (toMat x0) (toMat x1) = lossR (toMat x0) (toMat x1) :=
  lossK_eq_lossR (toMat x0) (toMat x1)
    (fun r d => (real_of_pre x0 x1 h).1 (ValueIdx.ix2 r d))
    (fun r d => (real_of_pre x0 x1 h).2 (ValueIdx.ix2 r d))

end Cert.Contrastive

end
-- ==== Proof.lean ====
/-
  The two programs compute one number: the contrastive loss of two batches of 4096 row vectors of length 256.

  The reference stacks the batches, divides every row by its Euclidean length (clamped below), forms ALL inner products
  of the 8192 unit rows, reads the two off-diagonals 4096 places away for the positive pairs, multiplies the
  exponentials by one minus the identity matrix, sums each row, and averages -log (exp (2 s⁺) / denominator). The kernel
  program normalizes each batch before stacking, lets a tiled kernel sum exp (2 s) over ALL columns of each row —
  a grid of 8 x 8 tiles, the eight column tiles of a row block accumulated in a scratch vector — subtracts the
  diagonal term exp (2 s(r, r)) afterwards, takes the positive pairs as 4096 row-by-row inner products of the two
  normalized batches, and averages -2 s⁺ + log (denominator).

  Over the extended reals these are the same function of finite inputs: every row length is then a positive real,
  every similarity and exponential a real, the masked sum is the full sum less its diagonal term and is positive
  (8191 positive terms remain), and -log (e^{2p} / d) = -2p + log d for d > 0. Without finiteness the laws used
  (cancelling the diagonal term, splitting the logarithm of a quotient) fail at the infinities, so the precondition is
  used exactly there.

  Each program's frame — it runs to the end, faults nowhere, leaves its two argument arrays unchanged — is proved
  from its run: the kernel program's through the pipeline of its one region (whose two input windows read one array,
  held in two half shares), at the word-level instance and at the ideal one alike; the reference's through its
  straight line of host operations. The idealization of the kernel rewrote nothing, so it preserves it trivially.
-/
import proofs.«164459_j76733885710415_2_alg».proof.Defs
import proofs.«164459_j76733885710415_2_alg».proof.Proof.Gen.Kernel
import proofs.«164459_j76733885710415_2_alg».proof.Proof.Gen.KernelIdeal
import proofs.«164459_j76733885710415_2_alg».proof.Proof.Gen.ReferenceIdeal
import proofs.«164459_j76733885710415_2_alg».proof.Proof.Gen.Pre_finite_inputs
import proofs.«164459_j76733885710415_2_alg».proof.Proof.BLaunch
import proofs.«164459_j76733885710415_2_alg».proof.Proof.KValue
import proofs.«164459_j76733885710415_2_alg».proof.Proof.RefLoss
import proofs.«164459_j76733885710415_2_alg».proof.Proof.RefRun
import proofs.«164459_j76733885710415_2_alg».proof.Proof.LossBridgePre
import Idealize.ShloMosaic.Adequacy
import Idealize.ShloMosaic.Init

noncomputable section

namespace Cert.Proof

open Idealize.ShloMosaic Idealize.ShloMosaic.TcCoe Idealize.SL.Sem Cert.Contrastive

/-- The word-level kernel program runs and keeps its arguments. -/
theorem frame_k : Cert.frame_Kernel := fun m ρ _ => Cert.Kernel.Frame.frame m ρ

/-- So does its reading at the ideal instance. -/
theorem frame_ki : Cert.frame_KernelIdeal := fun m ρ _ => Cert.KernelIdeal.Frame.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- At the ideal instance the kernel program ends at the unmasked arrangement of the loss and the reference at the
    masked one, of arguments that agree; for finite arguments the two arrangements are equal. -/
theorem algebraic : Cert.algebraic_KernelIdeal_ReferenceIdeal := by
  intro m ρ m' ρ' hpre hagree
  refine ⟨fun c => fun _ => lossK
      (toMat (m ((c.tc : Thread Cert.KernelIdeal.nD Cert.KernelIdeal.τ).loc Cert.KernelIdeal.main_arg0)))
      (toMat (m ((c.tc : Thread Cert.KernelIdeal.nD Cert.KernelIdeal.τ).loc Cert.KernelIdeal.main_arg1))),
    Cert.KernelIdeal.Frame.run_value m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.result_eq, (hagree c).1, (hagree c).2]
  exact congrArg (fun v => fun _ => v) (Cert.Contrastive.lossK_eq_lossR_of_pre _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
